-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S2x262144 : Shape := ⟨2, ![2, 262144]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S32x8192 : Shape := ⟨2, ![32, 8192]⟩
abbrev S8192 : Shape := ⟨1, ![8192]⟩
abbrev S64x10 : Shape := ⟨2, ![64, 10]⟩
abbrev S10 : Shape := ⟨1, ![10]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S8192x32 : S_.BroadcastsInDim S8192x32 (![] : Fin 0 → Fin S8192x32.rank)
  reducesTo_S8192x32_S_d0_1 : S8192x32.ReducesTo [0, 1] S_
  bcast_S_S32x8192 : S_.BroadcastsInDim S32x8192 (![] : Fin 0 → Fin S32x8192.rank)
  reducesTo_S32x8192_S_d0_1 : S32x8192.ReducesTo [0, 1] S_
  bcast_S_S8192 : S_.BroadcastsInDim S8192 (![] : Fin 0 → Fin S8192.rank)
  reducesTo_S8192_S_d0 : S8192.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg19 : FVec F S64x10 .f32) (main_arg20 : FVec F S10 .f32) (main_v83 : IVec S_ 1) (main_v84 : FVec F S8192 .f32) (main_cst_32 : FVec F S_ .f32) : IVec S_ 1 :=
  let main_v85 : FVec F S8192 .f32 := broadcastInDim S8192 ![] bcast_S_S8192 main_cst_32
  let main_v86 : IVec S8192 1 := cmpf .olt main_v84 main_v85
  let main_c_33 : IVec S_ 1 := constantI S_ 1 1#1
  let main_v87 : IVec S_ 1 := (fun x v => Host.reduce IntOp.andi x v reducesTo_S8192_S_d0 h_S_) main_v86 main_c_33
  let main_v88 : IVec S_ 1 := andi main_v83 main_v87
  let main_v89 : FVec F S64x10 .f32 := Host.absf main_arg19
  let main_cst_34 : FVec F S_ .f32 := constant S_ .f32 0x7F800000#32
  let main_v90 : FVec F S64x10 .f32 := broadcastInDim S64x10 ![] bcast_S_S64x10 main_cst_34
  let main_v91 : IVec S64x10 1 := cmpf .olt main_v89 main_v90
  let main_c_35 : IVec S_ 1 := constantI S_ 1 1#1
  let main_v92 : IVec S_ 1 := (fun x v => Host.reduce IntOp.andi x v reducesTo_S64x10_S_d0_1 h_S_) main_v91 main_c_35
  let main_v93 : IVec S_ 1 := andi main_v88 main_v92
  let main_v94 : FVec F S10 .f32 := Host.absf main_arg20
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg15 : FVec F S32x32 .f32) (main_arg16 : FVec F S32 .f32) (main_arg17 : FVec F S32x8192 .f32) (main_arg18 : FVec F S8192 .f32) (main_arg19 : FVec F S64x10 .f32) (main_arg20 : FVec F S10 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x8192 .f32 := Host.absf main_arg17
  let main_cst_30 : FVec F S_ .f32 := constant S_ .f32 0x7F800000#32
  let main_v80 : FVec F S32x8192 .f32 := broadcastInDim S32x8192 ![] bcast_S_S32x8192 main_cst_30
  let main_v81 : IVec S32x8192 1 := cmpf .olt main_v79 main_v80
  let main_c_31 : IVec S_ 1 := constantI S_ 1 1#1
  let main_v82 : IVec S_ 1 := (fun x v => Host.reduce IntOp.andi x v reducesTo_S32x8192_S_d0_1 h_S_) main_v81 main_c_31
  let main_v83 : IVec S_ 1 := andi main_v78 main_v82
  let main_v84 : FVec F S8192 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S32 .f32) (main_arg13 : FVec F S32x32 .f32) (main_arg14 : FVec F S32 .f32) (main_arg15 : FVec F S32x32 .f32) (main_arg16 : FVec F S32 .f32) (main_arg17 : FVec F S32x8192 .f32) (main_arg18 : FVec F S8192 .f32) (main_arg19 : FVec F S64x10 .f32) (main_arg20 : FVec F S10 .f32) (main_v48 : IVec S_ 1) (main_v49 : FVec F S8192x32 .f32) (main_v50 : FVec F S8192x32 .f32) : IVec S_ 1 :=
  let main_v51 : IVec S8192x32 1 := cmpf .olt main_v49 main_v50
  let main_c_19 : IVec S_ 1 := constantI S_ 1 1#1
  let main_v52 : IVec S_ 1 := (fun x v => Host.reduce IntOp.andi x v reducesTo_S8192x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_v63 main_v67

def fn_part2 {F : FTy → Type} [FloatOps F] (main_arg8 : FVec F S32 .f32) (main_arg9 : FVec F S32 .f32) (main_arg10 : FVec F S32 .f32) (main_arg11 : FVec F S8192x32 .f32) (main_arg12 : FVec F S32 .f32) (main_arg13 : FVec F S32x32 .f32) (main_arg14 : FVec F S32 .f32) (main_arg15 : FVec F S32x32 .f32) (main_arg16 : FVec F S32 .f32) (main_arg17 : FVec F S32x8192 .f32) (main_arg18 : FVec F S8192 .f32) (main_arg19 : FVec F S64x10 .f32) (main_arg20 : FVec F S10 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S8192x32 .f32 := Host.absf main_arg11
  let main_cst_18 : FVec F S_ .f32 := constant S_ .f32 0x7F800000#32
  let main_v50 : FVec F S8192x32 .f32 := broadcastInDim S8192x32 ![] bcast_S_S8192x32 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S32x32 .f32) (main_arg6 : FVec F S32 .f32) (main_arg7 : FVec F S32 .f32) (main_arg8 : FVec F S32 .f32) (main_arg9 : FVec F S32 .f32) (main_arg10 : FVec F S32 .f32) (main_arg11 : FVec F S8192x32 .f32) (main_arg12 : FVec F S32 .f32) (main_arg13 : FVec F S32x32 .f32) (main_arg14 : FVec F S32 .f32) (main_arg15 : FVec F S32x32 .f32) (main_arg16 : FVec F S32 .f32) (main_arg17 : FVec F S32x8192 .f32) (main_arg18 : FVec F S8192 .f32) (main_arg19 : FVec F S64x10 .f32) (main_arg20 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S8192x8192 .f32) (main_arg1 : FVec F S8192x128 .f32) (main_arg2 : IVec S2x262144 32) (main_arg3 : FVec F S128x32 .f32) (main_arg4 : FVec F S32 .f32) (main_arg5 : FVec F S32x32 .f32) (main_arg6 : FVec F S32 .f32) (main_arg7 : FVec F S32 .f32) (main_arg8 : FVec F S32 .f32) (main_arg9 : FVec F S32 .f32) (main_arg10 : FVec F S32 .f32) (main_arg11 : FVec F S8192x32 .f32) (main_arg12 : FVec F S32 .f32) (main_arg13 : FVec F S32x32 .f32) (main_arg14 : FVec F S32 .f32) (main_arg15 : FVec F S32x32 .f32) (main_arg16 : FVec F S32 .f32) (main_arg17 : FVec F S32x8192 .f32) (main_arg18 : FVec F S8192 .f32) (main_arg19 : FVec F S64x10 .f32) (main_arg20 : FVec F S10 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x8192 : Shape := ⟨2, ![8192, 8192]⟩
abbrev S8192x128 : Shape := ⟨2, ![8192, 128]⟩
abbrev S2x262144 : Shape := ⟨2, ![2, 262144]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S32x8192 : Shape := ⟨2, ![32, 8192]⟩
abbrev S8192 : Shape := ⟨1, ![8192]⟩
abbrev S64x10 : Shape := ⟨2, ![64, 10]⟩
abbrev S10 : Shape := ⟨1, ![10]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x32 : Shape := ⟨2, ![270336, 32]⟩
abbrev S1x32 : Shape := ⟨2, ![1, 32]⟩
abbrev S1x8192 : Shape := ⟨2, ![1, 8192]⟩
abbrev S128x8192 : Shape := ⟨2, ![128, 8192]⟩
abbrev S8192x64 : Shape := ⟨2, ![8192, 64]⟩
abbrev S8192x10 : Shape := ⟨2, ![8192, 10]⟩
abbrev S1x10 : Shape := ⟨2, ![1, 10]⟩
abbrev S8192x1 : Shape := ⟨2, ![8192, 1]⟩

abbrev nBuf : Space → Nat
  | .hbm => 245
  | .vmem => 14
  | .smem => 0
  | _ => 0

abbrev hbmTy0_0 (i : Nat) : BufTy := match i % 128 with
  | 0 => ⟨S8192x8192, .f32⟩
  | 1 => ⟨S8192x128, .f32⟩
  | 2 => ⟨S2x262144, .i32⟩
  | 3 => ⟨S128x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S8192x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x8192, .f32⟩
  | 18 => ⟨S8192, .f32⟩
  | 19 => ⟨S64x10, .f32⟩
  | 20 => ⟨S10, .f32⟩
  | 21 => ⟨S8192, .i32⟩
  | 22 => ⟨S1x262144, .i32⟩
  | 23 => ⟨S262144, .i32⟩
  | 24 => ⟨S270336, .i32⟩
  | 25 => ⟨S1x262144, .i32⟩
  | 26 => ⟨S262144, .i32⟩
  | 27 => ⟨S270336, .i32⟩
  | 28 => ⟨S8192x32, .f32⟩
  | 29 => ⟨S_, .f32⟩
  | 30 => ⟨S270336, .f32⟩
  | 31 => ⟨S_, .f32⟩
  | 32 => ⟨S8192, .f32⟩
  | 33 => ⟨S270336x1, .i32⟩
  | 34 => ⟨S8192, .f32⟩
  | 35 => ⟨S8192, .f32⟩
  | 36 => ⟨S_, .i32⟩
  | 37 => ⟨S270336, .i32⟩
  | 38 => ⟨S270336, .i1⟩
  | 39 => ⟨S_, .i32⟩
  | 40 => ⟨S270336, .i32⟩
  | 41 => ⟨S270336, .i32⟩
  | 42 => ⟨S270336, .i32⟩
  | 43 => ⟨S270336x1, .i32⟩
  | 44 => ⟨S270336, .f32⟩
  | 45 => ⟨S_, .i32⟩
  | 46 => ⟨S270336, .i32⟩
  | 47 => ⟨S270336, .i1⟩
  | 48 => ⟨S_, .i32⟩
  | 49 => ⟨S270336, .i32⟩
  | 50 => ⟨S270336, .i32⟩
  | 51 => ⟨S270336, .i32⟩
  | 52 => ⟨S270336x1, .i32⟩
  | 53 => ⟨S270336, .f32⟩
  | 54 => ⟨S270336, .f32⟩
  | 55 => ⟨S270336x1, .f32⟩
  | 56 => ⟨S_, .i32⟩
  | 57 => ⟨S270336, .i32⟩
  | 58 => ⟨S270336, .i1⟩
  | 59 => ⟨S_, .i32⟩
  | 60 => ⟨S270336, .i32⟩
  | 61 => ⟨S270336, .i32⟩
  | 62 => ⟨S270336, .i32⟩
  | 63 => ⟨S270336x1, .i32⟩
  | 64 => ⟨S270336x32, .f32⟩
  | 65 => ⟨S270336x32, .f32⟩
  | 66 => ⟨S270336x32, .f32⟩
  | 67 => ⟨S_, .f32⟩
  | 68 => ⟨S8192x32, .f32⟩
  | 69 => ⟨S270336x1, .i32⟩
  | 70 => ⟨S8192x32, .f32⟩
  | 71 => ⟨S1x32, .f32⟩
  | 72 => ⟨S8192x32, .f32⟩
  | 73 => ⟨S8192x32, .f32⟩
  | 74 => ⟨S_, .f32⟩
  | 75 => ⟨S32, .f32⟩
  | 76 => ⟨S_, .f32⟩
  | 77 => ⟨S32, .f32⟩
  | 78 => ⟨S32, .f32⟩
  | 79 => ⟨S_, .i32⟩
  | 80 => ⟨S_, .f32⟩
  | 81 => ⟨S32, .f32⟩
  | 82 => ⟨S1x32, .f32⟩
  | 83 => ⟨S_, .f32⟩
  | 84 => ⟨S1x32, .f32⟩
  | 85 => ⟨S1x32, .f32⟩
  | 86 => ⟨S8192x32, .f32⟩
  | 87 => ⟨S8192x32, .f32⟩
  | 88 => ⟨S8192x32, .f32⟩
  | 89 => ⟨S_, .f32⟩
  | 90 => ⟨S_, .f32⟩
  | 91 => ⟨S_, .f32⟩
  | 92 => ⟨S_, .f32⟩
  | 93 => ⟨S32, .f32⟩
  | 94 => ⟨S32, .f32⟩
  | 95 => ⟨S32, .f32⟩
  | 96 => ⟨S_, .f32⟩
  | 97 => ⟨S_, .i1⟩
  | 98 => ⟨S_, .f32⟩
  | 99 => ⟨S_, .f32⟩
  | 100 => ⟨S32, .f32⟩
  | 101 => ⟨S32, .f32⟩
  | 102 => ⟨S1x32, .f32⟩
  | 103 => ⟨S8192x32, .f32⟩
  | 104 => ⟨S8192x32, .f32⟩
  | 105 => ⟨S1x32, .f32⟩
  | 106 => ⟨S8192x32, .f32⟩
  | 107 => ⟨S8192x32, .f32⟩
  | 108 => ⟨S_, .f32⟩
  | 109 => ⟨S32, .f32⟩
  | 110 => ⟨S32, .f32⟩
  | 111 => ⟨S32, .f32⟩
  | 112 => ⟨S1x32, .f32⟩
  | 113 => ⟨S8192x32, .f32⟩
  | 114 => ⟨S8192x32, .f32⟩
  | 115 => ⟨S1x32, .f32⟩
  | 116 => ⟨S8192x32, .f32⟩
  | 117 => ⟨S8192x32, .f32⟩
  | 118 => ⟨S_, .f32⟩
  | 119 => ⟨S8192x32, .f32⟩
  | 120 => ⟨S8192x32, .f32⟩
  | 121 => ⟨S8192x32, .bf16⟩
  | 122 => ⟨S32x32, .bf16⟩
  | 123 => ⟨S32x32, .bf16⟩
  | 124 => ⟨S32x8192, .bf16⟩
  | 125 => ⟨S1x32, .f32⟩
  | 126 => ⟨S1x32, .f32⟩
  | 127 => ⟨S1x32, .f32⟩
  | _ => ⟨S8192x8192, .f32⟩

abbrev hbmTy0_1 (i : Nat) : BufTy := match i % 128 with
  | 0 => ⟨S1x8192, .f32⟩
  | 1 => ⟨S8192x32, .f32⟩
  | 2 => ⟨S8192x8192, .f32⟩
  | 3 => ⟨S8192x32, .f32⟩
  | 4 => ⟨S8192x32, .f32⟩
  | 5 => ⟨S_, .f32⟩
  | 6 => ⟨S270336, .f32⟩
  | 7 => ⟨S_, .f32⟩
  | 8 => ⟨S8192, .f32⟩
  | 9 => ⟨S270336x1, .i32⟩
  | 10 => ⟨S8192, .f32⟩
  | 11 => ⟨S8192, .f32⟩
  | 12 => ⟨S_, .i32⟩
  | 13 => ⟨S270336, .i32⟩
  | 14 => ⟨S270336, .i1⟩
  | 15 => ⟨S_, .i32⟩
  | 16 => ⟨S270336, .i32⟩
  | 17 => ⟨S270336, .i32⟩
  | 18 => ⟨S270336, .i32⟩
  | 19 => ⟨S270336x1, .i32⟩
  | 20 => ⟨S270336, .f32⟩
  | 21 => ⟨S_, .i32⟩
  | 22 => ⟨S270336, .i32⟩
  | 23 => ⟨S270336, .i1⟩
  | 24 => ⟨S_, .i32⟩
  | 25 => ⟨S270336, .i32⟩
  | 26 => ⟨S270336, .i32⟩
  | 27 => ⟨S270336, .i32⟩
  | 28 => ⟨S270336x1, .i32⟩
  | 29 => ⟨S270336, .f32⟩
  | 30 => ⟨S270336, .f32⟩
  | 31 => ⟨S270336x1, .f32⟩
  | 32 => ⟨S_, .i32⟩
  | 33 => ⟨S270336, .i32⟩
  | 34 => ⟨S270336, .i1⟩
  | 35 => ⟨S_, .i32⟩
  | 36 => ⟨S270336, .i32⟩
  | 37 => ⟨S270336, .i32⟩
  | 38 => ⟨S270336, .i32⟩
  | 39 => ⟨S270336x1, .i32⟩
  | 40 => ⟨S270336x32, .f32⟩
  | 41 => ⟨S270336x32, .f32⟩
  | 42 => ⟨S270336x32, .f32⟩
  | 43 => ⟨S_, .f32⟩
  | 44 => ⟨S8192x32, .f32⟩
  | 45 => ⟨S270336x1, .i32⟩
  | 46 => ⟨S8192x32, .f32⟩
  | 47 => ⟨S1x32, .f32⟩
  | 48 => ⟨S8192x32, .f32⟩
  | 49 => ⟨S8192x32, .f32⟩
  | 50 => ⟨S_, .f32⟩
  | 51 => ⟨S32, .f32⟩
  | 52 => ⟨S_, .f32⟩
  | 53 => ⟨S32, .f32⟩
  | 54 => ⟨S32, .f32⟩
  | 55 => ⟨S_, .i32⟩
  | 56 => ⟨S_, .f32⟩
  | 57 => ⟨S32, .f32⟩
  | 58 => ⟨S1x32, .f32⟩
  | 59 => ⟨S_, .f32⟩
  | 60 => ⟨S1x32, .f32⟩
  | 61 => ⟨S1x32, .f32⟩
  | 62 => ⟨S8192x32, .f32⟩
  | 63 => ⟨S8192x32, .f32⟩
  | 64 => ⟨S8192x32, .f32⟩
  | 65 => ⟨S_, .f32⟩
  | 66 => ⟨S_, .f32⟩
  | 67 => ⟨S_, .f32⟩
  | 68 => ⟨S_, .f32⟩
  | 69 => ⟨S32, .f32⟩
  | 70 => ⟨S32, .f32⟩
  | 71 => ⟨S32, .f32⟩
  | 72 => ⟨S_, .f32⟩
  | 73 => ⟨S_, .i1⟩
  | 74 => ⟨S_, .f32⟩
  | 75 => ⟨S_, .f32⟩
  | 76 => ⟨S32, .f32⟩
  | 77 => ⟨S32, .f32⟩
  | 78 => ⟨S1x32, .f32⟩
  | 79 => ⟨S8192x32, .f32⟩
  | 80 => ⟨S8192x32, .f32⟩
  | 81 => ⟨S1x32, .f32⟩
  | 82 => ⟨S8192x32, .f32⟩
  | 83 => ⟨S8192x32, .f32⟩
  | 84 => ⟨S_, .f32⟩
  | 85 => ⟨S32, .f32⟩
  | 86 => ⟨S32, .f32⟩
  | 87 => ⟨S32, .f32⟩
  | 88 => ⟨S1x32, .f32⟩
  | 89 => ⟨S8192x32, .f32⟩
  | 90 => ⟨S8192x32, .f32⟩
  | 91 => ⟨S1x32, .f32⟩
  | 92 => ⟨S8192x32, .f32⟩
  | 93 => ⟨S8192x32, .f32⟩
  | 94 => ⟨S_, .f32⟩
  | 95 => ⟨S8192x32, .f32⟩
  | 96 => ⟨S8192x32, .f32⟩
  | 97 => ⟨S8192x64, .f32⟩
  | 98 => ⟨S8192x10, .f32⟩
  | 99 => ⟨S1x10, .f32⟩
  | 100 => ⟨S8192x10, .f32⟩
  | 101 => ⟨S8192x10, .f32⟩
  | 102 => ⟨S_, .f32⟩
  | 103 => ⟨S8192, .f32⟩
  | 104 => ⟨S_, .f32⟩
  | 105 => ⟨S8192, .f32⟩
  | 106 => ⟨S8192, .f32⟩
  | 107 => ⟨S8192x1, .f32⟩
  | 108 => ⟨S8192x10, .f32⟩
  | 109 => ⟨S8192x10, .f32⟩
  | 110 => ⟨S8192x10, .f32⟩
  | 111 => ⟨S_, .f32⟩
  | 112 => ⟨S8192, .f32⟩
  | 113 => ⟨S8192x1, .f32⟩
  | 114 => ⟨S8192x1, .f32⟩
  | 115 => ⟨S8192x10, .f32⟩
  | 116 => ⟨S8192x10, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | .local _ .vmem, ⟨0, _⟩ => ⟨S128x8192, .f32⟩
  | .local _ .vmem, ⟨1, _⟩ => ⟨S128x8192, .f32⟩
  | .local _ .vmem, ⟨2, _⟩ => ⟨S8192x32, .bf16⟩
  | .local _ .vmem, ⟨3, _⟩ => ⟨S1x32, .f32⟩
  | .local _ .vmem, ⟨4, _⟩ => ⟨S32x32, .bf16⟩
  | .local _ .vmem, ⟨5, _⟩ => ⟨S1x32, .f32⟩
  | .local _ .vmem, ⟨6, _⟩ => ⟨S32x32, .bf16⟩
  | .local _ .vmem, ⟨7, _⟩ => ⟨S1x32, .f32⟩
  | .local _ .vmem, ⟨8, _⟩ => ⟨S32x8192, .bf16⟩
  | .local _ .vmem, ⟨9, _⟩ => ⟨S1x8192, .f32⟩
  | .local _ .vmem, ⟨10, _⟩ => ⟨S128x32, .f32⟩
  | .local _ .vmem, ⟨11, _⟩ => ⟨S128x32, .f32⟩
  | .local _ .vmem, ⟨12, _⟩ => ⟨S128x8192, .f32⟩
  | .local _ .vmem, ⟨13, _⟩ => ⟨S128x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_c_9 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_10 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_call1_cst : Ref sig .tc := ⟨.hbm, 118, rfl⟩
abbrev main_call1_v0 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72_0 : Ref sig .tc := ⟨.hbm, 129, rfl⟩
abbrev main_v72_1 : Ref sig .tc := ⟨.hbm, 130, rfl⟩
abbrev main_v73 : Ref sig .tc := ⟨.hbm, 131, rfl⟩
abbrev main_v74 : Ref sig .tc := ⟨.hbm, 132, rfl⟩
abbrev main_cst_11 : Ref sig .tc := ⟨.hbm, 133, rfl⟩
abbrev main_v75 : Ref sig .tc := ⟨.hbm, 134, rfl⟩
abbrev main_cst_12 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_c_13 : Ref sig .tc := ⟨.hbm, 140, rfl⟩
abbrev main_v80 : Ref sig .tc := ⟨.hbm, 141, rfl⟩
abbrev main_v81 : Ref sig .tc := ⟨.hbm, 142, rfl⟩
abbrev main_c_14 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_15 : Ref sig .tc := ⟨.hbm, 149, rfl⟩
abbrev main_v87 : Ref sig .tc := ⟨.hbm, 150, rfl⟩
abbrev main_v88 : Ref sig .tc := ⟨.hbm, 151, rfl⟩
abbrev main_c_16 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_c_17 : Ref sig .tc := ⟨.hbm, 160, rfl⟩
abbrev main_v96 : Ref sig .tc := ⟨.hbm, 161, rfl⟩
abbrev main_v97 : Ref sig .tc := ⟨.hbm, 162, rfl⟩
abbrev main_c_18 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_19 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_20 : Ref sig .tc := ⟨.hbm, 178, rfl⟩
abbrev main_v111 : Ref sig .tc := ⟨.hbm, 179, rfl⟩
abbrev main_cst_21 : Ref sig .tc := ⟨.hbm, 180, rfl⟩
abbrev main_v112 : Ref sig .tc := ⟨.hbm, 181, rfl⟩
abbrev main_v113 : Ref sig .tc := ⟨.hbm, 182, rfl⟩
abbrev main_c_22 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_v5 : Ref sig .tc := ⟨.hbm, 191, rfl⟩
abbrev main_call2_v6 : Ref sig .tc := ⟨.hbm, 192, rfl⟩
abbrev main_call2_v7 : Ref sig .tc := ⟨.hbm, 193, rfl⟩
abbrev main_call2_cst_1 : Ref sig .tc := ⟨.hbm, 194, rfl⟩
abbrev main_call2_v8 : Ref sig .tc := ⟨.hbm, 195, rfl⟩
abbrev main_call2_cst_2 : Ref sig .tc := ⟨.hbm, 196, rfl⟩
abbrev main_call2_v9 : Ref sig .tc := ⟨.hbm, 197, rfl⟩
abbrev main_call2_v10 : Ref sig .tc := ⟨.hbm, 198, rfl⟩
abbrev main_call2_v11 : Ref sig .tc := ⟨.hbm, 199, rfl⟩
abbrev main_call2_cst_3 : Ref sig .tc := ⟨.hbm, 200, rfl⟩
abbrev main_call2_v12 : Ref sig .tc := ⟨.hbm, 201, rfl⟩
abbrev main_call2_cst_4 : Ref sig .tc := ⟨.hbm, 202, rfl⟩
abbrev main_call2_call0_v0 : Ref sig .tc := ⟨.hbm, 203, rfl⟩
abbrev main_call2_call0_v1 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_cst_23 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_call3_cst : Ref sig .tc := ⟨.hbm, 222, rfl⟩
abbrev main_call3_v0 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_call4_cst : Ref sig .tc := ⟨.hbm, 230, rfl⟩
abbrev main_call4_v0 : Ref sig .tc := ⟨.hbm, 231, rfl⟩
abbrev main_call4_cst_0 : Ref sig .tc := ⟨.hbm, 232, rfl⟩
abbrev main_call4_v1 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_v5 : Ref sig .tc := ⟨.hbm, 237, rfl⟩
abbrev main_call4_v6 : Ref sig .tc := ⟨.hbm, 238, rfl⟩
abbrev main_call4_cst_1 : Ref sig .tc := ⟨.hbm, 239, rfl⟩
abbrev main_call4_v7 : Ref sig .tc := ⟨.hbm, 240, rfl⟩
abbrev main_call4_v8 : Ref sig .tc := ⟨.hbm, 241, rfl⟩
abbrev main_call4_v9 : Ref sig .tc := ⟨.hbm, 242, rfl⟩
abbrev main_call4_v10 : Ref sig .tc := ⟨.hbm, 243, rfl⟩
abbrev main_v136 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S32_d0 : S8192x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bitsLt_bf16_f32 : FTy.bits .bf16 < FTy.bits .f32
  shapeCasts_S32_S1x32 : S32.ShapeCasts S1x32
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  concatenates_S8192x32_S8192x32_S8192x64_d1 : Shape.Concatenates [S8192x32, S8192x32] S8192x64 1
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  dot_S8192x128_S128x32_S8192x32_1_0_0_1_n_n_wf : DotDims.WF S8192x128 S128x32 S8192x32 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S128x8192_S8192x32_S128x32_1_0_0_1_n_n_wf : DotDims.WF S128x8192 S8192x32 S128x32 [1] [0] [0] [1] [] []
  dot_S128x32_S32x32_S128x32_1_0_0_1_n_n_wf : DotDims.WF S128x32 S32x32 S128x32 [1] [0] [0] [1] [] []
  dot_S128x32_S32x8192_S128x8192_1_0_0_1_n_n_wf : DotDims.WF S128x32 S32x8192 S128x8192 [1] [0] [0] [1] [] []
  dot_S8192x32_S32x32_S8192x32_1_0_0_1_n_n_wf : DotDims.WF S8192x32 S32x32 S8192x32 [1] [0] [0] [1] [] []
  dot_S8192x64_S64x10_S8192x10_1_0_0_1_n_n_wf : DotDims.WF S8192x64 S64x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .bf16 = 32 ∨ (Rect.block (s := S8192x32) S8192x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x8192.size a ≤ S32x8192.size a
  hwx0_7 : ∀ i : grid0.Coords, EltTy.bits .bf16 = 32 ∨ (Rect.block (s := S32x8192) S32x8192.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x32.size a ≤ S8192x32.size a
  hwx0_9 : ∀ i : grid0.Coords, EltTy.bits .f32 = 32 ∨ (Rect.block (s := S8192x32) S128x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x8192.size a ≤ S8192x8192.size a
  hwx0_10 : ∀ i : grid0.Coords, EltTy.bits .f32 = 32 ∨ (Rect.block (s := S8192x8192) S128x8192.size (cc0_transform_10 i) (hinb0_10 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S128x8192_S8192x32_S128x32_1_0_0_1_n_n : DotDims S128x8192 S8192x32 S128x32 where
  lhsContracting := [1]
  rhsContracting := [0]
  lhsNonContracting := [0]
  rhsNonContracting := [1]
  lhsBatch := []
  rhsBatch := []
  wf := dot_S128x8192_S8192x32_S128x32_1_0_0_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x32_S32x8192_S128x8192_1_0_0_1_n_n : DotDims S128x32 S32x8192 S128x8192 where
  lhsContracting := [1]
  rhsContracting := [0]
  lhsNonContracting := [0]
  rhsNonContracting := [1]
  lhsBatch := []
  rhsBatch := []
  wf := dot_S128x32_S32x8192_S128x8192_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v70) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v67) S32x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S1x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72_0) S128x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v72_1) S128x8192.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S2x262144 : Shape := ⟨2, ![2, 262144]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S32x8192 : Shape := ⟨2, ![32, 8192]⟩
abbrev S8192 : Shape := ⟨1, ![8192]⟩
abbrev S64x10 : Shape := ⟨2, ![64, 10]⟩
abbrev S10 : Shape := ⟨1, ![10]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x32 : Shape := ⟨2, ![270336, 32]⟩
abbrev S1x32 : Shape := ⟨2, ![1, 32]⟩
abbrev S1x8192 : Shape := ⟨2, ![1, 8192]⟩
abbrev S8192x64 : Shape := ⟨2, ![8192, 64]⟩
abbrev S8192x10 : Shape := ⟨2, ![8192, 10]⟩
abbrev S1x10 : Shape := ⟨2, ![1, 10]⟩
abbrev S8192x1 : Shape := ⟨2, ![8192, 1]⟩

abbrev nBuf : Space → Nat
  | .hbm => 251
  | .vmem => 0
  | .smem => 0
  | _ => 0

abbrev hbmTy0_0 (i : Nat) : BufTy := match i % 128 with
  | 0 => ⟨S8192x8192, .f32⟩
  | 1 => ⟨S8192x128, .f32⟩
  | 2 => ⟨S2x262144, .i32⟩
  | 3 => ⟨S128x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S8192x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S32x8192, .f32⟩
  | 18 => ⟨S8192, .f32⟩
  | 19 => ⟨S64x10, .f32⟩
  | 20 => ⟨S10, .f32⟩
  | 21 => ⟨S8192, .i32⟩
  | 22 => ⟨S1x262144, .i32⟩
  | 23 => ⟨S262144, .i32⟩
  | 24 => ⟨S270336, .i32⟩
  | 25 => ⟨S1x262144, .i32⟩
  | 26 => ⟨S262144, .i32⟩
  | 27 => ⟨S270336, .i32⟩
  | 28 => ⟨S8192x32, .f32⟩
  | 29 => ⟨S_, .f32⟩
  | 30 => ⟨S270336, .f32⟩
  | 31 => ⟨S_, .f32⟩
  | 32 => ⟨S8192, .f32⟩
  | 33 => ⟨S270336x1, .i32⟩
  | 34 => ⟨S8192, .f32⟩
  | 35 => ⟨S8192, .f32⟩
  | 36 => ⟨S_, .i32⟩
  | 37 => ⟨S270336, .i32⟩
  | 38 => ⟨S270336, .i1⟩
  | 39 => ⟨S_, .i32⟩
  | 40 => ⟨S270336, .i32⟩
  | 41 => ⟨S270336, .i32⟩
  | 42 => ⟨S270336, .i32⟩
  | 43 => ⟨S270336x1, .i32⟩
  | 44 => ⟨S270336, .f32⟩
  | 45 => ⟨S_, .i32⟩
  | 46 => ⟨S270336, .i32⟩
  | 47 => ⟨S270336, .i1⟩
  | 48 => ⟨S_, .i32⟩
  | 49 => ⟨S270336, .i32⟩
  | 50 => ⟨S270336, .i32⟩
  | 51 => ⟨S270336, .i32⟩
  | 52 => ⟨S270336x1, .i32⟩
  | 53 => ⟨S270336, .f32⟩
  | 54 => ⟨S270336, .f32⟩
  | 55 => ⟨S270336x1, .f32⟩
  | 56 => ⟨S_, .i32⟩
  | 57 => ⟨S270336, .i32⟩
  | 58 => ⟨S270336, .i1⟩
  | 59 => ⟨S_, .i32⟩
  | 60 => ⟨S270336, .i32⟩
  | 61 => ⟨S270336, .i32⟩
  | 62 => ⟨S270336, .i32⟩
  | 63 => ⟨S270336x1, .i32⟩
  | 64 => ⟨S270336x32, .f32⟩
  | 65 => ⟨S270336x32, .f32⟩
  | 66 => ⟨S270336x32, .f32⟩
  | 67 => ⟨S_, .f32⟩
  | 68 => ⟨S8192x32, .f32⟩
  | 69 => ⟨S270336x1, .i32⟩
  | 70 => ⟨S8192x32, .f32⟩
  | 71 => ⟨S1x32, .f32⟩
  | 72 => ⟨S8192x32, .f32⟩
  | 73 => ⟨S8192x32, .f32⟩
  | 74 => ⟨S_, .f32⟩
  | 75 => ⟨S32, .f32⟩
  | 76 => ⟨S_, .f32⟩
  | 77 => ⟨S32, .f32⟩
  | 78 => ⟨S32, .f32⟩
  | 79 => ⟨S_, .i32⟩
  | 80 => ⟨S_, .f32⟩
  | 81 => ⟨S32, .f32⟩
  | 82 => ⟨S1x32, .f32⟩
  | 83 => ⟨S_, .f32⟩
  | 84 => ⟨S1x32, .f32⟩
  | 85 => ⟨S1x32, .f32⟩
  | 86 => ⟨S8192x32, .f32⟩
  | 87 => ⟨S8192x32, .f32⟩
  | 88 => ⟨S8192x32, .f32⟩
  | 89 => ⟨S_, .f32⟩
  | 90 => ⟨S_, .f32⟩
  | 91 => ⟨S_, .f32⟩
  | 92 => ⟨S_, .f32⟩
  | 93 => ⟨S32, .f32⟩
  | 94 => ⟨S32, .f32⟩
  | 95 => ⟨S32, .f32⟩
  | 96 => ⟨S_, .f32⟩
  | 97 => ⟨S_, .i1⟩
  | 98 => ⟨S_, .f32⟩
  | 99 => ⟨S_, .f32⟩
  | 100 => ⟨S32, .f32⟩
  | 101 => ⟨S32, .f32⟩
  | 102 => ⟨S1x32, .f32⟩
  | 103 => ⟨S8192x32, .f32⟩
  | 104 => ⟨S8192x32, .f32⟩
  | 105 => ⟨S1x32, .f32⟩
  | 106 => ⟨S8192x32, .f32⟩
  | 107 => ⟨S8192x32, .f32⟩
  | 108 => ⟨S_, .f32⟩
  | 109 => ⟨S32, .f32⟩
  | 110 => ⟨S32, .f32⟩
  | 111 => ⟨S32, .f32⟩
  | 112 => ⟨S1x32, .f32⟩
  | 113 => ⟨S8192x32, .f32⟩
  | 114 => ⟨S8192x32, .f32⟩
  | 115 => ⟨S1x32, .f32⟩
  | 116 => ⟨S8192x32, .f32⟩
  | 117 => ⟨S8192x32, .f32⟩
  | 118 => ⟨S_, .f32⟩
  | 119 => ⟨S8192x32, .f32⟩
  | 120 => ⟨S8192x32, .f32⟩
  | 121 => ⟨S8192x32, .f32⟩
  | 122 => ⟨S1x32, .f32⟩
  | 123 => ⟨S8192x32, .f32⟩
  | 124 => ⟨S8192x32, .f32⟩
  | 125 => ⟨S8192x32, .f32⟩
  | 126 => ⟨S8192x32, .f32⟩
  | 127 => ⟨S_, .f32⟩
  | _ => ⟨S8192x8192, .f32⟩

abbrev hbmTy0_1 (i : Nat) : BufTy := match i % 128 with
  | 0 => ⟨S270336, .f32⟩
  | 1 => ⟨S_, .f32⟩
  | 2 => ⟨S8192, .f32⟩
  | 3 => ⟨S270336x1, .i32⟩
  | 4 => ⟨S8192, .f32⟩
  | 5 => ⟨S8192, .f32⟩
  | 6 => ⟨S_, .i32⟩
  | 7 => ⟨S270336, .i32⟩
  | 8 => ⟨S270336, .i1⟩
  | 9 => ⟨S_, .i32⟩
  | 10 => ⟨S270336, .i32⟩
  | 11 => ⟨S270336, .i32⟩
  | 12 => ⟨S270336, .i32⟩
  | 13 => ⟨S270336x1, .i32⟩
  | 14 => ⟨S270336, .f32⟩
  | 15 => ⟨S_, .i32⟩
  | 16 => ⟨S270336, .i32⟩
  | 17 => ⟨S270336, .i1⟩
  | 18 => ⟨S_, .i32⟩
  | 19 => ⟨S270336, .i32⟩
  | 20 => ⟨S270336, .i32⟩
  | 21 => ⟨S270336, .i32⟩
  | 22 => ⟨S270336x1, .i32⟩
  | 23 => ⟨S270336, .f32⟩
  | 24 => ⟨S270336, .f32⟩
  | 25 => ⟨S270336x1, .f32⟩
  | 26 => ⟨S_, .i32⟩
  | 27 => ⟨S270336, .i32⟩
  | 28 => ⟨S270336, .i1⟩
  | 29 => ⟨S_, .i32⟩
  | 30 => ⟨S270336, .i32⟩
  | 31 => ⟨S270336, .i32⟩
  | 32 => ⟨S270336, .i32⟩
  | 33 => ⟨S270336x1, .i32⟩
  | 34 => ⟨S270336x32, .f32⟩
  | 35 => ⟨S270336x32, .f32⟩
  | 36 => ⟨S270336x32, .f32⟩
  | 37 => ⟨S_, .f32⟩
  | 38 => ⟨S8192x32, .f32⟩
  | 39 => ⟨S270336x1, .i32⟩
  | 40 => ⟨S8192x32, .f32⟩
  | 41 => ⟨S1x32, .f32⟩
  | 42 => ⟨S8192x32, .f32⟩
  | 43 => ⟨S8192x32, .f32⟩
  | 44 => ⟨S_, .f32⟩
  | 45 => ⟨S32, .f32⟩
  | 46 => ⟨S_, .f32⟩
  | 47 => ⟨S32, .f32⟩
  | 48 => ⟨S32, .f32⟩
  | 49 => ⟨S_, .i32⟩
  | 50 => ⟨S_, .f32⟩
  | 51 => ⟨S32, .f32⟩
  | 52 => ⟨S1x32, .f32⟩
  | 53 => ⟨S_, .f32⟩
  | 54 => ⟨S1x32, .f32⟩
  | 55 => ⟨S1x32, .f32⟩
  | 56 => ⟨S8192x32, .f32⟩
  | 57 => ⟨S8192x32, .f32⟩
  | 58 => ⟨S8192x32, .f32⟩
  | 59 => ⟨S_, .f32⟩
  | 60 => ⟨S_, .f32⟩
  | 61 => ⟨S_, .f32⟩
  | 62 => ⟨S_, .f32⟩
  | 63 => ⟨S32, .f32⟩
  | 64 => ⟨S32, .f32⟩
  | 65 => ⟨S32, .f32⟩
  | 66 => ⟨S_, .f32⟩
  | 67 => ⟨S_, .i1⟩
  | 68 => ⟨S_, .f32⟩
  | 69 => ⟨S_, .f32⟩
  | 70 => ⟨S32, .f32⟩
  | 71 => ⟨S32, .f32⟩
  | 72 => ⟨S1x32, .f32⟩
  | 73 => ⟨S8192x32, .f32⟩
  | 74 => ⟨S8192x32, .f32⟩
  | 75 => ⟨S1x32, .f32⟩
  | 76 => ⟨S8192x32, .f32⟩
  | 77 => ⟨S8192x32, .f32⟩
  | 78 => ⟨S_, .f32⟩
  | 79 => ⟨S32, .f32⟩
  | 80 => ⟨S32, .f32⟩
  | 81 => ⟨S32, .f32⟩
  | 82 => ⟨S1x32, .f32⟩
  | 83 => ⟨S8192x32, .f32⟩
  | 84 => ⟨S8192x32, .f32⟩
  | 85 => ⟨S1x32, .f32⟩
  | 86 => ⟨S8192x32, .f32⟩
  | 87 => ⟨S8192x32, .f32⟩
  | 88 => ⟨S_, .f32⟩
  | 89 => ⟨S8192x32, .f32⟩
  | 90 => ⟨S8192x32, .f32⟩
  | 91 => ⟨S8192x32, .f32⟩
  | 92 => ⟨S1x32, .f32⟩
  | 93 => ⟨S8192x32, .f32⟩
  | 94 => ⟨S8192x32, .f32⟩
  | 95 => ⟨S8192x32, .f32⟩
  | 96 => ⟨S1x32, .f32⟩
  | 97 => ⟨S8192x32, .f32⟩
  | 98 => ⟨S8192x32, .f32⟩
  | 99 => ⟨S8192x8192, .f32⟩
  | 100 => ⟨S1x8192, .f32⟩
  | 101 => ⟨S8192x8192, .f32⟩
  | 102 => ⟨S8192x8192, .f32⟩
  | 103 => ⟨S8192x64, .f32⟩
  | 104 => ⟨S8192x10, .f32⟩
  | 105 => ⟨S1x10, .f32⟩
  | 106 => ⟨S8192x10, .f32⟩
  | 107 => ⟨S8192x10, .f32⟩
  | 108 => ⟨S_, .f32⟩
  | 109 => ⟨S8192, .f32⟩
  | 110 => ⟨S_, .f32⟩
  | 111 => ⟨S8192, .f32⟩
  | 112 => ⟨S8192, .f32⟩
  | 113 => ⟨S8192x1, .f32⟩
  | 114 => ⟨S8192x10, .f32⟩
  | 115 => ⟨S8192x10, .f32⟩
  | 116 => ⟨S8192x10, .f32⟩
  | 117 => ⟨S_, .f32⟩
  | 118 => ⟨S8192, .f32⟩
  | 119 => ⟨S8192x1, .f32⟩
  | 120 => ⟨S8192x1, .f32⟩
  | 121 => ⟨S8192x10, .f32⟩
  | 122 => ⟨S8192x10, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_c_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_c_9 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_10 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_call1_cst : Ref sig .tc := ⟨.hbm, 118, rfl⟩
abbrev main_call1_v0 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_11 : Ref sig .tc := ⟨.hbm, 127, rfl⟩
abbrev main_v70 : Ref sig .tc := ⟨.hbm, 128, rfl⟩
abbrev main_cst_12 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_13 : Ref sig .tc := ⟨.hbm, 134, rfl⟩
abbrev main_v75 : Ref sig .tc := ⟨.hbm, 135, rfl⟩
abbrev main_v76 : Ref sig .tc := ⟨.hbm, 136, rfl⟩
abbrev main_c_14 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_c_15 : Ref sig .tc := ⟨.hbm, 143, rfl⟩
abbrev main_v82 : Ref sig .tc := ⟨.hbm, 144, rfl⟩
abbrev main_v83 : Ref sig .tc := ⟨.hbm, 145, rfl⟩
abbrev main_c_16 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_c_17 : Ref sig .tc := ⟨.hbm, 154, rfl⟩
abbrev main_v91 : Ref sig .tc := ⟨.hbm, 155, rfl⟩
abbrev main_v92 : Ref sig .tc := ⟨.hbm, 156, rfl⟩
abbrev main_c_18 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_19 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_20 : Ref sig .tc := ⟨.hbm, 172, rfl⟩
abbrev main_v106 : Ref sig .tc := ⟨.hbm, 173, rfl⟩
abbrev main_cst_21 : Ref sig .tc := ⟨.hbm, 174, rfl⟩
abbrev main_v107 : Ref sig .tc := ⟨.hbm, 175, rfl⟩
abbrev main_v108 : Ref sig .tc := ⟨.hbm, 176, rfl⟩
abbrev main_c_22 : Ref sig .tc := ⟨.hbm, 177, rfl⟩
abbrev main_call2_cst : Ref sig .tc := ⟨.hbm, 178, rfl⟩
abbrev main_call2_v0 : Ref sig .tc := ⟨.hbm, 179, rfl⟩
abbrev main_call2_v1 : Ref sig .tc := ⟨.hbm, 180, rfl⟩
abbrev main_call2_cst_0 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_call2_v5 : Ref sig .tc := ⟨.hbm, 185, rfl⟩
abbrev main_call2_v6 : Ref sig .tc := ⟨.hbm, 186, rfl⟩
abbrev main_call2_v7 : Ref sig .tc := ⟨.hbm, 187, rfl⟩
abbrev main_call2_cst_1 : Ref sig .tc := ⟨.hbm, 188, rfl⟩
abbrev main_call2_v8 : Ref sig .tc := ⟨.hbm, 189, rfl⟩
abbrev main_call2_cst_2 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_cst_3 : Ref sig .tc := ⟨.hbm, 194, rfl⟩
abbrev main_call2_v12 : Ref sig .tc := ⟨.hbm, 195, rfl⟩
abbrev main_call2_cst_4 : Ref sig .tc := ⟨.hbm, 196, rfl⟩
abbrev main_call2_call0_v0 : Ref sig .tc := ⟨.hbm, 197, rfl⟩
abbrev main_call2_call0_v1 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_23 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_call3_cst : Ref sig .tc := ⟨.hbm, 216, rfl⟩
abbrev main_call3_v0 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_call4_cst : Ref sig .tc := ⟨.hbm, 236, rfl⟩
abbrev main_call4_v0 : Ref sig .tc := ⟨.hbm, 237, rfl⟩
abbrev main_call4_cst_0 : Ref sig .tc := ⟨.hbm, 238, rfl⟩
abbrev main_call4_v1 : Ref sig .tc := ⟨.hbm, 239, rfl⟩
abbrev main_call4_v2 : Ref sig .tc := ⟨.hbm, 240, rfl⟩
abbrev main_call4_v3 : Ref sig .tc := ⟨.hbm, 241, rfl⟩
abbrev main_call4_v4 : Ref sig .tc := ⟨.hbm, 242, rfl⟩
abbrev main_call4_v5 : Ref sig .tc := ⟨.hbm, 243, rfl⟩
abbrev main_call4_v6 : Ref sig .tc := ⟨.hbm, 244, rfl⟩
abbrev main_call4_cst_1 : Ref sig .tc := ⟨.hbm, 245, rfl⟩
abbrev main_call4_v7 : Ref sig .tc := ⟨.hbm, 246, rfl⟩
abbrev main_call4_v8 : Ref sig .tc := ⟨.hbm, 247, rfl⟩
abbrev main_call4_v9 : Ref sig .tc := ⟨.hbm, 248, rfl⟩
abbrev main_call4_v10 : Ref sig .tc := ⟨.hbm, 249, rfl⟩
abbrev main_v143 : Ref sig .tc := ⟨.hbm, 250, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  reducesTo_S8192x32_S32_d0 : S8192x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  concatenates_S8192x32_S8192x32_S8192x64_d1 : Shape.Concatenates [S8192x32, S8192x32] S8192x64 1
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  dot_S8192x128_S128x32_S8192x32_1_0_0_1_n_n_wf : DotDims.WF S8192x128 S128x32 S8192x32 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []
  dot_S8192x32_S32x8192_S8192x8192_1_0_0_1_n_n_wf : DotDims.WF S8192x32 S32x8192 S8192x8192 [1] [0] [0] [1] [] []
  dot_S8192x64_S64x10_S8192x10_1_0_0_1_n_n_wf : DotDims.WF S8192x64 S64x10 S8192x10 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

class Facts : Prop extends Facts₀ where

variable [Facts]
-- ==== Proof.KFrame.lean ====
/-
  The frame of the program's @main around its one kernel region, for any float values.

  @main is: the host operations of the first graph-convolution layer and the casts and reshapes of the dense
  chain's weights and biases; the region, a grid of 64 points, point t taking rows 128·t … 128·t+127 of the
  8192 × 8192 matrix through four dense layers (product with a resident weight, plus a resident bias row) and
  writing rows 128·t … of the first layer's output (8192 × 32) and of the last layer's (8192 × 8192); then the
  host operations of the second graph-convolution layer, the classifier and its log-softmax.

  The body at a point loads its nine input blocks whole and stores two whole blocks, each a pure function of
  the loads (the payloads of the skeleton), so after the body an output's staging buffer holds that function of
  the input blocks.  The launch theorem then gives: every weakly fair execution ends, each output array holding
  what the library folds from those per-point blocks, every buffer that is no array of the region holding what
  the later host operations compute from that.  No host operation writes an argument, and the region writes only
  its two outputs, so the arguments end as launched.
-/
import proofs.«105389_j88072599372111_1_alg».proof.Proof.Gen.Kernel.Launch
import proofs.«105389_j88072599372111_1_alg».proof.Proof.Gen.Kernel.Skeleton
import proofs.«105389_j88072599372111_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOpss : List (List (HloOp τ sig (Elt F))) := [hostOps0, hostOps0_1, hostOps0_2, hostOps0_3, hostOps0_4]
/-- The stretches of host operations after the region, in order. -/
abbrev tailOpss : List (List (HloOp τ sig (Elt F))) := [hostOps1, hostOps1_1, hostOps1_2, hostOps1_3, hostOps1_4, hostOps1_5]

/-- Core c's buffer contents when the region is entered: the launch contents after the host operations before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- The buffers the host operations before the region write: one each, none of them an argument. -/
abbrev preW : List (Ref sig .tc) := [main_v0, main_v1, main_v2, main_v3, main_v4, main_v5, main_v6, main_v7, main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27, main_v28, main_c_4, main_v29, main_v30, main_c_5, main_v31, main_v32, main_v33, main_v34, main_v35, main_v36, main_v37, main_cst_6, main_v38, main_v39, main_v40, main_v41, main_v42, main_v43, main_cst_7, main_v44, main_cst_8, main_v45, main_v46, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47, main_v48, main_v49, main_v50, main_v51, main_v52, main_v53, main_cst_10, main_v54, main_v55, main_v56, main_v57, main_v58, main_v59, main_v60, main_v61, main_v62, main_call1_cst, main_call1_v0, main_v63, main_v64, main_v65, main_v66, main_v67, main_v68, main_v69, main_v70, main_v71]
/-- The buffers the host operations after the region write: one each, none an argument or an array of the region. -/
abbrev tailW : List (Ref sig .tc) := [main_v73, main_v74, main_cst_11, main_v75, main_cst_12, main_v76, main_v77, main_v78, main_v79, main_c_13, main_v80, main_v81, main_c_14, main_v82, main_v83, main_v84, main_v85, main_v86, main_c_15, main_v87, main_v88, main_c_16, main_v89, main_v90, main_v91, main_v92, main_v93, main_v94, main_v95, main_c_17, main_v96, main_v97, main_c_18, main_v98, main_v99, main_v100, main_v101, main_v102, main_v103, main_v104, main_cst_19, main_v105, main_v106, main_v107, main_v108, main_v109, main_v110, main_cst_20, main_v111, main_cst_21, main_v112, main_v113, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v114, main_v115, main_v116, main_v117, main_v118, main_v119, main_v120, main_cst_23, main_v121, main_v122, main_v123, main_v124, main_v125, main_v126, main_v127, main_v128, main_v129, main_call3_cst, main_call3_v0, main_v130, main_v131, main_v132, main_v133, main_v134, main_v135, main_call4_cst, main_call4_v0, main_call4_cst_0, main_call4_v1, main_call4_v2, main_call4_v3, main_call4_v4, main_call4_v5, main_call4_v6, main_call4_cst_1, main_call4_v7, main_call4_v8, main_call4_v9, main_call4_v10, main_v136]

theorem hostOps0_writes : (hostOps0 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_1_writes : (hostOps0_1 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_2_writes : (hostOps0_2 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_3_writes : (hostOps0_3 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_4_writes : (hostOps0_4 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_1_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_2_writes : (hostOps1_2 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_3_writes : (hostOps1_3 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_4_writes : (hostOps1_4 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_5_writes : (hostOps1_5 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem pre_writes : (List.flatten [hostOps0, hostOps0_1, hostOps0_2, hostOps0_3, hostOps0_4] : List (HloOp τ sig (Elt F))).Forall fun op => op.writes ⊆ (preW.map (Proc.devRef (τ := τ) .tc)).toFinset := by
  rw [List.forall_iff_forall_mem]
  intro op hop
  simp only [List.mem_flatten, List.mem_cons, List.mem_nil_iff, or_false] at hop
  obtain ⟨l, hl, hop⟩ := hop
  rcases hl with rfl | rfl | rfl | rfl | rfl
  · exact (List.forall_iff_forall_mem.mp hostOps0_writes) op hop
  · exact (List.forall_iff_forall_mem.mp hostOps0_1_writes) op hop
  · exact (List.forall_iff_forall_mem.mp hostOps0_2_writes) op hop
  · exact (List.forall_iff_forall_mem.mp hostOps0_3_writes) op hop
  · exact (List.forall_iff_forall_mem.mp hostOps0_4_writes) op hop

theorem tail_writes : (List.flatten [hostOps1, hostOps1_1, hostOps1_2, hostOps1_3, hostOps1_4, hostOps1_5] : List (HloOp τ sig (Elt F))).Forall fun op => op.writes ⊆ (tailW.map (Proc.devRef (τ := τ) .tc)).toFinset := by
  rw [List.forall_iff_forall_mem]
  intro op hop
  simp only [List.mem_flatten, List.mem_cons, List.mem_nil_iff, or_false] at hop
  obtain ⟨l, hl, hop⟩ := hop
  rcases hl with rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop

/-- A buffer no host operation before the region writes is found by the region as launched. -/
theorem V_of (c : Dev nD) (r : Ref sig .tc) (h : r ∉ (preW : List (Ref sig .tc))) : V m c r = m ((c : Thread nD τ).loc r) :=
  StableHlo.after_of_writes_sub _ _ pre_writes h

/-- @main around the region: the host operations before it, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4] [hostOps1, hostOps1_1, hostOps1_2, hostOps1_3, hostOps1_4, hostOps1_5]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the region's arrays and the buffers that bypass it only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And write no array of the region: each writes one buffer of the list above, and no array is in it. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop w hw
  have hmem : op ∈ (List.flatten [hostOps1, hostOps1_1, hostOps1_2, hostOps1_3, hostOps1_4, hostOps1_5] : List (HloOp τ sig (Elt F))) := by
    simp only [List.mem_flatten]; exact ⟨ops, hops, hop⟩
  have h := (List.forall_iff_forall_mem.mp tail_writes) op hmem hw
  obtain ⟨y, hy, he⟩ := List.mem_map.mp (List.mem_toFinset.mp h)
  have : Pipeline.arrRef spec0 w = y := (Proc.devRef_injective _ he).symm
  exact (by decide : ∀ w : Fin 11, Pipeline.arrRef spec0 w ∉ (tailW : List (Ref sig .tc))) w (this ▸ hy)

/-- What the operations after the region leave in a buffer they do not write and that is no array of the region:
    what the region found there. -/
theorem W_of (dats : (p : Fin _) → (c : Dev nD) → Dat τ (Elt F) Unit ℕ (UR sig nD τ) ℕ (cfgs p) c) (c : Dev nD)
    (r : Ref sig .tc) (h : r ∉ (tailW : List (Ref sig .tc))) (ha : ∀ w, Pipeline.arrRef spec0 w ≠ r) :
    Pipeline.afterTail₀ cfgs dats 0 (V0 m) [hostOps1, hostOps1_1, hostOps1_2, hostOps1_3, hostOps1_4, hostOps1_5] c r = V m c r := by
  unfold Pipeline.afterTail₀
  rw [StableHlo.after_of_writes_sub _ _ tail_writes h, Pipeline.withArrays_of_ne _ c (V0 m c) _ r ha]

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rc_S128x8192 : Rect S128x8192 := Rect.unit (s := S128x8192) ![0, 0] S128x8192.size inb_S128x8192_S128x8192_0_0
abbrev rc_S8192x32 : Rect S8192x32 := Rect.unit (s := S8192x32) ![0, 0] S8192x32.size inb_S8192x32_S8192x32_0_0
abbrev rc_S1x32 : Rect S1x32 := Rect.unit (s := S1x32) ![0, 0] S1x32.size inb_S1x32_S1x32_0_0
abbrev rc_S32x32 : Rect S32x32 := Rect.unit (s := S32x32) ![0, 0] S32x32.size inb_S32x32_S32x32_0_0
abbrev rc_S32x8192 : Rect S32x8192 := Rect.unit (s := S32x8192) ![0, 0] S32x8192.size inb_S32x8192_S32x8192_0_0
abbrev rc_S1x8192 : Rect S1x8192 := Rect.unit (s := S1x8192) ![0, 0] S1x8192.size inb_S1x8192_S1x8192_0_0
abbrev rc_S128x32 : Rect S128x32 := Rect.unit (s := S128x32) ![0, 0] S128x32.size inb_S128x32_S128x32_0_0

/-! ## What the body leaves in each output window's buffer -/

/-- The first dense layer's block after the body: its one store, of the first payload of the loads. -/
def out0_9 (x0 : Vec F S128x8192 .f32) (x1 : Vec F S8192x32 .bf16) (x2 : Vec F S1x32 .f32) : Vec F S128x32 .f32 :=
  View.canon [⟨rc_S128x32, k0_pay1 (View.ld x0 rc_S128x8192) (View.ld x1 rc_S8192x32) (View.ld x2 rc_S1x32)⟩]

/-- The last dense layer's block after the body: its one store, of the second payload of the loads. -/
def out0_10 (x0 : Vec F S128x8192 .f32) (x1 : Vec F S8192x32 .bf16) (x2 : Vec F S1x32 .f32) (x3 : Vec F S32x32 .bf16) (x4 : Vec F S1x32 .f32) (x5 : Vec F S32x32 .bf16) (x6 : Vec F S1x32 .f32) (x7 : Vec F S32x8192 .bf16) (x8 : Vec F S1x8192 .f32) : Vec F S128x8192 .f32 :=
  View.canon [⟨rc_S128x8192, k0_pay2 (View.ld x0 rc_S128x8192) (View.ld x1 rc_S8192x32) (View.ld x2 rc_S1x32) (View.ld x3 rc_S32x32) (View.ld x4 rc_S1x32) (View.ld x5 rc_S32x32) (View.ld x6 rc_S1x32) (View.ld x7 rc_S32x8192) (View.ld x8 rc_S1x8192)⟩]

theorem cover0_9 (p0 : Vec F S128x32 .f32) (y : S128x32.Idx) :
    ∃ pc ∈ ([⟨rc_S128x32, p0⟩] : List (View.Piece (Elt F) S128x32 .f32)), y ∈ pc.1.set :=
  View.cover_of_tiled [⟨rc_S128x32, p0⟩] S128x32.size (by rfl) y

theorem cover0_10 (p0 : Vec F S128x8192 .f32) (y : S128x8192.Idx) :
    ∃ pc ∈ ([⟨rc_S128x8192, p0⟩] : List (View.Piece (Elt F) S128x8192 .f32)), y ∈ pc.1.set :=
  View.cover_of_tiled [⟨rc_S128x8192, p0⟩] S128x8192.size (by rfl) y

/-! ## The body's triple -/

set_option maxHeartbeats 4000000 in
/-- The kernel body on whole staging memrefs, the inputs' at read contents and the outputs' at anything, runs to the
    continuation holding the inputs' as they were and each output's at its function of the inputs'. -/
theorem sound_kernel (c : Dev nD) (E : Set ℕ) (i : grid0.Coords) (arg1 : Memref sig .tc .vmem S128x8192 .f32) (harg1 : arg1.IsWhole) (arg2 : Memref sig .tc .vmem S8192x32 .bf16) (harg2 : arg2.IsWhole) (arg3 : Memref sig .tc .vmem S1x32 .f32) (harg3 : arg3.IsWhole) (arg4 : Memref sig .tc .vmem S32x32 .bf16) (harg4 : arg4.IsWhole) (arg5 : Memref sig .tc .vmem S1x32 .f32) (harg5 : arg5.IsWhole) (arg6 : Memref sig .tc .vmem S32x32 .bf16) (harg6 : arg6.IsWhole) (arg7 : Memref sig .tc .vmem S1x32 .f32) (harg7 : arg7.IsWhole) (arg8 : Memref sig .tc .vmem S32x8192 .bf16) (harg8 : arg8.IsWhole) (arg9 : Memref sig .tc .vmem S1x8192 .f32) (harg9 : arg9.IsWhole) (arg10 : Memref sig .tc .vmem S128x32 .f32) (harg10 : arg10.IsWhole) (arg11 : Memref sig .tc .vmem S128x8192 .f32) (harg11 : arg11.IsWhole)
    (x0 : Vec F S128x8192 .f32) (x1 : Vec F S8192x32 .bf16) (x2 : Vec F S1x32 .f32) (x3 : Vec F S32x32 .bf16) (x4 : Vec F S1x32 .f32) (x5 : Vec F S32x32 .bf16) (x6 : Vec F S1x32 .f32) (x7 : Vec F S32x8192 .bf16) (x8 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2) ∗ owns (c : Thread nD τ) arg11 fullShare (out0_10 x0 x1 x2 x3 x4 x5 x6 x7 x8)) -∗ K ⟨⟩))
      ⊢ wp frame (wpE (defs₀ (F := F)) Variants.none c none) E (cc0__autoenc_kernel i arg1 harg1 arg2 harg2 arg3 harg3 arg4 harg4 arg5 harg5 arg6 harg6 arg7 harg7 arg8 harg8 arg9 harg9 arg10 harg10 arg11 harg11) K := by
  simp only [cc0__autoenc_kernel_eq_skeleton]; unfold cc0__autoenc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

/-! ## The region's proof data -/

/-- The proof data of the region on core c: the arrays as the region finds them; after the body at point t each
    input's buffer at its block and each output's at its function of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    library folds from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hΦ := fun _ _ => rfl)

/-- In a final state of the run the argument arrays are as launched: the matrix the region stages is an input of it,
    found as launched; every other argument is no array of the region and no host operation writes it. -/
theorem args_of_post (r : PUnit × MemSt nD τ sig (Elt F))
    (h : Pipeline.FramePost cfgs (dats m) 0 (Pipeline.afterTail₀ cfgs (dats m) 0 (V0 m) [hostOps1, hostOps1_1, hostOps1_2, hostOps1_3, hostOps1_4, hostOps1_5]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).1 0).trans (((dats m 0 c).arrAt_in 0 rfl _).trans ((A_eq m c 0).trans (V_of m c main_arg0 (by decide)))),
      ((h c).2 main_arg1 (Pipeline.mem_restRefs_of main_arg1 (by decide) (by decide))).trans ((W_of m (dats m) c main_arg1 (by decide) (by decide)).trans (V_of m c main_arg1 (by decide))),
      ((h c).2 main_arg2 (Pipeline.mem_restRefs_of main_arg2 (by decide) (by decide))).trans ((W_of m (dats m) c main_arg2 (by decide) (by decide)).trans (V_of m c main_arg2 (by decide))),
      ((h c).2 main_arg3 (Pipeline.mem_restRefs_of main_arg3 (by decide) (by decide))).trans ((W_of m (dats m) c main_arg3 (by decide) (by decide)).trans (V_of m c main_arg3 (by decide))),
      ((h c).2 main_arg4 (Pipeline.mem_restRefs_of main_arg4 (by decide) (by decide))).trans ((W_of m (dats m) c main_arg4 (by decide) (by decide)).trans (V_of m c main_arg4 (by decide))),
      ((h c).2 main_arg5 (Pipeline.mem_restRefs_of main_arg5 (by decide) (by decide))).trans ((W_of m (dats m) c main_arg5 (by decide) (by decide)).trans (V_of m c main_arg5 (by decide))),
      ((h c).2 main_arg6 (Pipeline.mem_restRefs_of main_arg6 (by decide) (by decide))).trans ((W_of m (dats m) c main_arg6 (by decide) (by decide)).trans (V_of m c main_arg6 (by decide))),
      ((h c).2 main_arg7 (Pipeline.mem_restRefs_of main_arg7 (by decide) (by decide))).trans ((W_of m (dats m) c main_arg7 (by decide) (by decide)).trans (V_of m c main_arg7 (by decide))),
      ((h c).2 main_arg8 (Pipeline.mem_restRefs_of main_arg8 (by decide) (by decide))).trans ((W_of m (dats m) c main_arg8 (by decide) (by decide)).trans (V_of m c main_arg8 (by decide))),
      ((h c).2 main_arg9 (Pipeline.mem_restRefs_of main_arg9 (by decide) (by decide))).trans ((W_of m (dats m) c main_arg9 (by decide) (by decide)).trans (V_of m c main_arg9 (by decide))),
      ((h c).2 main_arg10 (Pipeline.mem_restRefs_of main_arg10 (by decide) (by decide))).trans ((W_of m (dats m) c main_arg10 (by decide) (by decide)).trans (V_of m c main_arg10 (by decide))),
      ((h c).2 main_arg11 (Pipeline.mem_restRefs_of main_arg11 (by decide) (by decide))).trans ((W_of m (dats m) c main_arg11 (by decide) (by decide)).trans (V_of m c main_arg11 (by decide))),
      ((h c).2 main_arg12 (Pipeline.mem_restRefs_of main_arg12 (by decide) (by decide))).trans ((W_of m (dats m) c main_arg12 (by decide) (by decide)).trans (V_of m c main_arg12 (by decide))),
      ((h c).2 main_arg13 (Pipeline.mem_restRefs_of main_arg13 (by decide) (by decide))).trans ((W_of m (dats m) c main_arg13 (by decide) (by decide)).trans (V_of m c main_arg13 (by decide))),
      ((h c).2 main_arg14 (Pipeline.mem_restRefs_of main_arg14 (by decide) (by decide))).trans ((W_of m (dats m) c main_arg14 (by decide) (by decide)).trans (V_of m c main_arg14 (by decide))),
      ((h c).2 main_arg15 (Pipeline.mem_restRefs_of main_arg15 (by decide) (by decide))).trans ((W_of m (dats m) c main_arg15 (by decide) (by decide)).trans (V_of m c main_arg15 (by decide))),
      ((h c).2 main_arg16 (Pipeline.mem_restRefs_of main_arg16 (by decide) (by decide))).trans ((W_of m (dats m) c main_arg16 (by decide) (by decide)).trans (V_of m c main_arg16 (by decide))),
      ((h c).2 main_arg17 (Pipeline.mem_restRefs_of main_arg17 (by decide) (by decide))).trans ((W_of m (dats m) c main_arg17 (by decide) (by decide)).trans (V_of m c main_arg17 (by decide))),
      ((h c).2 main_arg18 (Pipeline.mem_restRefs_of main_arg18 (by decide) (by decide))).trans ((W_of m (dats m) c main_arg18 (by decide) (by decide)).trans (V_of m c main_arg18 (by decide))),
      ((h c).2 main_arg19 (Pipeline.mem_restRefs_of main_arg19 (by decide) (by decide))).trans ((W_of m (dats m) c main_arg19 (by decide) (by decide)).trans (V_of m c main_arg19 (by decide))),
      ((h c).2 main_arg20 (Pipeline.mem_restRefs_of main_arg20 (by decide) (by decide))).trans ((W_of m (dats m) c main_arg20 (by decide) (by decide)).trans (V_of m c main_arg20 (by decide)))⟩

/-- The frame: every weakly fair execution of @main terminates with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => args_of_post m r h c) (run_main m ρ)

end Cert.Kernel.Hand

end
-- ==== Proof.KIFrame.lean ====
/-
  The frame of the program's @main around its one kernel region, for any float values.

  @main is: the host operations of the first graph-convolution layer and the casts and reshapes of the dense
  chain's weights and biases; the region, a grid of 64 points, point t taking rows 128·t … 128·t+127 of the
  8192 × 8192 matrix through four dense layers (product with a resident weight, plus a resident bias row) and
  writing rows 128·t … of the first layer's output (8192 × 32) and of the last layer's (8192 × 8192); then the
  host operations of the second graph-convolution layer, the classifier and its log-softmax.

  The body at a point loads its nine input blocks whole and stores two whole blocks, each a pure function of
  the loads (the payloads of the skeleton), so after the body an output's staging buffer holds that function of
  the input blocks.  The launch theorem then gives: every weakly fair execution ends, each output array holding
  what the library folds from those per-point blocks, every buffer that is no array of the region holding what
  the later host operations compute from that.  No host operation writes an argument, and the region writes only
  its two outputs, so the arguments end as launched.
-/
import proofs.«105389_j88072599372111_1_alg».proof.Proof.Gen.KernelIdeal.Launch
import proofs.«105389_j88072599372111_1_alg».proof.Proof.Gen.KernelIdeal.Skeleton
import proofs.«105389_j88072599372111_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev preOpss : List (List (HloOp τ sig (Elt F))) := [hostOps0, hostOps0_1, hostOps0_2, hostOps0_3, hostOps0_4]
/-- The stretches of host operations after the region, in order. -/
abbrev tailOpss : List (List (HloOp τ sig (Elt F))) := [hostOps1, hostOps1_1, hostOps1_2, hostOps1_3, hostOps1_4, hostOps1_5]

/-- Core c's buffer contents when the region is entered: the launch contents after the host operations before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- The buffers the host operations before the region write: one each, none of them an argument. -/
abbrev preW : List (Ref sig .tc) := [main_v0, main_v1, main_v2, main_v3, main_v4, main_v5, main_v6, main_v7, main_cst, main_v8, main_cst_0, main_v9, main_v10, main_v11, main_v12, main_c, main_v13, main_v14, main_c_1, main_v15, main_v16, main_v17, main_v18, main_v19, main_c_2, main_v20, main_v21, main_c_3, main_v22, main_v23, main_v24, main_v25, main_v26, main_v27, main_v28, main_c_4, main_v29, main_v30, main_c_5, main_v31, main_v32, main_v33, main_v34, main_v35, main_v36, main_v37, main_cst_6, main_v38, main_v39, main_v40, main_v41, main_v42, main_v43, main_cst_7, main_v44, main_cst_8, main_v45, main_v46, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47, main_v48, main_v49, main_v50, main_v51, main_v52, main_v53, main_cst_10, main_v54, main_v55, main_v56, main_v57, main_v58, main_v59, main_v60, main_v61, main_v62, main_call1_cst, main_call1_v0, main_v63, main_v64, main_v65, main_v66, main_v67, main_v68, main_v69, main_v70, main_v71]
/-- The buffers the host operations after the region write: one each, none an argument or an array of the region. -/
abbrev tailW : List (Ref sig .tc) := [main_v73, main_v74, main_cst_11, main_v75, main_cst_12, main_v76, main_v77, main_v78, main_v79, main_c_13, main_v80, main_v81, main_c_14, main_v82, main_v83, main_v84, main_v85, main_v86, main_c_15, main_v87, main_v88, main_c_16, main_v89, main_v90, main_v91, main_v92, main_v93, main_v94, main_v95, main_c_17, main_v96, main_v97, main_c_18, main_v98, main_v99, main_v100, main_v101, main_v102, main_v103, main_v104, main_cst_19, main_v105, main_v106, main_v107, main_v108, main_v109, main_v110, main_cst_20, main_v111, main_cst_21, main_v112, main_v113, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v114, main_v115, main_v116, main_v117, main_v118, main_v119, main_v120, main_cst_23, main_v121, main_v122, main_v123, main_v124, main_v125, main_v126, main_v127, main_v128, main_v129, main_call3_cst, main_call3_v0, main_v130, main_v131, main_v132, main_v133, main_v134, main_v135, main_call4_cst, main_call4_v0, main_call4_cst_0, main_call4_v1, main_call4_v2, main_call4_v3, main_call4_v4, main_call4_v5, main_call4_v6, main_call4_cst_1, main_call4_v7, main_call4_v8, main_call4_v9, main_call4_v10, main_v136]

theorem hostOps0_writes : (hostOps0 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_1_writes : (hostOps0_1 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_2_writes : (hostOps0_2 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_3_writes : (hostOps0_3 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps0_4_writes : (hostOps0_4 : List (HloOp τ sig (Elt F))).Forall fun op => op.writes ⊆ (preW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_1_writes : (hostOps1_1 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_2_writes : (hostOps1_2 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_3_writes : (hostOps1_3 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_4_writes : (hostOps1_4 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_5_writes : (hostOps1_5 : List (HloOp τ sig (Elt F))).Forall fun op => op.writes ⊆ (tailW.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem pre_writes : (List.flatten [hostOps0, hostOps0_1, hostOps0_2, hostOps0_3, hostOps0_4] : List (HloOp τ sig (Elt F))).Forall fun op => op.writes ⊆ (preW.map (Proc.devRef (τ := τ) .tc)).toFinset := by
  rw [List.forall_iff_forall_mem]
  intro op hop
  simp only [List.mem_flatten, List.mem_cons, List.mem_nil_iff, or_false] at hop
  obtain ⟨l, hl, hop⟩ := hop
  rcases hl with rfl | rfl | rfl | rfl | rfl
  · exact (List.forall_iff_forall_mem.mp hostOps0_writes) op hop
  · exact (List.forall_iff_forall_mem.mp hostOps0_1_writes) op hop
  · exact (List.forall_iff_forall_mem.mp hostOps0_2_writes) op hop
  · exact (List.forall_iff_forall_mem.mp hostOps0_3_writes) op hop
  · exact (List.forall_iff_forall_mem.mp hostOps0_4_writes) op hop

theorem tail_writes : (List.flatten [hostOps1, hostOps1_1, hostOps1_2, hostOps1_3, hostOps1_4, hostOps1_5] : List (HloOp τ sig (Elt F))).Forall fun op => op.writes ⊆ (tailW.map (Proc.devRef (τ := τ) .tc)).toFinset := by
  rw [List.forall_iff_forall_mem]
  intro op hop
  simp only [List.mem_flatten, List.mem_cons, List.mem_nil_iff, or_false] at hop
  obtain ⟨l, hl, hop⟩ := hop
  rcases hl with rfl | rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop
  · exact (List.forall_iff_forall_mem.mp hostOps1_5_writes) op hop

/-- A buffer no host operation before the region writes is found by the region as launched. -/
theorem V_of (c : Dev nD) (r : Ref sig .tc) (h : r ∉ (preW : List (Ref sig .tc))) : V m c r = m ((c : Thread nD τ).loc r) :=
  StableHlo.after_of_writes_sub _ _ pre_writes h

/-- @main around the region: the host operations before it, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0, hostOps0_1, hostOps0_2, hostOps0_3, hostOps0_4] [hostOps1, hostOps1_1, hostOps1_2, hostOps1_3, hostOps1_4, hostOps1_5]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The operations after the region touch the region's arrays and the buffers that bypass it only. -/
theorem sfx_sub : ∀ ops ∈ ([hostOps1, hostOps1_1, hostOps1_2, hostOps1_3, hostOps1_4, hostOps1_5] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ ([hostOps1, hostOps1_1, hostOps1_2, hostOps1_3, hostOps1_4, hostOps1_5] : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
/-- And write no array of the region: each writes one buffer of the list above, and no array is in it. -/
theorem sfx_keeps : ∀ ops ∈ ([hostOps1, hostOps1_1, hostOps1_2, hostOps1_3, hostOps1_4, hostOps1_5] : List (List (HloOp τ sig (Elt F)))), ∀ op ∈ ops,
    ∀ w, Proc.devRef .tc (Pipeline.arrRef spec0 w) ∉ op.writes := by
  intro ops hops op hop w hw
  have hmem : op ∈ (List.flatten [hostOps1, hostOps1_1, hostOps1_2, hostOps1_3, hostOps1_4, hostOps1_5] : List (HloOp τ sig (Elt F))) := by
    simp only [List.mem_flatten]; exact ⟨ops, hops, hop⟩
  have h := (List.forall_iff_forall_mem.mp tail_writes) op hmem hw
  obtain ⟨y, hy, he⟩ := List.mem_map.mp (List.mem_toFinset.mp h)
  have : Pipeline.arrRef spec0 w = y := (Proc.devRef_injective _ he).symm
  exact (by decide : ∀ w : Fin 11, Pipeline.arrRef spec0 w ∉ (tailW : List (Ref sig .tc))) w (this ▸ hy)

/-- What the operations after the region leave in a buffer they do not write and that is no array of the region:
    what the region found there. -/
theorem W_of (dats : (p : Fin _) → (c : Dev nD) → Dat τ (Elt F) Unit ℕ (UR sig nD τ) ℕ (cfgs p) c) (c : Dev nD)
    (r : Ref sig .tc) (h : r ∉ (tailW : List (Ref sig .tc))) (ha : ∀ w, Pipeline.arrRef spec0 w ≠ r) :
    Pipeline.afterTail₀ cfgs dats 0 (V0 m) [hostOps1, hostOps1_1, hostOps1_2, hostOps1_3, hostOps1_4, hostOps1_5] c r = V m c r := by
  unfold Pipeline.afterTail₀
  rw [StableHlo.after_of_writes_sub _ _ tail_writes h, Pipeline.withArrays_of_ne _ c (V0 m c) _ r ha]

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole staging buffer -/

abbrev rc_S128x8192 : Rect S128x8192 := Rect.unit (s := S128x8192) ![0, 0] S128x8192.size inb_S128x8192_S128x8192_0_0
abbrev rc_S8192x32 : Rect S8192x32 := Rect.unit (s := S8192x32) ![0, 0] S8192x32.size inb_S8192x32_S8192x32_0_0
abbrev rc_S1x32 : Rect S1x32 := Rect.unit (s := S1x32) ![0, 0] S1x32.size inb_S1x32_S1x32_0_0
abbrev rc_S32x32 : Rect S32x32 := Rect.unit (s := S32x32) ![0, 0] S32x32.size inb_S32x32_S32x32_0_0
abbrev rc_S32x8192 : Rect S32x8192 := Rect.unit (s := S32x8192) ![0, 0] S32x8192.size inb_S32x8192_S32x8192_0_0
abbrev rc_S1x8192 : Rect S1x8192 := Rect.unit (s := S1x8192) ![0, 0] S1x8192.size inb_S1x8192_S1x8192_0_0
abbrev rc_S128x32 : Rect S128x32 := Rect.unit (s := S128x32) ![0, 0] S128x32.size inb_S128x32_S128x32_0_0

/-! ## What the body leaves in each output window's buffer -/

/-- The first dense layer's block after the body: its one store, of the first payload of the loads. -/
def out0_9 (x0 : Vec F S128x8192 .f32) (x1 : Vec F S8192x32 .bf16) (x2 : Vec F S1x32 .f32) : Vec F S128x32 .f32 :=
  View.canon [⟨rc_S128x32, k0_pay1 (View.ld x0 rc_S128x8192) (View.ld x1 rc_S8192x32) (View.ld x2 rc_S1x32)⟩]

/-- The last dense layer's block after the body: its one store, of the second payload of the loads. -/
def out0_10 (x0 : Vec F S128x8192 .f32) (x1 : Vec F S8192x32 .bf16) (x2 : Vec F S1x32 .f32) (x3 : Vec F S32x32 .bf16) (x4 : Vec F S1x32 .f32) (x5 : Vec F S32x32 .bf16) (x6 : Vec F S1x32 .f32) (x7 : Vec F S32x8192 .bf16) (x8 : Vec F S1x8192 .f32) : Vec F S128x8192 .f32 :=
  View.canon [⟨rc_S128x8192, k0_pay2 (View.ld x0 rc_S128x8192) (View.ld x1 rc_S8192x32) (View.ld x2 rc_S1x32) (View.ld x3 rc_S32x32) (View.ld x4 rc_S1x32) (View.ld x5 rc_S32x32) (View.ld x6 rc_S1x32) (View.ld x7 rc_S32x8192) (View.ld x8 rc_S1x8192)⟩]

theorem cover0_9 (p0 : Vec F S128x32 .f32) (y : S128x32.Idx) :
    ∃ pc ∈ ([⟨rc_S128x32, p0⟩] : List (View.Piece (Elt F) S128x32 .f32)), y ∈ pc.1.set :=
  View.cover_of_tiled [⟨rc_S128x32, p0⟩] S128x32.size (by rfl) y

theorem cover0_10 (p0 : Vec F S128x8192 .f32) (y : S128x8192.Idx) :
    ∃ pc ∈ ([⟨rc_S128x8192, p0⟩] : List (View.Piece (Elt F) S128x8192 .f32)), y ∈ pc.1.set :=
  View.cover_of_tiled [⟨rc_S128x8192, p0⟩] S128x8192.size (by rfl) y

/-! ## The body's triple -/

set_option maxHeartbeats 4000000 in
/-- The kernel body on whole staging memrefs, the inputs' at read contents and the outputs' at anything, runs to the
    continuation holding the inputs' as they were and each output's at its function of the inputs'. -/
theorem sound_kernel (c : Dev nD) (E : Set ℕ) (i : grid0.Coords) (arg1 : Memref sig .tc .vmem S128x8192 .f32) (harg1 : arg1.IsWhole) (arg2 : Memref sig .tc .vmem S8192x32 .bf16) (harg2 : arg2.IsWhole) (arg3 : Memref sig .tc .vmem S1x32 .f32) (harg3 : arg3.IsWhole) (arg4 : Memref sig .tc .vmem S32x32 .bf16) (harg4 : arg4.IsWhole) (arg5 : Memref sig .tc .vmem S1x32 .f32) (harg5 : arg5.IsWhole) (arg6 : Memref sig .tc .vmem S32x32 .bf16) (harg6 : arg6.IsWhole) (arg7 : Memref sig .tc .vmem S1x32 .f32) (harg7 : arg7.IsWhole) (arg8 : Memref sig .tc .vmem S32x8192 .bf16) (harg8 : arg8.IsWhole) (arg9 : Memref sig .tc .vmem S1x8192 .f32) (harg9 : arg9.IsWhole) (arg10 : Memref sig .tc .vmem S128x32 .f32) (harg10 : arg10.IsWhole) (arg11 : Memref sig .tc .vmem S128x8192 .f32) (harg11 : arg11.IsWhole)
    (x0 : Vec F S128x8192 .f32) (x1 : Vec F S8192x32 .bf16) (x2 : Vec F S1x32 .f32) (x3 : Vec F S32x32 .bf16) (x4 : Vec F S1x32 .f32) (x5 : Vec F S32x32 .bf16) (x6 : Vec F S1x32 .f32) (x7 : Vec F S32x8192 .bf16) (x8 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2) ∗ owns (c : Thread nD τ) arg11 fullShare (out0_10 x0 x1 x2 x3 x4 x5 x6 x7 x8)) -∗ K ⟨⟩))
      ⊢ wp frame (wpE (defs₀ (F := F)) Variants.none c none) E (cc0__autoenc_kernel i arg1 harg1 arg2 harg2 arg3 harg3 arg4 harg4 arg5 harg5 arg6 harg6 arg7 harg7 arg8 harg8 arg9 harg9 arg10 harg10 arg11 harg11) K := by
  simp only [cc0__autoenc_kernel_eq_skeleton]; unfold cc0__autoenc_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  iexists _; isplitr
  swap; · iexact H10
  ipureintro
  try dsimp only
  exact View.read_writes_eq_canon _ _ _ (cover0_10 _)

/-! ## The region's proof data -/

/-- The proof data of the region on core c: the arrays as the region finds them; after the body at point t each
    input's buffer at its block and each output's at its function of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
/-- The body at any point: the inputs' memrefs hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the region at what the
    library folds from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5]) (hsub := sfx_sub) (hfresh := sfx_fresh) (hkeep := sfx_keeps)
    (hmain := hmain m Variants.none) (hA := A_eq m) (hΦ := fun _ _ => rfl)

/-- In a final state of the run the argument arrays are as launched: the matrix the region stages is an input of it,
    found as launched; every other argument is no array of the region and no host operation writes it. -/
theorem args_of_post (r : PUnit × MemSt nD τ sig (Elt F))
    (h : Pipeline.FramePost cfgs (dats m) 0 (Pipeline.afterTail₀ cfgs (dats m) 0 (V0 m) [hostOps1, hostOps1_1, hostOps1_2, hostOps1_3, hostOps1_4, hostOps1_5]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).1 0).trans (((dats m 0 c).arrAt_in 0 rfl _).trans ((A_eq m c 0).trans (V_of m c main_arg0 (by decide)))),
      ((h c).2 main_arg1 (Pipeline.mem_restRefs_of main_arg1 (by decide) (by decide))).trans ((W_of m (dats m) c main_arg1 (by decide) (by decide)).trans (V_of m c main_arg1 (by decide))),
      ((h c).2 main_arg2 (Pipeline.mem_restRefs_of main_arg2 (by decide) (by decide))).trans ((W_of m (dats m) c main_arg2 (by decide) (by decide)).trans (V_of m c main_arg2 (by decide))),
      ((h c).2 main_arg3 (Pipeline.mem_restRefs_of main_arg3 (by decide) (by decide))).trans ((W_of m (dats m) c main_arg3 (by decide) (by decide)).trans (V_of m c main_arg3 (by decide))),
      ((h c).2 main_arg4 (Pipeline.mem_restRefs_of main_arg4 (by decide) (by decide))).trans ((W_of m (dats m) c main_arg4 (by decide) (by decide)).trans (V_of m c main_arg4 (by decide))),
      ((h c).2 main_arg5 (Pipeline.mem_restRefs_of main_arg5 (by decide) (by decide))).trans ((W_of m (dats m) c main_arg5 (by decide) (by decide)).trans (V_of m c main_arg5 (by decide))),
      ((h c).2 main_arg6 (Pipeline.mem_restRefs_of main_arg6 (by decide) (by decide))).trans ((W_of m (dats m) c main_arg6 (by decide) (by decide)).trans (V_of m c main_arg6 (by decide))),
      ((h c).2 main_arg7 (Pipeline.mem_restRefs_of main_arg7 (by decide) (by decide))).trans ((W_of m (dats m) c main_arg7 (by decide) (by decide)).trans (V_of m c main_arg7 (by decide))),
      ((h c).2 main_arg8 (Pipeline.mem_restRefs_of main_arg8 (by decide) (by decide))).trans ((W_of m (dats m) c main_arg8 (by decide) (by decide)).trans (V_of m c main_arg8 (by decide))),
      ((h c).2 main_arg9 (Pipeline.mem_restRefs_of main_arg9 (by decide) (by decide))).trans ((W_of m (dats m) c main_arg9 (by decide) (by decide)).trans (V_of m c main_arg9 (by decide))),
      ((h c).2 main_arg10 (Pipeline.mem_restRefs_of main_arg10 (by decide) (by decide))).trans ((W_of m (dats m) c main_arg10 (by decide) (by decide)).trans (V_of m c main_arg10 (by decide))),
      ((h c).2 main_arg11 (Pipeline.mem_restRefs_of main_arg11 (by decide) (by decide))).trans ((W_of m (dats m) c main_arg11 (by decide) (by decide)).trans (V_of m c main_arg11 (by decide))),
      ((h c).2 main_arg12 (Pipeline.mem_restRefs_of main_arg12 (by decide) (by decide))).trans ((W_of m (dats m) c main_arg12 (by decide) (by decide)).trans (V_of m c main_arg12 (by decide))),
      ((h c).2 main_arg13 (Pipeline.mem_restRefs_of main_arg13 (by decide) (by decide))).trans ((W_of m (dats m) c main_arg13 (by decide) (by decide)).trans (V_of m c main_arg13 (by decide))),
      ((h c).2 main_arg14 (Pipeline.mem_restRefs_of main_arg14 (by decide) (by decide))).trans ((W_of m (dats m) c main_arg14 (by decide) (by decide)).trans (V_of m c main_arg14 (by decide))),
      ((h c).2 main_arg15 (Pipeline.mem_restRefs_of main_arg15 (by decide) (by decide))).trans ((W_of m (dats m) c main_arg15 (by decide) (by decide)).trans (V_of m c main_arg15 (by decide))),
      ((h c).2 main_arg16 (Pipeline.mem_restRefs_of main_arg16 (by decide) (by decide))).trans ((W_of m (dats m) c main_arg16 (by decide) (by decide)).trans (V_of m c main_arg16 (by decide))),
      ((h c).2 main_arg17 (Pipeline.mem_restRefs_of main_arg17 (by decide) (by decide))).trans ((W_of m (dats m) c main_arg17 (by decide) (by decide)).trans (V_of m c main_arg17 (by decide))),
      ((h c).2 main_arg18 (Pipeline.mem_restRefs_of main_arg18 (by decide) (by decide))).trans ((W_of m (dats m) c main_arg18 (by decide) (by decide)).trans (V_of m c main_arg18 (by decide))),
      ((h c).2 main_arg19 (Pipeline.mem_restRefs_of main_arg19 (by decide) (by decide))).trans ((W_of m (dats m) c main_arg19 (by decide) (by decide)).trans (V_of m c main_arg19 (by decide))),
      ((h c).2 main_arg20 (Pipeline.mem_restRefs_of main_arg20 (by decide) (by decide))).trans ((W_of m (dats m) c main_arg20 (by decide) (by decide)).trans (V_of m c main_arg20 (by decide)))⟩

/-- The frame: every weakly fair execution of @main terminates with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => args_of_post m r h c) (run_main m ρ)

end Cert.KernelIdeal.Hand

end
-- ==== Proof.RefOps.lean ====
/- The reference program's @main written out as lists of its host operations, in order, the bodies of the
  module-local functions it calls (the variance, the where inside it, relu, log_softmax) placed at their call
  sites over each call's own buffers.  The cuts follow the mathematics:
    rA0 … rA3  the first graph-convolution layer with its batch normalisation and relu (result main_v63),
    rB         the first dense layer of the autoencoder chain, b·Wa0 + ba0 (result main_v67),
    rC0 … rC3  the second graph-convolution layer on (h + that dense layer) (result main_v125),
    rD         the remaining three dense layers of the chain (result main_v137),
    rE0, rE1   the classifier on the two hidden states joined, and its log-softmax (result main_v143).
-/
import proofs.«105389_j88072599372111_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Operations 1 … 59 of the reference (main_v0 … main_c_9). -/
abbrev rA0 : List (HloOp τ sig (Elt F)) :=
  [ StableHlo.nullary main_v0 (iotaInDim S8192 32 0),
    StableHlo.unary main_arg2 main_v1 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v1 main_v2 rfl shapeCasts_S1x262144_S262144,
    StableHlo.binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.unary main_arg2 main_v4 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v4 main_v5 rfl shapeCasts_S1x262144_S262144,
    StableHlo.binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.binary main_arg1 main_arg3 main_v7 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    StableHlo.nullary main_cst (constant S_ .f32 0x3F800000#32),
    StableHlo.unary main_cst main_v8 (broadcastInDim S270336 ![] bcast_S_S270336 : (⟨S_, .f32⟩ : BufTy).Contents (Elt F) → (⟨S270336, .f32⟩ : BufTy).Contents (Elt F)),
    StableHlo.nullary main_cst_0 (constant S_ .f32 0x00000000#32),
    StableHlo.unary main_cst_0 main_v9 (broadcastInDim S8192 ![] bcast_S_S8192 : (⟨S_, .f32⟩ : BufTy).Contents (Elt F) → (⟨S8192, .f32⟩ : BufTy).Contents (Elt F)),
    StableHlo.unary main_v6 main_v10 (broadcastInDim S270336x1 ![0] bcast_S270336_S270336x1_0 : (⟨S270336, .i32⟩ : BufTy).Contents (Elt F) → (⟨S270336x1, .i32⟩ : BufTy).Contents (Elt F)),
    StableHlo.ternary main_v9 main_v10 main_v8 main_v11 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.unary main_v11 main_v12 (Host.rsqrt : (⟨S8192, .f32⟩ : BufTy).Contents (Elt F) → (⟨S8192, .f32⟩ : BufTy).Contents (Elt F)),
    StableHlo.nullary main_c (constantI S_ 32 0#32),
    StableHlo.unary main_c main_v13 (broadcastInDim S270336 ![] bcast_S_S270336 : (⟨S_, .i32⟩ : BufTy).Contents (Elt F) → (⟨S270336, .i32⟩ : BufTy).Contents (Elt F)),
    StableHlo.binary main_v3 main_v13 main_v14 (cmpi .slt : (⟨S270336, .i32⟩ : BufTy).Contents (Elt F) → (⟨S270336, .i32⟩ : BufTy).Contents (Elt F) → (⟨S270336, .i1⟩ : BufTy).Contents (Elt F)),
    StableHlo.nullary main_c_1 (constantI S_ 32 8192#32),
    StableHlo.unary main_c_1 main_v15 (broadcastInDim S270336 ![] bcast_S_S270336 : (⟨S_, .i32⟩ : BufTy).Contents (Elt F) → (⟨S270336, .i32⟩ : BufTy).Contents (Elt F)),
    StableHlo.binary main_v3 main_v15 main_v16 (addi : (⟨S270336, .i32⟩ : BufTy).Contents (Elt F) → (⟨S270336, .i32⟩ : BufTy).Contents (Elt F) → (⟨S270336, .i32⟩ : BufTy).Contents (Elt F)),
    StableHlo.ternary main_v14 main_v16 main_v3 main_v17 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v17 main_v18 (broadcastInDim S270336x1 ![0] bcast_S270336_S270336x1_0 : (⟨S270336, .i32⟩ : BufTy).Contents (Elt F) → (⟨S270336x1, .i32⟩ : BufTy).Contents (Elt F)),
    StableHlo.binary main_v12 main_v18 main_v19 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.nullary main_c_2 (constantI S_ 32 0#32),
    StableHlo.unary main_c_2 main_v20 (broadcastInDim S270336 ![] bcast_S_S270336 : (⟨S_, .i32⟩ : BufTy).Contents (Elt F) → (⟨S270336, .i32⟩ : BufTy).Contents (Elt F)),
    StableHlo.binary main_v6 main_v20 main_v21 (cmpi .slt : (⟨S270336, .i32⟩ : BufTy).Contents (Elt F) → (⟨S270336, .i32⟩ : BufTy).Contents (Elt F) → (⟨S270336, .i1⟩ : BufTy).Contents (Elt F)),
    StableHlo.nullary main_c_3 (constantI S_ 32 8192#32),
    StableHlo.unary main_c_3 main_v22 (broadcastInDim S270336 ![] bcast_S_S270336 : (⟨S_, .i32⟩ : BufTy).Contents (Elt F) → (⟨S270336, .i32⟩ : BufTy).Contents (Elt F)),
    StableHlo.binary main_v6 main_v22 main_v23 (addi : (⟨S270336, .i32⟩ : BufTy).Contents (Elt F) → (⟨S270336, .i32⟩ : BufTy).Contents (Elt F) → (⟨S270336, .i32⟩ : BufTy).Contents (Elt F)),
    StableHlo.ternary main_v21 main_v23 main_v6 main_v24 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v24 main_v25 (broadcastInDim S270336x1 ![0] bcast_S270336_S270336x1_0 : (⟨S270336, .i32⟩ : BufTy).Contents (Elt F) → (⟨S270336x1, .i32⟩ : BufTy).Contents (Elt F)),
    StableHlo.binary main_v12 main_v25 main_v26 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v19 main_v26 main_v27 (mulf : (⟨S270336, .f32⟩ : BufTy).Contents (Elt F) → (⟨S270336, .f32⟩ : BufTy).Contents (Elt F) → (⟨S270336, .f32⟩ : BufTy).Contents (Elt F)),
    StableHlo.unary main_v27 main_v28 (broadcastInDim S270336x1 ![0] bcast_S270336_S270336x1_0 : (⟨S270336, .f32⟩ : BufTy).Contents (Elt F) → (⟨S270336x1, .f32⟩ : BufTy).Contents (Elt F)),
    StableHlo.nullary main_c_4 (constantI S_ 32 0#32),
    StableHlo.unary main_c_4 main_v29 (broadcastInDim S270336 ![] bcast_S_S270336 : (⟨S_, .i32⟩ : BufTy).Contents (Elt F) → (⟨S270336, .i32⟩ : BufTy).Contents (Elt F)),
    StableHlo.binary main_v3 main_v29 main_v30 (cmpi .slt : (⟨S270336, .i32⟩ : BufTy).Contents (Elt F) → (⟨S270336, .i32⟩ : BufTy).Contents (Elt F) → (⟨S270336, .i1⟩ : BufTy).Contents (Elt F)),
    StableHlo.nullary main_c_5 (constantI S_ 32 8192#32),
    StableHlo.unary main_c_5 main_v31 (broadcastInDim S270336 ![] bcast_S_S270336 : (⟨S_, .i32⟩ : BufTy).Contents (Elt F) → (⟨S270336, .i32⟩ : BufTy).Contents (Elt F)),
    StableHlo.binary main_v3 main_v31 main_v32 (addi : (⟨S270336, .i32⟩ : BufTy).Contents (Elt F) → (⟨S270336, .i32⟩ : BufTy).Contents (Elt F) → (⟨S270336, .i32⟩ : BufTy).Contents (Elt F)),
    StableHlo.ternary main_v30 main_v32 main_v3 main_v33 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v33 main_v34 (broadcastInDim S270336x1 ![0] bcast_S270336_S270336x1_0 : (⟨S270336, .i32⟩ : BufTy).Contents (Elt F) → (⟨S270336x1, .i32⟩ : BufTy).Contents (Elt F)),
    StableHlo.binary main_v7 main_v34 main_v35 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    StableHlo.unary main_v28 main_v36 (broadcastInDim S270336x32 ![0, 1] bcast_S270336x1_S270336x32_0_1 : (⟨S270336x1, .f32⟩ : BufTy).Contents (Elt F) → (⟨S270336x32, .f32⟩ : BufTy).Contents (Elt F)),
    StableHlo.binary main_v36 main_v35 main_v37 (mulf : (⟨S270336x32, .f32⟩ : BufTy).Contents (Elt F) → (⟨S270336x32, .f32⟩ : BufTy).Contents (Elt F) → (⟨S270336x32, .f32⟩ : BufTy).Contents (Elt F)),
    StableHlo.nullary main_cst_6 (constant S_ .f32 0x00000000#32),
    StableHlo.unary main_cst_6 main_v38 (broadcastInDim S8192x32 ![] bcast_S_S8192x32 : (⟨S_, .f32⟩ : BufTy).Contents (Elt F) → (⟨S8192x32, .f32⟩ : BufTy).Contents (Elt F)),
    StableHlo.unary main_v6 main_v39 (broadcastInDim S270336x1 ![0] bcast_S270336_S270336x1_0 : (⟨S270336, .i32⟩ : BufTy).Contents (Elt F) → (⟨S270336x1, .i32⟩ : BufTy).Contents (Elt F)),
    StableHlo.ternary main_v38 main_v39 main_v37 main_v40 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    StableHlo.unary main_arg4 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S8192x32 ![0, 1] bcast_S1x32_S8192x32_0_1 : (⟨S1x32, .f32⟩ : BufTy).Contents (Elt F) → (⟨S8192x32, .f32⟩ : BufTy).Contents (Elt F)),
    StableHlo.binary main_v40 main_v42 main_v43 (addf : (⟨S8192x32, .f32⟩ : BufTy).Contents (Elt F) → (⟨S8192x32, .f32⟩ : BufTy).Contents (Elt F) → (⟨S8192x32, .f32⟩ : BufTy).Contents (Elt F)),
    StableHlo.nullary main_cst_7 (constant S_ .f32 0x00000000#32),
    StableHlo.binary main_v43 main_cst_7 main_v44 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    StableHlo.nullary main_cst_8 (constant S_ .f32 0x46000000#32),
    StableHlo.unary main_cst_8 main_v45 (broadcastInDim S32 ![] bcast_S_S32 : (⟨S_, .f32⟩ : BufTy).Contents (Elt F) → (⟨S32, .f32⟩ : BufTy).Contents (Elt F)),
    StableHlo.binary main_v44 main_v45 main_v46 (Host.divf : (⟨S32, .f32⟩ : BufTy).Contents (Elt F) → (⟨S32, .f32⟩ : BufTy).Contents (Elt F) → (⟨S32, .f32⟩ : BufTy).Contents (Elt F)),
    StableHlo.nullary main_c_9 (constantI S_ 32 0#32) ]

/-- Operations 60 … 81 of the reference (main_call0_cst … main_v47). -/
abbrev rA1 : List (HloOp τ sig (Elt F)) :=
  [ StableHlo.TRef.nullary (.of main_call0_cst : StableHlo.TRef sig ⟨S_, .f32⟩) (constant S_ .f32 0x00000000#32),
    StableHlo.TRef.binary (.of main_v43 : StableHlo.TRef sig ⟨S8192x32, .f32⟩) (.of main_call0_cst : StableHlo.TRef sig ⟨S_, .f32⟩) (.of main_call0_v0 : StableHlo.TRef sig ⟨S32, .f32⟩) (fun x v => Host.reduceAdd x v reducesTo_S8192x32_S32_d0 h_S_),
    StableHlo.TRef.unary (.of main_call0_v0 : StableHlo.TRef sig ⟨S32, .f32⟩) (.of main_call0_v1 : StableHlo.TRef sig ⟨S1x32, .f32⟩) (broadcastInDim S1x32 ![1] bcast_S32_S1x32_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x32, .f32⟩) (broadcastInDim S1x32 ![] bcast_S_S1x32),
    StableHlo.TRef.binary (.of main_call0_v1 : StableHlo.TRef sig ⟨S1x32, .f32⟩) (.of main_call0_v2 : StableHlo.TRef sig ⟨S1x32, .f32⟩) (.of main_call0_v3 : StableHlo.TRef sig ⟨S1x32, .f32⟩) Host.divf,
    StableHlo.TRef.unary (.of main_call0_v3 : StableHlo.TRef sig ⟨S1x32, .f32⟩) (.of main_call0_v4 : StableHlo.TRef sig ⟨S8192x32, .f32⟩) (broadcastInDim S8192x32 ![0, 1] bcast_S1x32_S8192x32_0_1),
    StableHlo.TRef.binary (.of main_v43 : StableHlo.TRef sig ⟨S8192x32, .f32⟩) (.of main_call0_v4 : StableHlo.TRef sig ⟨S8192x32, .f32⟩) (.of main_call0_v5 : StableHlo.TRef sig ⟨S8192x32, .f32⟩) subf,
    StableHlo.TRef.binary (.of main_call0_v5 : StableHlo.TRef sig ⟨S8192x32, .f32⟩) (.of main_call0_v5 : StableHlo.TRef sig ⟨S8192x32, .f32⟩) (.of main_call0_v6 : StableHlo.TRef sig ⟨S8192x32, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x32, .f32⟩) (.of main_call0_cst_2 : StableHlo.TRef sig ⟨S_, .f32⟩) (.of main_call0_v9 : StableHlo.TRef sig ⟨S32, .f32⟩) (fun x v => Host.reduceAdd x v reducesTo_S8192x32_S32_d0 h_S_),
    StableHlo.TRef.unary (.of main_call0_v8 : StableHlo.TRef sig ⟨S_, .f32⟩) (.of main_call0_v10 : StableHlo.TRef sig ⟨S32, .f32⟩) (broadcastInDim S32 ![] bcast_S_S32),
    StableHlo.TRef.binary (.of main_call0_v9 : StableHlo.TRef sig ⟨S32, .f32⟩) (.of main_call0_v10 : StableHlo.TRef sig ⟨S32, .f32⟩) (.of main_call0_v11 : StableHlo.TRef sig ⟨S32, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S32, .f32⟩) (broadcastInDim S32 ![] bcast_S_S32),
    StableHlo.TRef.ternary (.of main_call0_v12 : StableHlo.TRef sig ⟨S_, .i1⟩) (.of main_call0_v11 : StableHlo.TRef sig ⟨S32, .f32⟩) (.of main_call0_call0_v1 : StableHlo.TRef sig ⟨S32, .f32⟩) (.of main_v47 : StableHlo.TRef sig ⟨S32, .f32⟩) (fun p a b => select (broadcastInDim S32 ![] bcast_S_S32 p) a b) ]

/-- Operations 82 … 97 of the reference (main_v48 … main_v62). -/
abbrev rA2 : List (HloOp τ sig (Elt F)) :=
  [ StableHlo.unary main_v46 main_v48 (broadcastInDim S1x32 ![1] bcast_S32_S1x32_1 : (⟨S32, .f32⟩ : BufTy).Contents (Elt F) → (⟨S1x32, .f32⟩ : BufTy).Contents (Elt F)),
    StableHlo.unary main_v48 main_v49 (broadcastInDim S8192x32 ![0, 1] bcast_S1x32_S8192x32_0_1 : (⟨S1x32, .f32⟩ : BufTy).Contents (Elt F) → (⟨S8192x32, .f32⟩ : BufTy).Contents (Elt F)),
    StableHlo.binary main_v43 main_v49 main_v50 (subf : (⟨S8192x32, .f32⟩ : BufTy).Contents (Elt F) → (⟨S8192x32, .f32⟩ : BufTy).Contents (Elt F) → (⟨S8192x32, .f32⟩ : BufTy).Contents (Elt F)),
    StableHlo.unary main_arg7 main_v51 (broadcastInDim S1x32 ![1] bcast_S32_S1x32_1 : (⟨S32, .f32⟩ : BufTy).Contents (Elt F) → (⟨S1x32, .f32⟩ : BufTy).Contents (Elt F)),
    StableHlo.unary main_v51 main_v52 (broadcastInDim S8192x32 ![0, 1] bcast_S1x32_S8192x32_0_1 : (⟨S1x32, .f32⟩ : BufTy).Contents (Elt F) → (⟨S8192x32, .f32⟩ : BufTy).Contents (Elt F)),
    StableHlo.binary main_v52 main_v50 main_v53 (mulf : (⟨S8192x32, .f32⟩ : BufTy).Contents (Elt F) → (⟨S8192x32, .f32⟩ : BufTy).Contents (Elt F) → (⟨S8192x32, .f32⟩ : BufTy).Contents (Elt F)),
    StableHlo.nullary main_cst_10 (constant S_ .f32 0x3727C5AC#32),
    StableHlo.unary main_cst_10 main_v54 (broadcastInDim S32 ![] bcast_S_S32 : (⟨S_, .f32⟩ : BufTy).Contents (Elt F) → (⟨S32, .f32⟩ : BufTy).Contents (Elt F)),
    StableHlo.binary main_v47 main_v54 main_v55 (addf : (⟨S32, .f32⟩ : BufTy).Contents (Elt F) → (⟨S32, .f32⟩ : BufTy).Contents (Elt F) → (⟨S32, .f32⟩ : BufTy).Contents (Elt F)),
    StableHlo.unary main_v55 main_v56 (Host.rsqrt : (⟨S32, .f32⟩ : BufTy).Contents (Elt F) → (⟨S32, .f32⟩ : BufTy).Contents (Elt F)),
    StableHlo.unary main_v56 main_v57 (broadcastInDim S1x32 ![1] bcast_S32_S1x32_1 : (⟨S32, .f32⟩ : BufTy).Contents (Elt F) → (⟨S1x32, .f32⟩ : BufTy).Contents (Elt F)),
    StableHlo.unary main_v57 main_v58 (broadcastInDim S8192x32 ![0, 1] bcast_S1x32_S8192x32_0_1 : (⟨S1x32, .f32⟩ : BufTy).Contents (Elt F) → (⟨S8192x32, .f32⟩ : BufTy).Contents (Elt F)),
    StableHlo.binary main_v53 main_v58 main_v59 (mulf : (⟨S8192x32, .f32⟩ : BufTy).Contents (Elt F) → (⟨S8192x32, .f32⟩ : BufTy).Contents (Elt F) → (⟨S8192x32, .f32⟩ : BufTy).Contents (Elt F)),
    StableHlo.unary main_arg8 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S8192x32 ![0, 1] bcast_S1x32_S8192x32_0_1 : (⟨S1x32, .f32⟩ : BufTy).Contents (Elt F) → (⟨S8192x32, .f32⟩ : BufTy).Contents (Elt F)),
    StableHlo.binary main_v59 main_v61 main_v62 (addf : (⟨S8192x32, .f32⟩ : BufTy).Contents (Elt F) → (⟨S8192x32, .f32⟩ : BufTy).Contents (Elt F) → (⟨S8192x32, .f32⟩ : BufTy).Contents (Elt F)) ]

/-- Operations 98 … 100 of the reference (main_call1_cst … main_v63). -/
abbrev rA3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x32, .f32⟩) (broadcastInDim S8192x32 ![] bcast_S_S8192x32),
    StableHlo.TRef.binary (.of main_v62 : StableHlo.TRef sig ⟨S8192x32, .f32⟩) (.of main_call1_v0 : StableHlo.TRef sig ⟨S8192x32, .f32⟩) (.of main_v63 : StableHlo.TRef sig ⟨S8192x32, .f32⟩) maximumf ]

/-- Operations 101 … 104 of the reference (main_v64 … main_v67). -/
abbrev rB : List (HloOp τ sig (Elt F)) :=
  [ StableHlo.binary main_arg0 main_arg11 main_v64 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    StableHlo.unary main_arg12 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S8192x32 ![0, 1] bcast_S1x32_S8192x32_0_1 : (⟨S1x32, .f32⟩ : BufTy).Contents (Elt F) → (⟨S8192x32, .f32⟩ : BufTy).Contents (Elt F)),
    StableHlo.binary main_v64 main_v66 main_v67 (addf : (⟨S8192x32, .f32⟩ : BufTy).Contents (Elt F) → (⟨S8192x32, .f32⟩ : BufTy).Contents (Elt F) → (⟨S8192x32, .f32⟩ : BufTy).Contents (Elt F)) ]

/-- Operations 105 … 157 of the reference (main_v68 … main_c_22). -/
abbrev rC0 : List (HloOp τ sig (Elt F)) :=
  [ StableHlo.binary main_v63 main_v67 main_v68 (addf : (⟨S8192x32, .f32⟩ : BufTy).Contents (Elt F) → (⟨S8192x32, .f32⟩ : BufTy).Contents (Elt F) → (⟨S8192x32, .f32⟩ : BufTy).Contents (Elt F)),
    StableHlo.binary main_v68 main_arg5 main_v69 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.nullary main_cst_11 (constant S_ .f32 0x3F800000#32),
    StableHlo.unary main_cst_11 main_v70 (broadcastInDim S270336 ![] bcast_S_S270336 : (⟨S_, .f32⟩ : BufTy).Contents (Elt F) → (⟨S270336, .f32⟩ : BufTy).Contents (Elt F)),
    StableHlo.nullary main_cst_12 (constant S_ .f32 0x00000000#32),
    StableHlo.unary main_cst_12 main_v71 (broadcastInDim S8192 ![] bcast_S_S8192 : (⟨S_, .f32⟩ : BufTy).Contents (Elt F) → (⟨S8192, .f32⟩ : BufTy).Contents (Elt F)),
    StableHlo.unary main_v6 main_v72 (broadcastInDim S270336x1 ![0] bcast_S270336_S270336x1_0 : (⟨S270336, .i32⟩ : BufTy).Contents (Elt F) → (⟨S270336x1, .i32⟩ : BufTy).Contents (Elt F)),
    StableHlo.ternary main_v71 main_v72 main_v70 main_v73 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.unary main_v73 main_v74 (Host.rsqrt : (⟨S8192, .f32⟩ : BufTy).Contents (Elt F) → (⟨S8192, .f32⟩ : BufTy).Contents (Elt F)),
    StableHlo.nullary main_c_13 (constantI S_ 32 0#32),
    StableHlo.unary main_c_13 main_v75 (broadcastInDim S270336 ![] bcast_S_S270336 : (⟨S_, .i32⟩ : BufTy).Contents (Elt F) → (⟨S270336, .i32⟩ : BufTy).Contents (Elt F)),
    StableHlo.binary main_v3 main_v75 main_v76 (cmpi .slt : (⟨S270336, .i32⟩ : BufTy).Contents (Elt F) → (⟨S270336, .i32⟩ : BufTy).Contents (Elt F) → (⟨S270336, .i1⟩ : BufTy).Contents (Elt F)),
    StableHlo.nullary main_c_14 (constantI S_ 32 8192#32),
    StableHlo.unary main_c_14 main_v77 (broadcastInDim S270336 ![] bcast_S_S270336 : (⟨S_, .i32⟩ : BufTy).Contents (Elt F) → (⟨S270336, .i32⟩ : BufTy).Contents (Elt F)),
    StableHlo.binary main_v3 main_v77 main_v78 (addi : (⟨S270336, .i32⟩ : BufTy).Contents (Elt F) → (⟨S270336, .i32⟩ : BufTy).Contents (Elt F) → (⟨S270336, .i32⟩ : BufTy).Contents (Elt F)),
    StableHlo.ternary main_v76 main_v78 main_v3 main_v79 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v79 main_v80 (broadcastInDim S270336x1 ![0] bcast_S270336_S270336x1_0 : (⟨S270336, .i32⟩ : BufTy).Contents (Elt F) → (⟨S270336x1, .i32⟩ : BufTy).Contents (Elt F)),
    StableHlo.binary main_v74 main_v80 main_v81 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.nullary main_c_15 (constantI S_ 32 0#32),
    StableHlo.unary main_c_15 main_v82 (broadcastInDim S270336 ![] bcast_S_S270336 : (⟨S_, .i32⟩ : BufTy).Contents (Elt F) → (⟨S270336, .i32⟩ : BufTy).Contents (Elt F)),
    StableHlo.binary main_v6 main_v82 main_v83 (cmpi .slt : (⟨S270336, .i32⟩ : BufTy).Contents (Elt F) → (⟨S270336, .i32⟩ : BufTy).Contents (Elt F) → (⟨S270336, .i1⟩ : BufTy).Contents (Elt F)),
    StableHlo.nullary main_c_16 (constantI S_ 32 8192#32),
    StableHlo.unary main_c_16 main_v84 (broadcastInDim S270336 ![] bcast_S_S270336 : (⟨S_, .i32⟩ : BufTy).Contents (Elt F) → (⟨S270336, .i32⟩ : BufTy).Contents (Elt F)),
    StableHlo.binary main_v6 main_v84 main_v85 (addi : (⟨S270336, .i32⟩ : BufTy).Contents (Elt F) → (⟨S270336, .i32⟩ : BufTy).Contents (Elt F) → (⟨S270336, .i32⟩ : BufTy).Contents (Elt F)),
    StableHlo.ternary main_v83 main_v85 main_v6 main_v86 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v86 main_v87 (broadcastInDim S270336x1 ![0] bcast_S270336_S270336x1_0 : (⟨S270336, .i32⟩ : BufTy).Contents (Elt F) → (⟨S270336x1, .i32⟩ : BufTy).Contents (Elt F)),
    StableHlo.binary main_v74 main_v87 main_v88 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v81 main_v88 main_v89 (mulf : (⟨S270336, .f32⟩ : BufTy).Contents (Elt F) → (⟨S270336, .f32⟩ : BufTy).Contents (Elt F) → (⟨S270336, .f32⟩ : BufTy).Contents (Elt F)),
    StableHlo.unary main_v89 main_v90 (broadcastInDim S270336x1 ![0] bcast_S270336_S270336x1_0 : (⟨S270336, .f32⟩ : BufTy).Contents (Elt F) → (⟨S270336x1, .f32⟩ : BufTy).Contents (Elt F)),
    StableHlo.nullary main_c_17 (constantI S_ 32 0#32),
    StableHlo.unary main_c_17 main_v91 (broadcastInDim S270336 ![] bcast_S_S270336 : (⟨S_, .i32⟩ : BufTy).Contents (Elt F) → (⟨S270336, .i32⟩ : BufTy).Contents (Elt F)),
    StableHlo.binary main_v3 main_v91 main_v92 (cmpi .slt : (⟨S270336, .i32⟩ : BufTy).Contents (Elt F) → (⟨S270336, .i32⟩ : BufTy).Contents (Elt F) → (⟨S270336, .i1⟩ : BufTy).Contents (Elt F)),
    StableHlo.nullary main_c_18 (constantI S_ 32 8192#32),
    StableHlo.unary main_c_18 main_v93 (broadcastInDim S270336 ![] bcast_S_S270336 : (⟨S_, .i32⟩ : BufTy).Contents (Elt F) → (⟨S270336, .i32⟩ : BufTy).Contents (Elt F)),
    StableHlo.binary main_v3 main_v93 main_v94 (addi : (⟨S270336, .i32⟩ : BufTy).Contents (Elt F) → (⟨S270336, .i32⟩ : BufTy).Contents (Elt F) → (⟨S270336, .i32⟩ : BufTy).Contents (Elt F)),
    StableHlo.ternary main_v92 main_v94 main_v3 main_v95 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v95 main_v96 (broadcastInDim S270336x1 ![0] bcast_S270336_S270336x1_0 : (⟨S270336, .i32⟩ : BufTy).Contents (Elt F) → (⟨S270336x1, .i32⟩ : BufTy).Contents (Elt F)),
    StableHlo.binary main_v69 main_v96 main_v97 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    StableHlo.unary main_v90 main_v98 (broadcastInDim S270336x32 ![0, 1] bcast_S270336x1_S270336x32_0_1 : (⟨S270336x1, .f32⟩ : BufTy).Contents (Elt F) → (⟨S270336x32, .f32⟩ : BufTy).Contents (Elt F)),
    StableHlo.binary main_v98 main_v97 main_v99 (mulf : (⟨S270336x32, .f32⟩ : BufTy).Contents (Elt F) → (⟨S270336x32, .f32⟩ : BufTy).Contents (Elt F) → (⟨S270336x32, .f32⟩ : BufTy).Contents (Elt F)),
    StableHlo.nullary main_cst_19 (constant S_ .f32 0x00000000#32),
    StableHlo.unary main_cst_19 main_v100 (broadcastInDim S8192x32 ![] bcast_S_S8192x32 : (⟨S_, .f32⟩ : BufTy).Contents (Elt F) → (⟨S8192x32, .f32⟩ : BufTy).Contents (Elt F)),
    StableHlo.unary main_v6 main_v101 (broadcastInDim S270336x1 ![0] bcast_S270336_S270336x1_0 : (⟨S270336, .i32⟩ : BufTy).Contents (Elt F) → (⟨S270336x1, .i32⟩ : BufTy).Contents (Elt F)),
    StableHlo.ternary main_v100 main_v101 main_v99 main_v102 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    StableHlo.unary main_arg6 main_v103 (broadcastInDim S1x32 ![1] bcast_S32_S1x32_1 : (⟨S32, .f32⟩ : BufTy).Contents (Elt F) → (⟨S1x32, .f32⟩ : BufTy).Contents (Elt F)),
    StableHlo.unary main_v103 main_v104 (broadcastInDim S8192x32 ![0, 1] bcast_S1x32_S8192x32_0_1 : (⟨S1x32, .f32⟩ : BufTy).Contents (Elt F) → (⟨S8192x32, .f32⟩ : BufTy).Contents (Elt F)),
    StableHlo.binary main_v102 main_v104 main_v105 (addf : (⟨S8192x32, .f32⟩ : BufTy).Contents (Elt F) → (⟨S8192x32, .f32⟩ : BufTy).Contents (Elt F) → (⟨S8192x32, .f32⟩ : BufTy).Contents (Elt F)),
    StableHlo.nullary main_cst_20 (constant S_ .f32 0x00000000#32),
    StableHlo.binary main_v105 main_cst_20 main_v106 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    StableHlo.nullary main_cst_21 (constant S_ .f32 0x46000000#32),
    StableHlo.unary main_cst_21 main_v107 (broadcastInDim S32 ![] bcast_S_S32 : (⟨S_, .f32⟩ : BufTy).Contents (Elt F) → (⟨S32, .f32⟩ : BufTy).Contents (Elt F)),
    StableHlo.binary main_v106 main_v107 main_v108 (Host.divf : (⟨S32, .f32⟩ : BufTy).Contents (Elt F) → (⟨S32, .f32⟩ : BufTy).Contents (Elt F) → (⟨S32, .f32⟩ : BufTy).Contents (Elt F)),
    StableHlo.nullary main_c_22 (constantI S_ 32 0#32) ]

/-- Operations 158 … 179 of the reference (main_call2_cst … main_v109). -/
abbrev rC1 : List (HloOp τ sig (Elt F)) :=
  [ StableHlo.TRef.nullary (.of main_call2_cst : StableHlo.TRef sig ⟨S_, .f32⟩) (constant S_ .f32 0x00000000#32),
    StableHlo.TRef.binary (.of main_v105 : StableHlo.TRef sig ⟨S8192x32, .f32⟩) (.of main_call2_cst : StableHlo.TRef sig ⟨S_, .f32⟩) (.of main_call2_v0 : StableHlo.TRef sig ⟨S32, .f32⟩) (fun x v => Host.reduceAdd x v reducesTo_S8192x32_S32_d0 h_S_),
    StableHlo.TRef.unary (.of main_call2_v0 : StableHlo.TRef sig ⟨S32, .f32⟩) (.of main_call2_v1 : StableHlo.TRef sig ⟨S1x32, .f32⟩) (broadcastInDim S1x32 ![1] bcast_S32_S1x32_1),
    StableHlo.TRef.nullary (.of main_call2_cst_0 : StableHlo.TRef sig ⟨S_, .f32⟩) (constant S_ .f32 0x46000000#32),
    StableHlo.TRef.unary (.of main_call2_cst_0 : StableHlo.TRef sig ⟨S_, .f32⟩) (.of main_call2_v2 : StableHlo.TRef sig ⟨S1x32, .f32⟩) (broadcastInDim S1x32 ![] bcast_S_S1x32),
    StableHlo.TRef.binary (.of main_call2_v1 : StableHlo.TRef sig ⟨S1x32, .f32⟩) (.of main_call2_v2 : StableHlo.TRef sig ⟨S1x32, .f32⟩) (.of main_call2_v3 : StableHlo.TRef sig ⟨S1x32, .f32⟩) Host.divf,
    StableHlo.TRef.unary (.of main_call2_v3 : StableHlo.TRef sig ⟨S1x32, .f32⟩) (.of main_call2_v4 : StableHlo.TRef sig ⟨S8192x32, .f32⟩) (broadcastInDim S8192x32 ![0, 1] bcast_S1x32_S8192x32_0_1),
    StableHlo.TRef.binary (.of main_v105 : StableHlo.TRef sig ⟨S8192x32, .f32⟩) (.of main_call2_v4 : StableHlo.TRef sig ⟨S8192x32, .f32⟩) (.of main_call2_v5 : StableHlo.TRef sig ⟨S8192x32, .f32⟩) subf,
    StableHlo.TRef.binary (.of main_call2_v5 : StableHlo.TRef sig ⟨S8192x32, .f32⟩) (.of main_call2_v5 : StableHlo.TRef sig ⟨S8192x32, .f32⟩) (.of main_call2_v6 : StableHlo.TRef sig ⟨S8192x32, .f32⟩) mulf,
    StableHlo.TRef.unary (.of main_c_22 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8192x32, .f32⟩) (.of main_call2_cst_2 : StableHlo.TRef sig ⟨S_, .f32⟩) (.of main_call2_v9 : StableHlo.TRef sig ⟨S32, .f32⟩) (fun x v => Host.reduceAdd x v reducesTo_S8192x32_S32_d0 h_S_),
    StableHlo.TRef.unary (.of main_call2_v8 : StableHlo.TRef sig ⟨S_, .f32⟩) (.of main_call2_v10 : StableHlo.TRef sig ⟨S32, .f32⟩) (broadcastInDim S32 ![] bcast_S_S32),
    StableHlo.TRef.binary (.of main_call2_v9 : StableHlo.TRef sig ⟨S32, .f32⟩) (.of main_call2_v10 : StableHlo.TRef sig ⟨S32, .f32⟩) (.of main_call2_v11 : StableHlo.TRef sig ⟨S32, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S32, .f32⟩) (broadcastInDim S32 ![] bcast_S_S32),
    StableHlo.TRef.ternary (.of main_call2_v12 : StableHlo.TRef sig ⟨S_, .i1⟩) (.of main_call2_v11 : StableHlo.TRef sig ⟨S32, .f32⟩) (.of main_call2_call0_v1 : StableHlo.TRef sig ⟨S32, .f32⟩) (.of main_v109 : StableHlo.TRef sig ⟨S32, .f32⟩) (fun p a b => select (broadcastInDim S32 ![] bcast_S_S32 p) a b) ]

/-- Operations 180 … 195 of the reference (main_v110 … main_v124). -/
abbrev rC2 : List (HloOp τ sig (Elt F)) :=
  [ StableHlo.unary main_v108 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S8192x32 ![0, 1] bcast_S1x32_S8192x32_0_1 : (⟨S1x32, .f32⟩ : BufTy).Contents (Elt F) → (⟨S8192x32, .f32⟩ : BufTy).Contents (Elt F)),
    StableHlo.binary main_v105 main_v111 main_v112 (subf : (⟨S8192x32, .f32⟩ : BufTy).Contents (Elt F) → (⟨S8192x32, .f32⟩ : BufTy).Contents (Elt F) → (⟨S8192x32, .f32⟩ : BufTy).Contents (Elt F)),
    StableHlo.unary main_arg9 main_v113 (broadcastInDim S1x32 ![1] bcast_S32_S1x32_1 : (⟨S32, .f32⟩ : BufTy).Contents (Elt F) → (⟨S1x32, .f32⟩ : BufTy).Contents (Elt F)),
    StableHlo.unary main_v113 main_v114 (broadcastInDim S8192x32 ![0, 1] bcast_S1x32_S8192x32_0_1 : (⟨S1x32, .f32⟩ : BufTy).Contents (Elt F) → (⟨S8192x32, .f32⟩ : BufTy).Contents (Elt F)),
    StableHlo.binary main_v114 main_v112 main_v115 (mulf : (⟨S8192x32, .f32⟩ : BufTy).Contents (Elt F) → (⟨S8192x32, .f32⟩ : BufTy).Contents (Elt F) → (⟨S8192x32, .f32⟩ : BufTy).Contents (Elt F)),
    StableHlo.nullary main_cst_23 (constant S_ .f32 0x3727C5AC#32),
    StableHlo.unary main_cst_23 main_v116 (broadcastInDim S32 ![] bcast_S_S32 : (⟨S_, .f32⟩ : BufTy).Contents (Elt F) → (⟨S32, .f32⟩ : BufTy).Contents (Elt F)),
    StableHlo.binary main_v109 main_v116 main_v117 (addf : (⟨S32, .f32⟩ : BufTy).Contents (Elt F) → (⟨S32, .f32⟩ : BufTy).Contents (Elt F) → (⟨S32, .f32⟩ : BufTy).Contents (Elt F)),
    StableHlo.unary main_v117 main_v118 (Host.rsqrt : (⟨S32, .f32⟩ : BufTy).Contents (Elt F) → (⟨S32, .f32⟩ : BufTy).Contents (Elt F)),
    StableHlo.unary main_v118 main_v119 (broadcastInDim S1x32 ![1] bcast_S32_S1x32_1 : (⟨S32, .f32⟩ : BufTy).Contents (Elt F) → (⟨S1x32, .f32⟩ : BufTy).Contents (Elt F)),
    StableHlo.unary main_v119 main_v120 (broadcastInDim S8192x32 ![0, 1] bcast_S1x32_S8192x32_0_1 : (⟨S1x32, .f32⟩ : BufTy).Contents (Elt F) → (⟨S8192x32, .f32⟩ : BufTy).Contents (Elt F)),
    StableHlo.binary main_v115 main_v120 main_v121 (mulf : (⟨S8192x32, .f32⟩ : BufTy).Contents (Elt F) → (⟨S8192x32, .f32⟩ : BufTy).Contents (Elt F) → (⟨S8192x32, .f32⟩ : BufTy).Contents (Elt F)),
    StableHlo.unary main_arg10 main_v122 (broadcastInDim S1x32 ![1] bcast_S32_S1x32_1 : (⟨S32, .f32⟩ : BufTy).Contents (Elt F) → (⟨S1x32, .f32⟩ : BufTy).Contents (Elt F)),
    StableHlo.unary main_v122 main_v123 (broadcastInDim S8192x32 ![0, 1] bcast_S1x32_S8192x32_0_1 : (⟨S1x32, .f32⟩ : BufTy).Contents (Elt F) → (⟨S8192x32, .f32⟩ : BufTy).Contents (Elt F)),
    StableHlo.binary main_v121 main_v123 main_v124 (addf : (⟨S8192x32, .f32⟩ : BufTy).Contents (Elt F) → (⟨S8192x32, .f32⟩ : BufTy).Contents (Elt F) → (⟨S8192x32, .f32⟩ : BufTy).Contents (Elt F)) ]

/-- Operations 196 … 198 of the reference (main_call3_cst … main_v125). -/
abbrev rC3 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8192x32, .f32⟩) (broadcastInDim S8192x32 ![] bcast_S_S8192x32),
    StableHlo.TRef.binary (.of main_v124 : StableHlo.TRef sig ⟨S8192x32, .f32⟩) (.of main_call3_v0 : StableHlo.TRef sig ⟨S8192x32, .f32⟩) (.of main_v125 : StableHlo.TRef sig ⟨S8192x32, .f32⟩) maximumf ]

/-- Operations 199 … 210 of the reference (main_v126 … main_v137). -/
abbrev rD : List (HloOp τ sig (Elt F)) :=
  [ StableHlo.binary main_v67 main_arg13 main_v126 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg14 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S8192x32 ![0, 1] bcast_S1x32_S8192x32_0_1 : (⟨S1x32, .f32⟩ : BufTy).Contents (Elt F) → (⟨S8192x32, .f32⟩ : BufTy).Contents (Elt F)),
    StableHlo.binary main_v126 main_v128 main_v129 (addf : (⟨S8192x32, .f32⟩ : BufTy).Contents (Elt F) → (⟨S8192x32, .f32⟩ : BufTy).Contents (Elt F) → (⟨S8192x32, .f32⟩ : BufTy).Contents (Elt F)),
    StableHlo.binary main_v129 main_arg15 main_v130 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg16 main_v131 (broadcastInDim S1x32 ![1] bcast_S32_S1x32_1 : (⟨S32, .f32⟩ : BufTy).Contents (Elt F) → (⟨S1x32, .f32⟩ : BufTy).Contents (Elt F)),
    StableHlo.unary main_v131 main_v132 (broadcastInDim S8192x32 ![0, 1] bcast_S1x32_S8192x32_0_1 : (⟨S1x32, .f32⟩ : BufTy).Contents (Elt F) → (⟨S8192x32, .f32⟩ : BufTy).Contents (Elt F)),
    StableHlo.binary main_v130 main_v132 main_v133 (addf : (⟨S8192x32, .f32⟩ : BufTy).Contents (Elt F) → (⟨S8192x32, .f32⟩ : BufTy).Contents (Elt F) → (⟨S8192x32, .f32⟩ : BufTy).Contents (Elt F)),
    StableHlo.binary main_v133 main_arg17 main_v134 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    StableHlo.unary main_arg18 main_v135 (broadcastInDim S1x8192 ![1] bcast_S8192_S1x8192_1 : (⟨S8192, .f32⟩ : BufTy).Contents (Elt F) → (⟨S1x8192, .f32⟩ : BufTy).Contents (Elt F)),
    StableHlo.unary main_v135 main_v136 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v134 main_v136 main_v137 (addf : (⟨S8192x8192, .f32⟩ : BufTy).Contents (Elt F) → (⟨S8192x8192, .f32⟩ : BufTy).Contents (Elt F) → (⟨S8192x8192, .f32⟩ : BufTy).Contents (Elt F)) ]

/-- Operations 211 … 215 of the reference (main_v138 … main_v142). -/
abbrev rE0 : List (HloOp τ sig (Elt F)) :=
  [ StableHlo.binary main_v63 main_v125 main_v138 ((fun a b => concatenate S8192x64 1 [⟨S8192x32, a⟩, ⟨S8192x32, b⟩] concatenates_S8192x32_S8192x32_S8192x64_d1) : (⟨S8192x32, .f32⟩ : BufTy).Contents (Elt F) → (⟨S8192x32, .f32⟩ : BufTy).Contents (Elt F) → (⟨S8192x64, .f32⟩ : BufTy).Contents (Elt F)),
    StableHlo.binary main_v138 main_arg19 main_v139 ((fun l r => Host.dotGeneral dot_S8192x64_S64x10_S8192x10_1_0_0_1_n_n none l r) : (⟨S8192x64, .f32⟩ : BufTy).Contents (Elt F) → (⟨S64x10, .f32⟩ : BufTy).Contents (Elt F) → (⟨S8192x10, .f32⟩ : BufTy).Contents (Elt F)),
    StableHlo.unary main_arg20 main_v140 (broadcastInDim S1x10 ![1] bcast_S10_S1x10_1 : (⟨S10, .f32⟩ : BufTy).Contents (Elt F) → (⟨S1x10, .f32⟩ : BufTy).Contents (Elt F)),
    StableHlo.unary main_v140 main_v141 (broadcastInDim S8192x10 ![0, 1] bcast_S1x10_S8192x10_0_1 : (⟨S1x10, .f32⟩ : BufTy).Contents (Elt F) → (⟨S8192x10, .f32⟩ : BufTy).Contents (Elt F)),
    StableHlo.binary main_v139 main_v141 main_v142 (addf : (⟨S8192x10, .f32⟩ : BufTy).Contents (Elt F) → (⟨S8192x10, .f32⟩ : BufTy).Contents (Elt F) → (⟨S8192x10, .f32⟩ : BufTy).Contents (Elt F)) ]

/-- Operations 216 … 230 of the reference (main_call4_cst … main_v143). -/
abbrev rE1 : List (HloOp τ sig (Elt F)) :=
  [ StableHlo.TRef.nullary (.of main_call4_cst : StableHlo.TRef sig ⟨S_, .f32⟩) (constant S_ .f32 0xFF800000#32),
    StableHlo.TRef.binary (.of main_v142 : StableHlo.TRef sig ⟨S8192x10, .f32⟩) (.of main_call4_cst : StableHlo.TRef sig ⟨S_, .f32⟩) (.of main_call4_v0 : StableHlo.TRef sig ⟨S8192, .f32⟩) (fun x v => Host.reduce FloatOps.maximumf x v reducesTo_S8192x10_S8192_d1 h_S_),
    StableHlo.TRef.nullary (.of main_call4_cst_0 : StableHlo.TRef sig ⟨S_, .f32⟩) (constant S_ .f32 0xFF800000#32),
    StableHlo.TRef.unary (.of main_call4_cst_0 : StableHlo.TRef sig ⟨S_, .f32⟩) (.of main_call4_v1 : StableHlo.TRef sig ⟨S8192, .f32⟩) (broadcastInDim S8192 ![] bcast_S_S8192),
    StableHlo.TRef.binary (.of main_call4_v1 : StableHlo.TRef sig ⟨S8192, .f32⟩) (.of main_call4_v0 : StableHlo.TRef sig ⟨S8192, .f32⟩) (.of main_call4_v2 : StableHlo.TRef sig ⟨S8192, .f32⟩) maximumf,
    StableHlo.TRef.unary (.of main_call4_v2 : StableHlo.TRef sig ⟨S8192, .f32⟩) (.of main_call4_v3 : StableHlo.TRef sig ⟨S8192x1, .f32⟩) (broadcastInDim S8192x1 ![0] bcast_S8192_S8192x1_0),
    StableHlo.TRef.unary (.of main_call4_v3 : StableHlo.TRef sig ⟨S8192x1, .f32⟩) (.of main_call4_v4 : StableHlo.TRef sig ⟨S8192x10, .f32⟩) (broadcastInDim S8192x10 ![0, 1] bcast_S8192x1_S8192x10_0_1),
    StableHlo.TRef.binary (.of main_v142 : StableHlo.TRef sig ⟨S8192x10, .f32⟩) (.of main_call4_v4 : StableHlo.TRef sig ⟨S8192x10, .f32⟩) (.of main_call4_v5 : StableHlo.TRef sig ⟨S8192x10, .f32⟩) subf,
    StableHlo.TRef.unary (.of main_call4_v5 : StableHlo.TRef sig ⟨S8192x10, .f32⟩) (.of main_call4_v6 : StableHlo.TRef sig ⟨S8192x10, .f32⟩) Host.exp,
    StableHlo.TRef.nullary (.of main_call4_cst_1 : StableHlo.TRef sig ⟨S_, .f32⟩) (constant S_ .f32 0x00000000#32),
    StableHlo.TRef.binary (.of main_call4_v6 : StableHlo.TRef sig ⟨S8192x10, .f32⟩) (.of main_call4_cst_1 : StableHlo.TRef sig ⟨S_, .f32⟩) (.of main_call4_v7 : StableHlo.TRef sig ⟨S8192, .f32⟩) (fun x v => Host.reduceAdd x v reducesTo_S8192x10_S8192_d1 h_S_),
    StableHlo.TRef.unary (.of main_call4_v7 : StableHlo.TRef sig ⟨S8192, .f32⟩) (.of main_call4_v8 : StableHlo.TRef sig ⟨S8192x1, .f32⟩) (broadcastInDim S8192x1 ![0] bcast_S8192_S8192x1_0),
    StableHlo.TRef.unary (.of main_call4_v8 : StableHlo.TRef sig ⟨S8192x1, .f32⟩) (.of main_call4_v9 : StableHlo.TRef sig ⟨S8192x1, .f32⟩) Host.log,
    StableHlo.TRef.unary (.of main_call4_v9 : StableHlo.TRef sig ⟨S8192x1, .f32⟩) (.of main_call4_v10 : StableHlo.TRef sig ⟨S8192x10, .f32⟩) (broadcastInDim S8192x10 ![0, 1] bcast_S8192x1_S8192x10_0_1),
    StableHlo.TRef.binary (.of main_call4_v5 : StableHlo.TRef sig ⟨S8192x10, .f32⟩) (.of main_call4_v10 : StableHlo.TRef sig ⟨S8192x10, .f32⟩) (.of main_v143 : StableHlo.TRef sig ⟨S8192x10, .f32⟩) subf ]

/-- The whole of @main, in order. -/
abbrev ops : List (HloOp τ sig (Elt F)) :=
  rA0 ++ (rA1 ++ (rA2 ++ (rA3 ++ (rB ++ (rC0 ++ (rC1 ++ (rC2 ++ (rC3 ++ (rD ++ (rE0 ++ rE1))))))))))

end Cert.ReferenceIdeal.Hand

end
-- ==== Proof.RefRun.lean ====
/-
  The reference program's run.  @main is the straight line of the 230 host operations listed in the
  segments rA0 … rE1: the program text and the list are the same chain of operation steps once the
  bodies of the called functions are opened at their call sites and sequencing is re-associated.  Every
  operation touches TensorCore buffers only, allocates nothing, and writes one buffer of index at least 21,
  so the twenty-one argument buffers (indices 0 … 20) keep their launch contents; every weakly fair
  execution terminates with each buffer at the fold of the operations' results over the launch contents.
-/
import proofs.«105389_j88072599372111_1_alg».proof.Proof.RefOps
import Idealize.ShloMosaic.Lib.StableHlo.Run
import Idealize.ShloMosaic.Lib.Pipeline.Regions

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and allocates nothing -/

theorem rA0_sub : (rA0 : List (HloOp τ sig (Elt F))).Forall fun op => op.bufs ⊆ StableHlo.tcRefs τ sig :=
  ⟨StableHlo.nullary_bufs_sub .., StableHlo.unary_bufs_sub .., StableHlo.reshape_bufs_sub ..,
   StableHlo.binary_bufs_sub .., StableHlo.unary_bufs_sub .., StableHlo.reshape_bufs_sub ..,
   StableHlo.binary_bufs_sub .., StableHlo.binary_bufs_sub .., StableHlo.nullary_bufs_sub ..,
   StableHlo.unary_bufs_sub .., StableHlo.nullary_bufs_sub .., StableHlo.unary_bufs_sub ..,
   StableHlo.unary_bufs_sub .., StableHlo.ternary_bufs_sub .., StableHlo.unary_bufs_sub ..,
   StableHlo.nullary_bufs_sub .., StableHlo.unary_bufs_sub .., StableHlo.binary_bufs_sub ..,
   StableHlo.nullary_bufs_sub .., StableHlo.unary_bufs_sub .., StableHlo.binary_bufs_sub ..,
   StableHlo.ternary_bufs_sub .., StableHlo.unary_bufs_sub .., StableHlo.binary_bufs_sub ..,
   StableHlo.nullary_bufs_sub .., StableHlo.unary_bufs_sub .., StableHlo.binary_bufs_sub ..,
   StableHlo.nullary_bufs_sub .., StableHlo.unary_bufs_sub .., StableHlo.binary_bufs_sub ..,
   StableHlo.ternary_bufs_sub .., StableHlo.unary_bufs_sub .., StableHlo.binary_bufs_sub ..,
   StableHlo.binary_bufs_sub .., StableHlo.unary_bufs_sub .., StableHlo.nullary_bufs_sub ..,
   StableHlo.unary_bufs_sub .., StableHlo.binary_bufs_sub .., StableHlo.nullary_bufs_sub ..,
   StableHlo.unary_bufs_sub .., StableHlo.binary_bufs_sub .., StableHlo.ternary_bufs_sub ..,
   StableHlo.unary_bufs_sub .., StableHlo.binary_bufs_sub .., StableHlo.unary_bufs_sub ..,
   StableHlo.binary_bufs_sub .., StableHlo.nullary_bufs_sub .., StableHlo.unary_bufs_sub ..,
   StableHlo.unary_bufs_sub .., StableHlo.ternary_bufs_sub .., StableHlo.unary_bufs_sub ..,
   StableHlo.unary_bufs_sub .., StableHlo.binary_bufs_sub .., StableHlo.nullary_bufs_sub ..,
   StableHlo.binary_bufs_sub .., StableHlo.nullary_bufs_sub .., StableHlo.unary_bufs_sub ..,
   StableHlo.binary_bufs_sub .., StableHlo.nullary_bufs_sub ..⟩
theorem rA1_sub : (rA1 : List (HloOp τ sig (Elt F))).Forall fun op => op.bufs ⊆ StableHlo.tcRefs τ sig :=
  ⟨StableHlo.nullary_bufs_sub .., StableHlo.binary_bufs_sub .., StableHlo.unary_bufs_sub ..,
   StableHlo.nullary_bufs_sub .., StableHlo.unary_bufs_sub .., StableHlo.binary_bufs_sub ..,
   StableHlo.unary_bufs_sub .., StableHlo.binary_bufs_sub .., StableHlo.binary_bufs_sub ..,
   StableHlo.unary_bufs_sub .., StableHlo.nullary_bufs_sub .., StableHlo.binary_bufs_sub ..,
   StableHlo.nullary_bufs_sub .., StableHlo.binary_bufs_sub .., StableHlo.unary_bufs_sub ..,
   StableHlo.binary_bufs_sub .., StableHlo.nullary_bufs_sub .., StableHlo.binary_bufs_sub ..,
   StableHlo.nullary_bufs_sub .., StableHlo.unary_bufs_sub .., StableHlo.unary_bufs_sub ..,
   StableHlo.ternary_bufs_sub ..⟩
theorem rA2_sub : (rA2 : List (HloOp τ sig (Elt F))).Forall fun op => op.bufs ⊆ StableHlo.tcRefs τ sig :=
  ⟨StableHlo.unary_bufs_sub .., StableHlo.unary_bufs_sub .., StableHlo.binary_bufs_sub ..,
   StableHlo.unary_bufs_sub .., StableHlo.unary_bufs_sub .., StableHlo.binary_bufs_sub ..,
   StableHlo.nullary_bufs_sub .., StableHlo.unary_bufs_sub .., StableHlo.binary_bufs_sub ..,
   StableHlo.unary_bufs_sub .., StableHlo.unary_bufs_sub .., StableHlo.unary_bufs_sub ..,
   StableHlo.binary_bufs_sub .., StableHlo.unary_bufs_sub .., StableHlo.unary_bufs_sub ..,
   StableHlo.binary_bufs_sub ..⟩
theorem rA3_sub : (rA3 : List (HloOp τ sig (Elt F))).Forall fun op => op.bufs ⊆ StableHlo.tcRefs τ sig :=
  ⟨StableHlo.nullary_bufs_sub .., StableHlo.unary_bufs_sub .., StableHlo.binary_bufs_sub ..⟩
theorem rB_sub : (rB : List (HloOp τ sig (Elt F))).Forall fun op => op.bufs ⊆ StableHlo.tcRefs τ sig :=
  ⟨StableHlo.binary_bufs_sub .., StableHlo.unary_bufs_sub .., StableHlo.unary_bufs_sub ..,
   StableHlo.binary_bufs_sub ..⟩
theorem rC0_sub : (rC0 : List (HloOp τ sig (Elt F))).Forall fun op => op.bufs ⊆ StableHlo.tcRefs τ sig :=
  ⟨StableHlo.binary_bufs_sub .., StableHlo.binary_bufs_sub .., StableHlo.nullary_bufs_sub ..,
   StableHlo.unary_bufs_sub .., StableHlo.nullary_bufs_sub .., StableHlo.unary_bufs_sub ..,
   StableHlo.unary_bufs_sub .., StableHlo.ternary_bufs_sub .., StableHlo.unary_bufs_sub ..,
   StableHlo.nullary_bufs_sub .., StableHlo.unary_bufs_sub .., StableHlo.binary_bufs_sub ..,
   StableHlo.nullary_bufs_sub .., StableHlo.unary_bufs_sub .., StableHlo.binary_bufs_sub ..,
   StableHlo.ternary_bufs_sub .., StableHlo.unary_bufs_sub .., StableHlo.binary_bufs_sub ..,
   StableHlo.nullary_bufs_sub .., StableHlo.unary_bufs_sub .., StableHlo.binary_bufs_sub ..,
   StableHlo.nullary_bufs_sub .., StableHlo.unary_bufs_sub .., StableHlo.binary_bufs_sub ..,
   StableHlo.ternary_bufs_sub .., StableHlo.unary_bufs_sub .., StableHlo.binary_bufs_sub ..,
   StableHlo.binary_bufs_sub .., StableHlo.unary_bufs_sub .., StableHlo.nullary_bufs_sub ..,
   StableHlo.unary_bufs_sub .., StableHlo.binary_bufs_sub .., StableHlo.nullary_bufs_sub ..,
   StableHlo.unary_bufs_sub .., StableHlo.binary_bufs_sub .., StableHlo.ternary_bufs_sub ..,
   StableHlo.unary_bufs_sub .., StableHlo.binary_bufs_sub .., StableHlo.unary_bufs_sub ..,
   StableHlo.binary_bufs_sub .., StableHlo.nullary_bufs_sub .., StableHlo.unary_bufs_sub ..,
   StableHlo.unary_bufs_sub .., StableHlo.ternary_bufs_sub .., StableHlo.unary_bufs_sub ..,
   StableHlo.unary_bufs_sub .., StableHlo.binary_bufs_sub .., StableHlo.nullary_bufs_sub ..,
   StableHlo.binary_bufs_sub .., StableHlo.nullary_bufs_sub .., StableHlo.unary_bufs_sub ..,
   StableHlo.binary_bufs_sub .., StableHlo.nullary_bufs_sub ..⟩
theorem rC1_sub : (rC1 : List (HloOp τ sig (Elt F))).Forall fun op => op.bufs ⊆ StableHlo.tcRefs τ sig :=
  ⟨StableHlo.nullary_bufs_sub .., StableHlo.binary_bufs_sub .., StableHlo.unary_bufs_sub ..,
   StableHlo.nullary_bufs_sub .., StableHlo.unary_bufs_sub .., StableHlo.binary_bufs_sub ..,
   StableHlo.unary_bufs_sub .., StableHlo.binary_bufs_sub .., StableHlo.binary_bufs_sub ..,
   StableHlo.unary_bufs_sub .., StableHlo.nullary_bufs_sub .., StableHlo.binary_bufs_sub ..,
   StableHlo.nullary_bufs_sub .., StableHlo.binary_bufs_sub .., StableHlo.unary_bufs_sub ..,
   StableHlo.binary_bufs_sub .., StableHlo.nullary_bufs_sub .., StableHlo.binary_bufs_sub ..,
   StableHlo.nullary_bufs_sub .., StableHlo.unary_bufs_sub .., StableHlo.unary_bufs_sub ..,
   StableHlo.ternary_bufs_sub ..⟩
theorem rC2_sub : (rC2 : List (HloOp τ sig (Elt F))).Forall fun op => op.bufs ⊆ StableHlo.tcRefs τ sig :=
  ⟨StableHlo.unary_bufs_sub .., StableHlo.unary_bufs_sub .., StableHlo.binary_bufs_sub ..,
   StableHlo.unary_bufs_sub .., StableHlo.unary_bufs_sub .., StableHlo.binary_bufs_sub ..,
   StableHlo.nullary_bufs_sub .., StableHlo.unary_bufs_sub .., StableHlo.binary_bufs_sub ..,
   StableHlo.unary_bufs_sub .., StableHlo.unary_bufs_sub .., StableHlo.unary_bufs_sub ..,
   StableHlo.binary_bufs_sub .., StableHlo.unary_bufs_sub .., StableHlo.unary_bufs_sub ..,
   StableHlo.binary_bufs_sub ..⟩
theorem rC3_sub : (rC3 : List (HloOp τ sig (Elt F))).Forall fun op => op.bufs ⊆ StableHlo.tcRefs τ sig :=
  ⟨StableHlo.nullary_bufs_sub .., StableHlo.unary_bufs_sub .., StableHlo.binary_bufs_sub ..⟩
theorem rD_sub : (rD : List (HloOp τ sig (Elt F))).Forall fun op => op.bufs ⊆ StableHlo.tcRefs τ sig :=
  ⟨StableHlo.binary_bufs_sub .., StableHlo.unary_bufs_sub .., StableHlo.unary_bufs_sub ..,
   StableHlo.binary_bufs_sub .., StableHlo.binary_bufs_sub .., StableHlo.unary_bufs_sub ..,
   StableHlo.unary_bufs_sub .., StableHlo.binary_bufs_sub .., StableHlo.binary_bufs_sub ..,
   StableHlo.unary_bufs_sub .., StableHlo.unary_bufs_sub .., StableHlo.binary_bufs_sub ..⟩
theorem rE0_sub : (rE0 : List (HloOp τ sig (Elt F))).Forall fun op => op.bufs ⊆ StableHlo.tcRefs τ sig :=
  ⟨StableHlo.binary_bufs_sub .., StableHlo.binary_bufs_sub .., StableHlo.unary_bufs_sub ..,
   StableHlo.unary_bufs_sub .., StableHlo.binary_bufs_sub ..⟩
theorem rE1_sub : (rE1 : List (HloOp τ sig (Elt F))).Forall fun op => op.bufs ⊆ StableHlo.tcRefs τ sig :=
  ⟨StableHlo.nullary_bufs_sub .., StableHlo.binary_bufs_sub .., StableHlo.nullary_bufs_sub ..,
   StableHlo.unary_bufs_sub .., StableHlo.binary_bufs_sub .., StableHlo.unary_bufs_sub ..,
   StableHlo.unary_bufs_sub .., StableHlo.binary_bufs_sub .., StableHlo.unary_bufs_sub ..,
   StableHlo.nullary_bufs_sub .., StableHlo.binary_bufs_sub .., StableHlo.unary_bufs_sub ..,
   StableHlo.unary_bufs_sub .., StableHlo.unary_bufs_sub .., StableHlo.binary_bufs_sub ..⟩

/-- A property of every operation of each segment is one of every operation of the whole line. -/
theorem ops_forall {p : HloOp τ sig (Elt F) → Prop}
    (h_rA0 : (rA0 : List (HloOp τ sig (Elt F))).Forall p)
    (h_rA1 : (rA1 : List (HloOp τ sig (Elt F))).Forall p)
    (h_rA2 : (rA2 : List (HloOp τ sig (Elt F))).Forall p)
    (h_rA3 : (rA3 : List (HloOp τ sig (Elt F))).Forall p)
    (h_rB : (rB : List (HloOp τ sig (Elt F))).Forall p)
    (h_rC0 : (rC0 : List (HloOp τ sig (Elt F))).Forall p)
    (h_rC1 : (rC1 : List (HloOp τ sig (Elt F))).Forall p)
    (h_rC2 : (rC2 : List (HloOp τ sig (Elt F))).Forall p)
    (h_rC3 : (rC3 : List (HloOp τ sig (Elt F))).Forall p)
    (h_rD : (rD : List (HloOp τ sig (Elt F))).Forall p)
    (h_rE0 : (rE0 : List (HloOp τ sig (Elt F))).Forall p)
    (h_rE1 : (rE1 : List (HloOp τ sig (Elt F))).Forall p) :
    ∀ op ∈ (ops : List (HloOp τ sig (Elt F))), p op := fun op h => by
  simp only [ops, List.mem_append] at h
  rcases h with h | h | h | h | h | h | h | h | h | h | h | h
  exacts [List.forall_iff_forall_mem.mp h_rA0 op h,
    List.forall_iff_forall_mem.mp h_rA1 op h,
    List.forall_iff_forall_mem.mp h_rA2 op h,
    List.forall_iff_forall_mem.mp h_rA3 op h,
    List.forall_iff_forall_mem.mp h_rB op h,
    List.forall_iff_forall_mem.mp h_rC0 op h,
    List.forall_iff_forall_mem.mp h_rC1 op h,
    List.forall_iff_forall_mem.mp h_rC2 op h,
    List.forall_iff_forall_mem.mp h_rC3 op h,
    List.forall_iff_forall_mem.mp h_rD op h,
    List.forall_iff_forall_mem.mp h_rE0 op h,
    List.forall_iff_forall_mem.mp h_rE1 op h]

theorem ops_sub : (ops : List (HloOp τ sig (Elt F))).Forall fun op => op.bufs ⊆ StableHlo.tcRefs τ sig :=
  List.forall_iff_forall_mem.mpr (ops_forall rA0_sub rA1_sub rA2_sub rA3_sub rB_sub rC0_sub rC1_sub rC2_sub rC3_sub rD_sub rE0_sub rE1_sub)

theorem rA0_fresh : (rA0 : List (HloOp τ sig (Elt F))).Forall fun op => op.fresh = ∅ := by
  simp only [List.Forall]; repeat' constructor
theorem rA1_fresh : (rA1 : List (HloOp τ sig (Elt F))).Forall fun op => op.fresh = ∅ := by
  simp only [List.Forall]; repeat' constructor
theorem rA2_fresh : (rA2 : List (HloOp τ sig (Elt F))).Forall fun op => op.fresh = ∅ := by
  simp only [List.Forall]; repeat' constructor
theorem rA3_fresh : (rA3 : List (HloOp τ sig (Elt F))).Forall fun op => op.fresh = ∅ := by
  simp only [List.Forall]; repeat' constructor
theorem rB_fresh : (rB : List (HloOp τ sig (Elt F))).Forall fun op => op.fresh = ∅ := by
  simp only [List.Forall]; repeat' constructor
theorem rC0_fresh : (rC0 : List (HloOp τ sig (Elt F))).Forall fun op => op.fresh = ∅ := by
  simp only [List.Forall]; repeat' constructor
theorem rC1_fresh : (rC1 : List (HloOp τ sig (Elt F))).Forall fun op => op.fresh = ∅ := by
  simp only [List.Forall]; repeat' constructor
theorem rC2_fresh : (rC2 : List (HloOp τ sig (Elt F))).Forall fun op => op.fresh = ∅ := by
  simp only [List.Forall]; repeat' constructor
theorem rC3_fresh : (rC3 : List (HloOp τ sig (Elt F))).Forall fun op => op.fresh = ∅ := by
  simp only [List.Forall]; repeat' constructor
theorem rD_fresh : (rD : List (HloOp τ sig (Elt F))).Forall fun op => op.fresh = ∅ := by
  simp only [List.Forall]; repeat' constructor
theorem rE0_fresh : (rE0 : List (HloOp τ sig (Elt F))).Forall fun op => op.fresh = ∅ := by
  simp only [List.Forall]; repeat' constructor
theorem rE1_fresh : (rE1 : List (HloOp τ sig (Elt F))).Forall fun op => op.fresh = ∅ := by
  simp only [List.Forall]; repeat' constructor

theorem ops_fresh : ∀ op ∈ (ops : List (HloOp τ sig (Elt F))), op.fresh = ∅ :=
  ops_forall rA0_fresh rA1_fresh rA2_fresh rA3_fresh rB_fresh rC0_fresh rC1_fresh rC2_fresh rC3_fresh rD_fresh rE0_fresh rE1_fresh

/-! ## What the operations write

Each operation writes exactly one buffer; per segment, the list of them. -/

/-- The buffers the operations of `rA0` write, in order. -/
abbrev rA0_W : List (Ref sig .tc) :=
  [main_v0, main_v1, main_v2, main_v3, main_v4, main_v5, main_v6, main_v7, main_cst, main_v8, main_cst_0,
   main_v9, main_v10, main_v11, main_v12, main_c, main_v13, main_v14, main_c_1, main_v15, main_v16, main_v17,
   main_v18, main_v19, main_c_2, main_v20, main_v21, main_c_3, main_v22, main_v23, main_v24, main_v25,
   main_v26, main_v27, main_v28, main_c_4, main_v29, main_v30, main_c_5, main_v31, main_v32, main_v33,
   main_v34, main_v35, main_v36, main_v37, main_cst_6, main_v38, main_v39, main_v40, main_v41, main_v42,
   main_v43, main_cst_7, main_v44, main_cst_8, main_v45, main_v46, main_c_9]
theorem rA0_writes : (rA0 : List (HloOp τ sig (Elt F))).Forall fun op => op.writes ⊆ (rA0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rA1` write, in order. -/
abbrev rA1_W : List (Ref sig .tc) :=
  [main_call0_cst, main_call0_v0, main_call0_v1, main_call0_cst_0, main_call0_v2, main_call0_v3,
   main_call0_v4, main_call0_v5, main_call0_v6, main_call0_v7, main_call0_cst_1, main_call0_v8,
   main_call0_cst_2, main_call0_v9, main_call0_v10, main_call0_v11, main_call0_cst_3, main_call0_v12,
   main_call0_cst_4, main_call0_call0_v0, main_call0_call0_v1, main_v47]
theorem rA1_writes : (rA1 : List (HloOp τ sig (Elt F))).Forall fun op => op.writes ⊆ (rA1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rA2` write, in order. -/
abbrev rA2_W : List (Ref sig .tc) :=
  [main_v48, main_v49, main_v50, main_v51, main_v52, main_v53, main_cst_10, main_v54, main_v55, main_v56,
   main_v57, main_v58, main_v59, main_v60, main_v61, main_v62]
theorem rA2_writes : (rA2 : List (HloOp τ sig (Elt F))).Forall fun op => op.writes ⊆ (rA2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rA3` write, in order. -/
abbrev rA3_W : List (Ref sig .tc) :=
  [main_call1_cst, main_call1_v0, main_v63]
theorem rA3_writes : (rA3 : List (HloOp τ sig (Elt F))).Forall fun op => op.writes ⊆ (rA3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rB` write, in order. -/
abbrev rB_W : List (Ref sig .tc) :=
  [main_v64, main_v65, main_v66, main_v67]
theorem rB_writes : (rB : List (HloOp τ sig (Elt F))).Forall fun op => op.writes ⊆ (rB_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rC0` write, in order. -/
abbrev rC0_W : List (Ref sig .tc) :=
  [main_v68, main_v69, main_cst_11, main_v70, main_cst_12, main_v71, main_v72, main_v73, main_v74, main_c_13,
   main_v75, main_v76, main_c_14, main_v77, main_v78, main_v79, main_v80, main_v81, main_c_15, main_v82,
   main_v83, main_c_16, main_v84, main_v85, main_v86, main_v87, main_v88, main_v89, main_v90, main_c_17,
   main_v91, main_v92, main_c_18, main_v93, main_v94, main_v95, main_v96, main_v97, main_v98, main_v99,
   main_cst_19, main_v100, main_v101, main_v102, main_v103, main_v104, main_v105, main_cst_20, main_v106,
   main_cst_21, main_v107, main_v108, main_c_22]
theorem rC0_writes : (rC0 : List (HloOp τ sig (Elt F))).Forall fun op => op.writes ⊆ (rC0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rC1` write, in order. -/
abbrev rC1_W : List (Ref sig .tc) :=
  [main_call2_cst, main_call2_v0, main_call2_v1, main_call2_cst_0, main_call2_v2, main_call2_v3,
   main_call2_v4, main_call2_v5, main_call2_v6, main_call2_v7, main_call2_cst_1, main_call2_v8,
   main_call2_cst_2, main_call2_v9, main_call2_v10, main_call2_v11, main_call2_cst_3, main_call2_v12,
   main_call2_cst_4, main_call2_call0_v0, main_call2_call0_v1, main_v109]
theorem rC1_writes : (rC1 : List (HloOp τ sig (Elt F))).Forall fun op => op.writes ⊆ (rC1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rC2` write, in order. -/
abbrev rC2_W : List (Ref sig .tc) :=
  [main_v110, main_v111, main_v112, main_v113, main_v114, main_v115, main_cst_23, main_v116, main_v117,
   main_v118, main_v119, main_v120, main_v121, main_v122, main_v123, main_v124]
theorem rC2_writes : (rC2 : List (HloOp τ sig (Elt F))).Forall fun op => op.writes ⊆ (rC2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rC3` write, in order. -/
abbrev rC3_W : List (Ref sig .tc) :=
  [main_call3_cst, main_call3_v0, main_v125]
theorem rC3_writes : (rC3 : List (HloOp τ sig (Elt F))).Forall fun op => op.writes ⊆ (rC3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rD` write, in order. -/
abbrev rD_W : List (Ref sig .tc) :=
  [main_v126, main_v127, main_v128, main_v129, main_v130, main_v131, main_v132, main_v133, main_v134,
   main_v135, main_v136, main_v137]
theorem rD_writes : (rD : List (HloOp τ sig (Elt F))).Forall fun op => op.writes ⊆ (rD_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rE0` write, in order. -/
abbrev rE0_W : List (Ref sig .tc) :=
  [main_v138, main_v139, main_v140, main_v141, main_v142]
theorem rE0_writes : (rE0 : List (HloOp τ sig (Elt F))).Forall fun op => op.writes ⊆ (rE0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- The buffers the operations of `rE1` write, in order. -/
abbrev rE1_W : List (Ref sig .tc) :=
  [main_call4_cst, main_call4_v0, main_call4_cst_0, main_call4_v1, main_call4_v2, main_call4_v3,
   main_call4_v4, main_call4_v5, main_call4_v6, main_call4_cst_1, main_call4_v7, main_call4_v8,
   main_call4_v9, main_call4_v10, main_v143]
theorem rE1_writes : (rE1 : List (HloOp τ sig (Elt F))).Forall fun op => op.writes ⊆ (rE1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- Every buffer the line writes. -/
abbrev ops_W : List (Ref sig .tc) :=
  rA0_W ++ (rA1_W ++ (rA2_W ++ (rA3_W ++ (rB_W ++ (rC0_W ++ (rC1_W ++ (rC2_W ++ (rC3_W ++ (rD_W ++ (rE0_W ++ (rE1_W)))))))))))

/-- A reference outside a list holding every reference a segment writes is written by none of its operations. -/
theorem not_writes_of_writes_sub {W : List (Ref sig .tc)} {r : Ref sig .tc} {l : List (HloOp τ sig (Elt F))}
    (hW : l.Forall fun op => op.writes ⊆ (W.map (Proc.devRef (τ := τ) .tc)).toFinset) (hr : r ∉ W) :
    l.Forall fun op => (Proc.devRef .tc r : DevRef τ sig) ∉ op.writes :=
  List.forall_iff_forall_mem.mpr fun op hop hb => by
    obtain ⟨y, hy, he⟩ := List.mem_map.mp (List.mem_toFinset.mp ((List.forall_iff_forall_mem.mp hW) op hop hb))
    exact hr (Proc.devRef_injective _ he ▸ hy)

/-- A buffer the line does not write keeps its contents through it. -/
theorem kept (V : Valuation τ sig (Elt F)) (r : Ref sig .tc) (h : r ∉ ops_W) :
    StableHlo.after ops V (Proc.devRef .tc r) = V (Proc.devRef .tc r) :=
  StableHlo.after_of_forall_not_mem ops V (ops_forall
    (not_writes_of_writes_sub rA0_writes fun hr => h (List.mem_append_left _ hr))
    (not_writes_of_writes_sub rA1_writes fun hr => h (List.mem_append_right _ (List.mem_append_left _ hr)))
    (not_writes_of_writes_sub rA2_writes fun hr => h (List.mem_append_right _ (List.mem_append_right _ (List.mem_append_left _ hr))))
    (not_writes_of_writes_sub rA3_writes fun hr => h (List.mem_append_right _ (List.mem_append_right _ (List.mem_append_right _ (List.mem_append_left _ hr)))))
    (not_writes_of_writes_sub rB_writes fun hr => h (List.mem_append_right _ (List.mem_append_right _ (List.mem_append_right _ (List.mem_append_right _ (List.mem_append_left _ hr))))))
    (not_writes_of_writes_sub rC0_writes fun hr => h (List.mem_append_right _ (List.mem_append_right _ (List.mem_append_right _ (List.mem_append_right _ (List.mem_append_right _ (List.mem_append_left _ hr)))))))
    (not_writes_of_writes_sub rC1_writes fun hr => h (List.mem_append_right _ (List.mem_append_right _ (List.mem_append_right _ (List.mem_append_right _ (List.mem_append_right _ (List.mem_append_right _ (List.mem_append_left _ hr))))))))
    (not_writes_of_writes_sub rC2_writes fun hr => h (List.mem_append_right _ (List.mem_append_right _ (List.mem_append_right _ (List.mem_append_right _ (List.mem_append_right _ (List.mem_append_right _ (List.mem_append_right _ (List.mem_append_left _ hr)))))))))
    (not_writes_of_writes_sub rC3_writes fun hr => h (List.mem_append_right _ (List.mem_append_right _ (List.mem_append_right _ (List.mem_append_right _ (List.mem_append_right _ (List.mem_append_right _ (List.mem_append_right _ (List.mem_append_right _ (List.mem_append_left _ hr))))))))))
    (not_writes_of_writes_sub rD_writes fun hr => h (List.mem_append_right _ (List.mem_append_right _ (List.mem_append_right _ (List.mem_append_right _ (List.mem_append_right _ (List.mem_append_right _ (List.mem_append_right _ (List.mem_append_right _ (List.mem_append_right _ (List.mem_append_left _ hr)))))))))))
    (not_writes_of_writes_sub rE0_writes fun hr => h (List.mem_append_right _ (List.mem_append_right _ (List.mem_append_right _ (List.mem_append_right _ (List.mem_append_right _ (List.mem_append_right _ (List.mem_append_right _ (List.mem_append_right _ (List.mem_append_right _ (List.mem_append_right _ (List.mem_append_left _ hr))))))))))))
    (not_writes_of_writes_sub rE1_writes fun hr => h (List.mem_append_right _ (List.mem_append_right _ (List.mem_append_right _ (List.mem_append_right _ (List.mem_append_right _ (List.mem_append_right _ (List.mem_append_right _ (List.mem_append_right _ (List.mem_append_right _ (List.mem_append_right _ (List.mem_append_right _ hr)))))))))))))

/-! The argument buffers have indices 0 … 20 and the line writes the buffers of indices 21 … 250: each argument
    keeps its contents. -/

theorem kept_arg0 (V : Valuation τ sig (Elt F)) :
    StableHlo.after ops V (main_arg0 : DevRef τ sig) = V (main_arg0 : DevRef τ sig) := kept V main_arg0 (by decide)
theorem kept_arg1 (V : Valuation τ sig (Elt F)) :
    StableHlo.after ops V (main_arg1 : DevRef τ sig) = V (main_arg1 : DevRef τ sig) := kept V main_arg1 (by decide)
theorem kept_arg2 (V : Valuation τ sig (Elt F)) :
    StableHlo.after ops V (main_arg2 : DevRef τ sig) = V (main_arg2 : DevRef τ sig) := kept V main_arg2 (by decide)
theorem kept_arg3 (V : Valuation τ sig (Elt F)) :
    StableHlo.after ops V (main_arg3 : DevRef τ sig) = V (main_arg3 : DevRef τ sig) := kept V main_arg3 (by decide)
theorem kept_arg4 (V : Valuation τ sig (Elt F)) :
    StableHlo.after ops V (main_arg4 : DevRef τ sig) = V (main_arg4 : DevRef τ sig) := kept V main_arg4 (by decide)
theorem kept_arg5 (V : Valuation τ sig (Elt F)) :
    StableHlo.after ops V (main_arg5 : DevRef τ sig) = V (main_arg5 : DevRef τ sig) := kept V main_arg5 (by decide)
theorem kept_arg6 (V : Valuation τ sig (Elt F)) :
    StableHlo.after ops V (main_arg6 : DevRef τ sig) = V (main_arg6 : DevRef τ sig) := kept V main_arg6 (by decide)
theorem kept_arg7 (V : Valuation τ sig (Elt F)) :
    StableHlo.after ops V (main_arg7 : DevRef τ sig) = V (main_arg7 : DevRef τ sig) := kept V main_arg7 (by decide)
theorem kept_arg8 (V : Valuation τ sig (Elt F)) :
    StableHlo.after ops V (main_arg8 : DevRef τ sig) = V (main_arg8 : DevRef τ sig) := kept V main_arg8 (by decide)
theorem kept_arg9 (V : Valuation τ sig (Elt F)) :
    StableHlo.after ops V (main_arg9 : DevRef τ sig) = V (main_arg9 : DevRef τ sig) := kept V main_arg9 (by decide)
theorem kept_arg10 (V : Valuation τ sig (Elt F)) :
    StableHlo.after ops V (main_arg10 : DevRef τ sig) = V (main_arg10 : DevRef τ sig) := kept V main_arg10 (by decide)
theorem kept_arg11 (V : Valuation τ sig (Elt F)) :
    StableHlo.after ops V (main_arg11 : DevRef τ sig) = V (main_arg11 : DevRef τ sig) := kept V main_arg11 (by decide)
theorem kept_arg12 (V : Valuation τ sig (Elt F)) :
    StableHlo.after ops V (main_arg12 : DevRef τ sig) = V (main_arg12 : DevRef τ sig) := kept V main_arg12 (by decide)
theorem kept_arg13 (V : Valuation τ sig (Elt F)) :
    StableHlo.after ops V (main_arg13 : DevRef τ sig) = V (main_arg13 : DevRef τ sig) := kept V main_arg13 (by decide)
theorem kept_arg14 (V : Valuation τ sig (Elt F)) :
    StableHlo.after ops V (main_arg14 : DevRef τ sig) = V (main_arg14 : DevRef τ sig) := kept V main_arg14 (by decide)
theorem kept_arg15 (V : Valuation τ sig (Elt F)) :
    StableHlo.after ops V (main_arg15 : DevRef τ sig) = V (main_arg15 : DevRef τ sig) := kept V main_arg15 (by decide)
theorem kept_arg16 (V : Valuation τ sig (Elt F)) :
    StableHlo.after ops V (main_arg16 : DevRef τ sig) = V (main_arg16 : DevRef τ sig) := kept V main_arg16 (by decide)
theorem kept_arg17 (V : Valuation τ sig (Elt F)) :
    StableHlo.after ops V (main_arg17 : DevRef τ sig) = V (main_arg17 : DevRef τ sig) := kept V main_arg17 (by decide)
theorem kept_arg18 (V : Valuation τ sig (Elt F)) :
    StableHlo.after ops V (main_arg18 : DevRef τ sig) = V (main_arg18 : DevRef τ sig) := kept V main_arg18 (by decide)
theorem kept_arg19 (V : Valuation τ sig (Elt F)) :
    StableHlo.after ops V (main_arg19 : DevRef τ sig) = V (main_arg19 : DevRef τ sig) := kept V main_arg19 (by decide)
theorem kept_arg20 (V : Valuation τ sig (Elt F)) :
    StableHlo.after ops V (main_arg20 : DevRef τ sig) = V (main_arg20 : DevRef τ sig) := kept V main_arg20 (by decide)

/-! ## @main is the line

@main runs its statements in three windows, and the second ends inside the segment `rC0`: that segment cut there. -/

/-- Operations 105 … 143 of the reference (main_v68 … main_v98): `rC0` up to the end of the second window. -/
abbrev rC0a : List (HloOp τ sig (Elt F)) :=
  [ StableHlo.binary main_v63 main_v67 main_v68 (addf : (⟨S8192x32, .f32⟩ : BufTy).Contents (Elt F) → (⟨S8192x32, .f32⟩ : BufTy).Contents (Elt F) → (⟨S8192x32, .f32⟩ : BufTy).Contents (Elt F)),
    StableHlo.binary main_v68 main_arg5 main_v69 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.nullary main_cst_11 (constant S_ .f32 0x3F800000#32),
    StableHlo.unary main_cst_11 main_v70 (broadcastInDim S270336 ![] bcast_S_S270336 : (⟨S_, .f32⟩ : BufTy).Contents (Elt F) → (⟨S270336, .f32⟩ : BufTy).Contents (Elt F)),
    StableHlo.nullary main_cst_12 (constant S_ .f32 0x00000000#32),
    StableHlo.unary main_cst_12 main_v71 (broadcastInDim S8192 ![] bcast_S_S8192 : (⟨S_, .f32⟩ : BufTy).Contents (Elt F) → (⟨S8192, .f32⟩ : BufTy).Contents (Elt F)),
    StableHlo.unary main_v6 main_v72 (broadcastInDim S270336x1 ![0] bcast_S270336_S270336x1_0 : (⟨S270336, .i32⟩ : BufTy).Contents (Elt F) → (⟨S270336x1, .i32⟩ : BufTy).Contents (Elt F)),
    StableHlo.ternary main_v71 main_v72 main_v70 main_v73 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.unary main_v73 main_v74 (Host.rsqrt : (⟨S8192, .f32⟩ : BufTy).Contents (Elt F) → (⟨S8192, .f32⟩ : BufTy).Contents (Elt F)),
    StableHlo.nullary main_c_13 (constantI S_ 32 0#32),
    StableHlo.unary main_c_13 main_v75 (broadcastInDim S270336 ![] bcast_S_S270336 : (⟨S_, .i32⟩ : BufTy).Contents (Elt F) → (⟨S270336, .i32⟩ : BufTy).Contents (Elt F)),
    StableHlo.binary main_v3 main_v75 main_v76 (cmpi .slt : (⟨S270336, .i32⟩ : BufTy).Contents (Elt F) → (⟨S270336, .i32⟩ : BufTy).Contents (Elt F) → (⟨S270336, .i1⟩ : BufTy).Contents (Elt F)),
    StableHlo.nullary main_c_14 (constantI S_ 32 8192#32),
    StableHlo.unary main_c_14 main_v77 (broadcastInDim S270336 ![] bcast_S_S270336 : (⟨S_, .i32⟩ : BufTy).Contents (Elt F) → (⟨S270336, .i32⟩ : BufTy).Contents (Elt F)),
    StableHlo.binary main_v3 main_v77 main_v78 (addi : (⟨S270336, .i32⟩ : BufTy).Contents (Elt F) → (⟨S270336, .i32⟩ : BufTy).Contents (Elt F) → (⟨S270336, .i32⟩ : BufTy).Contents (Elt F)),
    StableHlo.ternary main_v76 main_v78 main_v3 main_v79 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v79 main_v80 (broadcastInDim S270336x1 ![0] bcast_S270336_S270336x1_0 : (⟨S270336, .i32⟩ : BufTy).Contents (Elt F) → (⟨S270336x1, .i32⟩ : BufTy).Contents (Elt F)),
    StableHlo.binary main_v74 main_v80 main_v81 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.nullary main_c_15 (constantI S_ 32 0#32),
    StableHlo.unary main_c_15 main_v82 (broadcastInDim S270336 ![] bcast_S_S270336 : (⟨S_, .i32⟩ : BufTy).Contents (Elt F) → (⟨S270336, .i32⟩ : BufTy).Contents (Elt F)),
    StableHlo.binary main_v6 main_v82 main_v83 (cmpi .slt : (⟨S270336, .i32⟩ : BufTy).Contents (Elt F) → (⟨S270336, .i32⟩ : BufTy).Contents (Elt F) → (⟨S270336, .i1⟩ : BufTy).Contents (Elt F)),
    StableHlo.nullary main_c_16 (constantI S_ 32 8192#32),
    StableHlo.unary main_c_16 main_v84 (broadcastInDim S270336 ![] bcast_S_S270336 : (⟨S_, .i32⟩ : BufTy).Contents (Elt F) → (⟨S270336, .i32⟩ : BufTy).Contents (Elt F)),
    StableHlo.binary main_v6 main_v84 main_v85 (addi : (⟨S270336, .i32⟩ : BufTy).Contents (Elt F) → (⟨S270336, .i32⟩ : BufTy).Contents (Elt F) → (⟨S270336, .i32⟩ : BufTy).Contents (Elt F)),
    StableHlo.ternary main_v83 main_v85 main_v6 main_v86 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v86 main_v87 (broadcastInDim S270336x1 ![0] bcast_S270336_S270336x1_0 : (⟨S270336, .i32⟩ : BufTy).Contents (Elt F) → (⟨S270336x1, .i32⟩ : BufTy).Contents (Elt F)),
    StableHlo.binary main_v74 main_v87 main_v88 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v81 main_v88 main_v89 (mulf : (⟨S270336, .f32⟩ : BufTy).Contents (Elt F) → (⟨S270336, .f32⟩ : BufTy).Contents (Elt F) → (⟨S270336, .f32⟩ : BufTy).Contents (Elt F)),
    StableHlo.unary main_v89 main_v90 (broadcastInDim S270336x1 ![0] bcast_S270336_S270336x1_0 : (⟨S270336, .f32⟩ : BufTy).Contents (Elt F) → (⟨S270336x1, .f32⟩ : BufTy).Contents (Elt F)),
    StableHlo.nullary main_c_17 (constantI S_ 32 0#32),
    StableHlo.unary main_c_17 main_v91 (broadcastInDim S270336 ![] bcast_S_S270336 : (⟨S_, .i32⟩ : BufTy).Contents (Elt F) → (⟨S270336, .i32⟩ : BufTy).Contents (Elt F)),
    StableHlo.binary main_v3 main_v91 main_v92 (cmpi .slt : (⟨S270336, .i32⟩ : BufTy).Contents (Elt F) → (⟨S270336, .i32⟩ : BufTy).Contents (Elt F) → (⟨S270336, .i1⟩ : BufTy).Contents (Elt F)),
    StableHlo.nullary main_c_18 (constantI S_ 32 8192#32),
    StableHlo.unary main_c_18 main_v93 (broadcastInDim S270336 ![] bcast_S_S270336 : (⟨S_, .i32⟩ : BufTy).Contents (Elt F) → (⟨S270336, .i32⟩ : BufTy).Contents (Elt F)),
    StableHlo.binary main_v3 main_v93 main_v94 (addi : (⟨S270336, .i32⟩ : BufTy).Contents (Elt F) → (⟨S270336, .i32⟩ : BufTy).Contents (Elt F) → (⟨S270336, .i32⟩ : BufTy).Contents (Elt F)),
    StableHlo.ternary main_v92 main_v94 main_v3 main_v95 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v95 main_v96 (broadcastInDim S270336x1 ![0] bcast_S270336_S270336x1_0 : (⟨S270336, .i32⟩ : BufTy).Contents (Elt F) → (⟨S270336x1, .i32⟩ : BufTy).Contents (Elt F)),
    StableHlo.binary main_v69 main_v96 main_v97 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    StableHlo.unary main_v90 main_v98 (broadcastInDim S270336x32 ![0, 1] bcast_S270336x1_S270336x32_0_1 : (⟨S270336x1, .f32⟩ : BufTy).Contents (Elt F) → (⟨S270336x32, .f32⟩ : BufTy).Contents (Elt F)) ]

/-- Operations 144 … 157 of the reference (main_v99 … main_c_22): the rest of `rC0`. -/
abbrev rC0b : List (HloOp τ sig (Elt F)) :=
  [ StableHlo.binary main_v98 main_v97 main_v99 (mulf : (⟨S270336x32, .f32⟩ : BufTy).Contents (Elt F) → (⟨S270336x32, .f32⟩ : BufTy).Contents (Elt F) → (⟨S270336x32, .f32⟩ : BufTy).Contents (Elt F)),
    StableHlo.nullary main_cst_19 (constant S_ .f32 0x00000000#32),
    StableHlo.unary main_cst_19 main_v100 (broadcastInDim S8192x32 ![] bcast_S_S8192x32 : (⟨S_, .f32⟩ : BufTy).Contents (Elt F) → (⟨S8192x32, .f32⟩ : BufTy).Contents (Elt F)),
    StableHlo.unary main_v6 main_v101 (broadcastInDim S270336x1 ![0] bcast_S270336_S270336x1_0 : (⟨S270336, .i32⟩ : BufTy).Contents (Elt F) → (⟨S270336x1, .i32⟩ : BufTy).Contents (Elt F)),
    StableHlo.ternary main_v100 main_v101 main_v99 main_v102 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    StableHlo.unary main_arg6 main_v103 (broadcastInDim S1x32 ![1] bcast_S32_S1x32_1 : (⟨S32, .f32⟩ : BufTy).Contents (Elt F) → (⟨S1x32, .f32⟩ : BufTy).Contents (Elt F)),
    StableHlo.unary main_v103 main_v104 (broadcastInDim S8192x32 ![0, 1] bcast_S1x32_S8192x32_0_1 : (⟨S1x32, .f32⟩ : BufTy).Contents (Elt F) → (⟨S8192x32, .f32⟩ : BufTy).Contents (Elt F)),
    StableHlo.binary main_v102 main_v104 main_v105 (addf : (⟨S8192x32, .f32⟩ : BufTy).Contents (Elt F) → (⟨S8192x32, .f32⟩ : BufTy).Contents (Elt F) → (⟨S8192x32, .f32⟩ : BufTy).Contents (Elt F)),
    StableHlo.nullary main_cst_20 (constant S_ .f32 0x00000000#32),
    StableHlo.binary main_v105 main_cst_20 main_v106 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    StableHlo.nullary main_cst_21 (constant S_ .f32 0x46000000#32),
    StableHlo.unary main_cst_21 main_v107 (broadcastInDim S32 ![] bcast_S_S32 : (⟨S_, .f32⟩ : BufTy).Contents (Elt F) → (⟨S32, .f32⟩ : BufTy).Contents (Elt F)),
    StableHlo.binary main_v106 main_v107 main_v108 (Host.divf : (⟨S32, .f32⟩ : BufTy).Contents (Elt F) → (⟨S32, .f32⟩ : BufTy).Contents (Elt F) → (⟨S32, .f32⟩ : BufTy).Contents (Elt F)),
    StableHlo.nullary main_c_22 (constantI S_ 32 0#32) ]

theorem rC0_split : (rC0 : List (HloOp τ sig (Elt F))) = rC0a ++ rC0b := rfl

/-- The first window (statements 1 … 60): operations 1 … 59, then the body of @_var (with the body of the @_where it
    calls) over the buffers of @main's first call. Both sides are the same chain of operation steps once the called
    functions' definitions are opened and sequencing is re-associated, which is a computation. -/
theorem main_part0_eq (c : Dev nD) : main_part0 (F := F) c = (Pipeline.chainK
    [ StableHlo.seq rA0 ]
    (StableHlo.seq rA1) : Prog (TpuEff nD τ sig (Elt F) (Pipeline.Sig Λ₀ (Fin 0) fun p => (pcfgs (F := F) p).Adm) .tc) PUnit) := by
  chain_rfl

/-- The second window (statements 61 … 120): operations 82 … 97, the body of @relu over the buffers of @main's second
    call, operations 101 … 104, and operations 105 … 143 (the last writes main_v98). -/
theorem main_part1_eq (c : Dev nD) : main_part1 (F := F) c = (Pipeline.chainK
    [ StableHlo.seq rA2, StableHlo.seq rA3, StableHlo.seq rB ]
    (StableHlo.seq rC0a) : Prog (TpuEff nD τ sig (Elt F) (Pipeline.Sig Λ₀ (Fin 0) fun p => (pcfgs (F := F) p).Adm) .tc) PUnit) := by
  chain_rfl

/-- The third window (statements 121 … 171): operations 144 … 157, the body of @_var (with its @_where) over the buffers
    of @main's third call, operations 180 … 195, the body of @relu over the fourth call's buffers, operations 199 … 215,
    the body of @log_softmax over the fifth call's buffers, and the return. -/
theorem main_part2_eq (c : Dev nD) : main_part2 (F := F) c = (Pipeline.chain
    [ StableHlo.seq rC0b, StableHlo.seq rC1, StableHlo.seq rC2, StableHlo.seq rC3, StableHlo.seq rD,
      StableHlo.seq rE0, StableHlo.seq rE1 ] : Prog (TpuEff nD τ sig (Elt F) (Pipeline.Sig Λ₀ (Fin 0) fun p => (pcfgs (F := F) p).Adm) .tc) PUnit) := by
  chain_rfl

/-- @main is the three windows in order. -/
theorem main_windows (c : Dev nD) :
    main (F := F) c = (main_part0 c >>= fun _ => main_part1 c >>= fun _ => main_part2 c) := rfl

/-- @main is the line of its 230 operations: the three windows' chains, one after the other, are the chain of the
    concatenated list (both sides unfold to the same steps in the same order). -/
theorem main_eq (c : Dev nD) : main (F := F) c = StableHlo.seq ops := by
  rw [main_windows, main_part0_eq, main_part1_eq, main_part2_eq]
  chain_rfl

/-! ## The run -/

/-- On every device, for any float values, from any memory with zero counters: every weakly fair execution of @main
    terminates, and every final state has each TensorCore buffer at the fold of the operations' results over its
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

/-- The run leaves every argument buffer at its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _),
      (h c main_arg19).trans (kept_arg19 _),
      (h c main_arg20).trans (kept_arg20 _)⟩)
    (run m ρ)

end Cert.ReferenceIdeal.Hand

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibGraphConv.lean ====
/-
  One layer of an edge-conditioned graph convolution and its dense read-out, as mathematics over the extended
  reals, for any extents.

  The message of edge `p` into output channel `n` is
      msg(p, n) = Σ_k h(p, k) · wh(k, n) + Σ_k e(p, k) · we(k, n) + b(0, n)
  where `h` holds the gathered node features (A channels), `e` the edge attributes (B channels), `wh` and `we` the
  two row blocks of one (A+B)×N weight matrix and `b` the bias as a 1×N row. The read-out of node `p` is
      out(p, n) = Σ_k h(p, k) · w(k, n) + b(0, n).
  Both depend on row `p` of the row-indexed operands only.

  The tile spelling computes them as matrix products into zero accumulators (operands first rounded to a narrower
  format, which is the identity on the extended reals), added, plus the bias row broadcast down the rows.
-/
import proofs.«105389_j88072599372111_1_alg».proof.Proof.LibPlainMatmul
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibPlainMatmul

/-- The per-edge message: features times their weight block, plus attributes times theirs, plus the bias row. -/
def edgeMsg {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32) :
    FVec Ideal ⟨2, ![E, N]⟩ .f32 :=
  fun j => ((∑ k : Fin A, h (ix2 (j 0) k) * wh (ix2 k (j 1))) + ∑ k : Fin B, e (ix2 (j 0) k) * we (ix2 k (j 1)))
    + b (ix2 0 (j 1))

/-- The dense read-out: features times the weight, plus the bias row. -/
def denseOut {E A N : ℕ} (h : FVec Ideal ⟨2, ![E, A]⟩ .f32) (w : FVec Ideal ⟨2, ![A, N]⟩ .f32)
    (b : FVec Ideal ⟨2, ![1, N]⟩ .f32) : FVec Ideal ⟨2, ![E, N]⟩ .f32 :=
  fun j => (∑ k : Fin A, h (ix2 (j 0) k) * w (ix2 k (j 1))) + b (ix2 0 (j 1))

theorem edgeMsg_apply {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32)
    (p : Fin E) (n : Fin N) :
    edgeMsg h e wh we b (ix2 p n)
      = ((∑ k : Fin A, h (ix2 p k) * wh (ix2 k n)) + ∑ k : Fin B, e (ix2 p k) * we (ix2 k n)) + b (ix2 0 n) := rfl

theorem denseOut_apply {E A N : ℕ} (h : FVec Ideal ⟨2, ![E, A]⟩ .f32) (w : FVec Ideal ⟨2, ![A, N]⟩ .f32)
    (b : FVec Ideal ⟨2, ![1, N]⟩ .f32) (p : Fin E) (n : Fin N) :
    denseOut h w b (ix2 p n) = (∑ k : Fin A, h (ix2 p k) * w (ix2 k n)) + b (ix2 0 n) := rfl

/-- A message depends on its own edge's row of the features and attributes, on its own channel's column of the two
    weight blocks and on its own channel's bias entry only: messages agree at entries where these agree. -/
theorem edgeMsg_congr {E E' A B N : ℕ}
    (h : FVec Ideal ⟨2, ![E, A]⟩ .f32) (e : FVec Ideal ⟨2, ![E, B]⟩ .f32) (wh : FVec Ideal ⟨2, ![A, N]⟩ .f32)
    (we : FVec Ideal ⟨2, ![B, N]⟩ .f32) (b : FVec Ideal ⟨2, ![1, N]⟩ .f32)
    (h' : FVec Ideal ⟨2, ![E', A]⟩ .f32) (e' : FVec Ideal ⟨2, ![E', B]⟩ .f32) (wh' : FVec Ideal ⟨2, ![A, N]⟩ .f32)
    (we' : FVec Ideal ⟨2, ![B, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k)) (he : ∀ k : Fin B, e (ix2 (j 0) k) = e' (ix2 (j' 0) k))
    (hwh : ∀ k : Fin A, wh (ix2 k (j 1)) = wh' (ix2 k (j' 1))) (hwe : ∀ k : Fin B, we (ix2 k (j 1)) = we' (ix2 k (j' 1)))
    (hb : b (ix2 0 (j 1)) = b' (ix2 0 (j' 1))) :
    edgeMsg h e wh we b j = edgeMsg h' e' wh' we' b' j' := by
  show ((∑ k : Fin A, h (ix2 (j 0) k) * wh (ix2 k (j 1))) + ∑ k : Fin B, e (ix2 (j 0) k) * we (ix2 k (j 1)))
      + b (ix2 0 (j 1))
    = ((∑ k : Fin A, h' (ix2 (j' 0) k) * wh' (ix2 k (j' 1))) + ∑ k : Fin B, e' (ix2 (j' 0) k) * we' (ix2 k (j' 1)))
      + b' (ix2 0 (j' 1))
  have s1 : (∑ k : Fin A, h (ix2 (j 0) k) * wh (ix2 k (j 1))) = ∑ k : Fin A, h' (ix2 (j' 0) k) * wh' (ix2 k (j' 1)) :=
    Finset.sum_congr rfl fun k _ => by rw [hh k, hwh k]
  have s2 : (∑ k : Fin B, e (ix2 (j 0) k) * we (ix2 k (j 1))) = ∑ k : Fin B, e' (ix2 (j' 0) k) * we' (ix2 k (j' 1)) :=
    Finset.sum_congr rfl fun k _ => by rw [he k, hwe k]
  rw [hb, s1, s2]

/-- The read-out of a node depends on that node's row of the features, on its channel's column of the weight and on
    its channel's bias entry only. -/
theorem denseOut_congr {E E' A N : ℕ}
    (h : FVec Ideal ⟨2, ![E, A]⟩ .f32) (w : FVec Ideal ⟨2, ![A, N]⟩ .f32) (b : FVec Ideal ⟨2, ![1, N]⟩ .f32)
    (h' : FVec Ideal ⟨2, ![E', A]⟩ .f32) (w' : FVec Ideal ⟨2, ![A, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k))
    (hw : ∀ k : Fin A, w (ix2 k (j 1)) = w' (ix2 k (j' 1))) (hb : b (ix2 0 (j 1)) = b' (ix2 0 (j' 1))) :
    denseOut h w b j = denseOut h' w' b' j' := by
  show (∑ k : Fin A, h (ix2 (j 0) k) * w (ix2 k (j 1))) + b (ix2 0 (j 1))
    = (∑ k : Fin A, h' (ix2 (j' 0) k) * w' (ix2 k (j' 1))) + b' (ix2 0 (j' 1))
  have s1 : (∑ k : Fin A, h (ix2 (j 0) k) * w (ix2 k (j 1))) = ∑ k : Fin A, h' (ix2 (j' 0) k) * w' (ix2 k (j' 1)) :=
    Finset.sum_congr rfl fun k _ => by rw [hh k, hw k]
  rw [hb, s1]

/-- A 1×N row broadcast down R rows, read at `(p, n)`: the row's entry `n`. -/
theorem rowBroadcast_apply {R N : ℕ} {α : Type} (x : (⟨2, ![1, N]⟩ : Shape).Idx → α)
    (hb : (⟨2, ![1, N]⟩ : Shape).Broadcasts ⟨2, ![R, N]⟩) (p : Fin R) (n : Fin N) :
    broadcastTo ⟨2, ![R, N]⟩ x hb (ix2 p n) = x (ix2 0 n) := by
  refine broadcastTo_apply x hb (ix2 p n) (ix2 0 n) fun a => ?_
  match a with
  | ⟨0, _⟩ => rfl
  | ⟨1, _⟩ =>
    show n.val = if N = 1 then 0 else n.val
    split
    · rename_i h1; have := n.isLt; omega
    · rfl

/-- The tile spelling of the message at `(p, n)`: two products into zero, added, plus the broadcast bias row. -/
theorem edge_tile_apply {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ ψ) (e : FVec Ideal ⟨2, ![R, B]⟩ ψ)
    (wh : FVec Ideal ⟨2, ![A, N]⟩ ψ) (we : FVec Ideal ⟨2, ![B, N]⟩ ψ) (b : FVec Ideal ⟨2, ![1, N]⟩ .f32)
    (hb : (⟨2, ![1, N]⟩ : Shape).Broadcasts ⟨2, ![R, N]⟩) (p : Fin R) (n : Fin N) :
    addf (addf (matmul D1 none h wh (constant (F := Ideal) ⟨2, ![R, N]⟩ .f32 0x00000000#32))
                (matmul D2 none e we (constant (F := Ideal) ⟨2, ![R, N]⟩ .f32 0x00000000#32)))
         (broadcastTo ⟨2, ![R, N]⟩ b hb) (ix2 p n)
      = ((∑ k : Fin A, h (ix2 p k) * wh (ix2 k n)) + ∑ k : Fin B, e (ix2 p k) * we (ix2 k n)) + b (ix2 0 n) := by
  rw [addf_apply, addf_apply, matmul_eq_plain_zero_apply D1 hD1, matmul_eq_plain_zero_apply D2 hD2, rowBroadcast_apply]

/-- The tile spelling of the read-out at `(p, n)`: one product into zero plus the broadcast bias row. -/
theorem dense_tile_apply {R A N : ℕ} {ψ : FTy}
    (D : DotDims ⟨2, ![R, A]⟩ ⟨2, ![A, N]⟩ ⟨2, ![R, N]⟩) (hD : D = DotDims.plain R A N)
    (h : FVec Ideal ⟨2, ![R, A]⟩ ψ) (w : FVec Ideal ⟨2, ![A, N]⟩ ψ) (b : FVec Ideal ⟨2, ![1, N]⟩ .f32)
    (hb : (⟨2, ![1, N]⟩ : Shape).Broadcasts ⟨2, ![R, N]⟩) (p : Fin R) (n : Fin N) :
    addf (matmul D none h w (constant (F := Ideal) ⟨2, ![R, N]⟩ .f32 0x00000000#32))
         (broadcastTo ⟨2, ![R, N]⟩ b hb) (ix2 p n)
      = (∑ k : Fin A, h (ix2 p k) * w (ix2 k n)) + b (ix2 0 n) := by
  rw [addf_apply, matmul_eq_plain_zero_apply D hD, rowBroadcast_apply]

/-- The tile spelling as a whole: it IS the message of its operands. -/
theorem edge_tile_eq {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ .f32) (e : FVec Ideal ⟨2, ![R, B]⟩ .f32)
    (wh : FVec Ideal ⟨2, ![A, N]⟩ .f32) (we : FVec Ideal ⟨2, ![B, N]⟩ .f32) (b : FVec Ideal ⟨2, ![1, N]⟩ .f32)
    (hψ : ψ.bits < FTy.bits .f32) (hb : (⟨2, ![1, N]⟩ : Shape).Broadcasts ⟨2, ![R, N]⟩) :
    addf (addf (matmul D1 none (truncf ψ h hψ) (truncf ψ wh hψ) (constant (F := Ideal) ⟨2, ![R, N]⟩ .f32 0x00000000#32))
                (matmul D2 none (truncf ψ e hψ) (truncf ψ we hψ) (constant (F := Ideal) ⟨2, ![R, N]⟩ .f32 0x00000000#32)))
         (broadcastTo ⟨2, ![R, N]⟩ b hb)
      = edgeMsg h e wh we b := by
  funext j
  obtain ⟨p, n, rfl⟩ : ∃ (p : Fin R) (n : Fin N), j = ix2 p n := ⟨j 0, j 1, eq_ix2 j⟩
  rw [edge_tile_apply D1 hD1 D2 hD2, edgeMsg_apply]
  rfl

/-- The read-out's tile spelling as a whole: it IS the dense read-out of its operands. -/
theorem dense_tile_eq {R A N : ℕ} {ψ : FTy}
    (D : DotDims ⟨2, ![R, A]⟩ ⟨2, ![A, N]⟩ ⟨2, ![R, N]⟩) (hD : D = DotDims.plain R A N)
    (h : FVec Ideal ⟨2, ![R, A]⟩ .f32) (w : FVec Ideal ⟨2, ![A, N]⟩ .f32) (b : FVec Ideal ⟨2, ![1, N]⟩ .f32)
    (hψ : ψ.bits < FTy.bits .f32) (hb : (⟨2, ![1, N]⟩ : Shape).Broadcasts ⟨2, ![R, N]⟩) :
    addf (matmul D none (truncf ψ h hψ) (truncf ψ w hψ) (constant (F := Ideal) ⟨2, ![R, N]⟩ .f32 0x00000000#32))
         (broadcastTo ⟨2, ![R, N]⟩ b hb)
      = denseOut h w b := by
  funext j
  obtain ⟨p, n, rfl⟩ : ∃ (p : Fin R) (n : Fin N), j = ix2 p n := ⟨j 0, j 1, eq_ix2 j⟩
  rw [dense_tile_apply D hD, denseOut_apply]
  rfl

end Cert.LibGraphConv

end
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«105389_j88072599372111_1_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.LibGraphConvHost.lean ====
/-
  The host spelling of a graph-convolution layer is the layer, over the extended reals, for any extents.

  The host joins the gathered features (A channels) and the edge attributes (B channels) along the channel axis into
  one E×(A+B) matrix, multiplies by the whole (A+B)×N weight and adds the bias vector broadcast to every row. A sum
  over the A+B joined channels is the sum over the first A plus the sum over the last B — addition on the extended
  reals is commutative and associative, nothing needs to be finite —, the first A joined channels are the features and
  meet weight rows 0..A-1 (the weight's leading row block), the last B are the attributes and meet rows A..A+B-1 (its
  trailing row block), and the bias vector read as a 1×N row is the same vector. So the host's result is `edgeMsg` of
  the two row blocks; the read-out (one product plus the bias) is `denseOut`.
-/
import proofs.«105389_j88072599372111_1_alg».proof.Proof.LibGraphConv
import proofs.«105389_j88072599372111_1_alg».proof.Proof.LibHostPlainDot
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibHostPlainDot

/-- The bias vector broadcast to a 1×N row and then down E rows, read at `(p, n)`: the vector's entry `n`. -/
theorem biasRows_apply {E N : ℕ} {α : Type} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![E, N]⟩ ![0, 1]) (p : Fin E) (n : Fin N) :
    broadcastInDim ⟨2, ![E, N]⟩ ![0, 1] hb2 (broadcastInDim ⟨2, ![1, N]⟩ ![1] hb1 b) (ix2 p n) = b (ix1 n) := by
  refine (broadcastInDim_apply ![0, 1] hb2 _ (ix2 p n) (ix2 0 n) fun a => ?_).trans ?_
  · match a with
    | ⟨0, _⟩ => rfl
    | ⟨1, _⟩ =>
      show n.val = if N = 1 then 0 else n.val
      split
      · rename_i h1; have := n.isLt; omega
      · rfl
  · refine broadcastInDim_apply ![1] hb1 b (ix2 0 n) (ix1 n) fun a => ?_
    match a with
    | ⟨0, _⟩ =>
      show n.val = if N = 1 then 0 else n.val
      split
      · rename_i h1; have := n.isLt; omega
      · rfl

/-- The bias vector reshaped to a 1×N row, read at `(0, n)`: the vector's entry `n`. -/
theorem biasRow_apply {N : ℕ} {α : Type} (b : (⟨1, ![N]⟩ : Shape).Idx → α)
    (hsc : (⟨1, ![N]⟩ : Shape).ShapeCasts ⟨2, ![1, N]⟩) (n : Fin N) :
    shapeCast ⟨2, ![1, N]⟩ b hsc (ix2 0 n) = b (ix1 n) := by
  refine shapeCast_apply b hsc (ix2 0 n) (ix1 n) ?_
  rw [Shape.rowMajor_val_one, Shape.rowMajor_val_two]
  show n.val = (0 : Fin 1).val * _ + n.val
  simp

/-- The host's layer — join along the channel axis, one product with the whole weight, bias broadcast to every row —
    is the message of the weight's two row blocks and the bias as a row. -/
theorem edge_host_eq {E A B C N : ℕ} (hC : A + B = C)
    (D : DotDims ⟨2, ![E, C]⟩ ⟨2, ![C, N]⟩ ⟨2, ![E, N]⟩) (hD : D = DotDims.plain E C N)
    (h : FVec Ideal ⟨2, ![E, A]⟩ .f32) (e : FVec Ideal ⟨2, ![E, B]⟩ .f32) (W : FVec Ideal ⟨2, ![C, N]⟩ .f32)
    (b : FVec Ideal ⟨1, ![N]⟩ .f32)
    (hc : Shape.Concatenates [(⟨2, ![E, A]⟩ : Shape), ⟨2, ![E, B]⟩] ⟨2, ![E, C]⟩ 1)
    (hb1 : (⟨1, ![N]⟩ : Shape).BroadcastsInDim ⟨2, ![1, N]⟩ ![1])
    (hb2 : (⟨2, ![1, N]⟩ : Shape).BroadcastsInDim ⟨2, ![E, N]⟩ ![0, 1])
    (hs1 : (⟨2, ![C, N]⟩ : Shape).Slices ![0, 0] ⟨2, ![A, N]⟩)
    (hs2 : (⟨2, ![C, N]⟩ : Shape).Slices ![A, 0] ⟨2, ![B, N]⟩)
    (hsc : (⟨1, ![N]⟩ : Shape).ShapeCasts ⟨2, ![1, N]⟩) :
    addf (Host.dotGeneral (F := Ideal) D none
            (concatenate ⟨2, ![E, C]⟩ 1 [⟨⟨2, ![E, A]⟩, h⟩, ⟨⟨2, ![E, B]⟩, e⟩] hc) W)
         (broadcastInDim ⟨2, ![E, N]⟩ ![0, 1] hb2 (broadcastInDim ⟨2, ![1, N]⟩ ![1] hb1 b))
      = edgeMsg h e (extractStridedSlice ⟨2, ![A, N]⟩ ![0, 0] W hs1) (extractStridedSlice ⟨2, ![B, N]⟩ ![A, 0] W hs2)
          (shapeCast ⟨2, ![1, N]⟩ b hsc) := by
  subst hC
  funext j
  obtain ⟨p, n, rfl⟩ : ∃ (p : Fin E) (n : Fin N), j = ix2 p n := ⟨j 0, j 1, eq_ix2 j⟩
  rw [addf_apply, dotGeneral_plain_apply D hD, biasRows_apply, edgeMsg_apply, biasRow_apply, Fin.sum_univ_add]
  congr 1
  congr 1
  · refine Finset.sum_congr rfl fun k _ => ?_
    congr 1
    · refine concatenate_pair_apply_left (1 : Fin 2) h e hc (ix2 p (Fin.castAdd B k)) rfl (ix2 p k) fun b => ?_
      match b with
      | ⟨0, _⟩ => rfl
      | ⟨1, _⟩ => rfl
    · refine (extractStridedSlice_apply ![0, 0] W hs1 (ix2 k n) (ix2 (Fin.castAdd B k) n) fun a => ?_).symm
      match a with
      | ⟨0, _⟩ => show k.val = 0 + k.val; omega
      | ⟨1, _⟩ => show n.val = 0 + n.val; omega
  · refine Finset.sum_congr rfl fun k _ => ?_
    congr 1
    · refine concatenate_pair_apply_right (1 : Fin 2) h e hc (ix2 p (Fin.natAdd A k)) rfl rfl (ix2 p k)
        (fun b hb => ?_) ?_
      · match b, hb with
        | ⟨0, _⟩, _ => rfl
        | ⟨1, _⟩, hb => exact absurd rfl hb
      · show k.val + A = A + k.val; omega
    · refine (extractStridedSlice_apply ![A, 0] W hs2 (ix2 k n) (ix2 (Fin.natAdd A k) n) fun a => ?_).symm
      match a with
      | ⟨0, _⟩ => show A + k.val = A + k.val; rfl
      | ⟨1, _⟩ => show n.val = 0 + n.val; omega

/-- The host's read-out — one product with the weight, bias broadcast to every row — is the dense read-out with the
    bias as a row. -/
theorem dense_host_eq {E A N : ℕ}
    (D : DotDims ⟨2, ![E, A]⟩ ⟨2, ![A, N]⟩ ⟨2, ![E, N]⟩) (hD : D = DotDims.plain E A N)
    (h : FVec Ideal ⟨2, ![E, A]⟩ .f32) (W : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![E, N]⟩ ![0, 1])
    (hsc : (⟨1, ![N]⟩ : Shape).ShapeCasts ⟨2, ![1, N]⟩) :
    addf (Host.dotGeneral (F := Ideal) D none h W)
         (broadcastInDim ⟨2, ![E, N]⟩ ![0, 1] hb2 (broadcastInDim ⟨2, ![1, N]⟩ ![1] hb1 b))
      = denseOut h W (shapeCast ⟨2, ![1, N]⟩ b hsc) := by
  funext j
  obtain ⟨p, n, rfl⟩ : ∃ (p : Fin E) (n : Fin N), j = ix2 p n := ⟨j 0, j 1, eq_ix2 j⟩
  rw [addf_apply, dotGeneral_plain_apply D hD, biasRows_apply, denseOut_apply, biasRow_apply]

end Cert.LibGraphConv

end
-- ==== Proof.DenseTile.lean ====
/-
  The chain of dense layers, over the extended reals.

  One dense layer is  out(p, n) = Σ_k x(p, k) · w(k, n) + b(0, n)  with the bias kept as a 1 × N row; the
  autoencoder chain is four of them, each fed the one before.  Two spellings of one layer are read here as
  that function: the block spelling (the rows narrowed to a shorter float format — the identity on the
  extended reals —, a resident weight already in that format, a product into a zero accumulator, the bias row
  broadcast down the rows) and the whole-array spelling (one contraction, the bias vector broadcast to every
  row).  A layer's entry (p, n) reads only row p of its input, which is why a block of rows of the chain is
  the chain of that block of rows.
-/
import proofs.«105389_j88072599372111_1_alg».proof.Proof.LibGraphConv
import proofs.«105389_j88072599372111_1_alg».proof.Proof.LibGraphConvHost

noncomputable section

namespace Cert.DenseChain

open Idealize.ShloMosaic Idealize.ShloMosaic.ValueIdx Cert.LibGraphConv

/-- The block spelling of a dense layer IS the layer of its operands: narrowing the rows is the identity, the
    weight and the bias row are loaded whole. -/
theorem tile_dense {R A N : ℕ} (D : DotDims ⟨2, ![R, A]⟩ ⟨2, ![A, N]⟩ ⟨2, ![R, N]⟩) (hD : D = DotDims.plain R A N)
    (h : FVec Ideal ⟨2, ![R, A]⟩ .f32) (w : FVec Ideal ⟨2, ![A, N]⟩ .bf16) (b : FVec Ideal ⟨2, ![1, N]⟩ .f32)
    (hψ : FTy.bits .bf16 < FTy.bits .f32) (hsw : (⟨2, ![A, N]⟩ : Shape).ShapeCasts ⟨2, ![A, N]⟩)
    (hsb : (⟨2, ![1, N]⟩ : Shape).ShapeCasts ⟨2, ![1, N]⟩) (hb : (⟨2, ![1, N]⟩ : Shape).Broadcasts ⟨2, ![R, N]⟩) :
    addf (matmul D none (truncf .bf16 h hψ) (shapeCast ⟨2, ![A, N]⟩ w hsw) (constant (F := Ideal) ⟨2, ![R, N]⟩ .f32 0x00000000#32))
         (broadcastTo ⟨2, ![R, N]⟩ (shapeCast ⟨2, ![1, N]⟩ b hsb) hb)
      = denseOut h w b := by
  funext j
  obtain ⟨p, n, rfl⟩ : ∃ (p : Fin R) (n : Fin N), j = ix2 p n := ⟨j 0, j 1, eq_ix2 j⟩
  rw [dense_tile_apply D hD, denseOut_apply, shapeCast_self, shapeCast_self]
  rfl

/-- A layer on a block of rows is the layer on the whole matrix read at those rows: entry (p, n) of the block's
    layer is entry (ρ p, n) of the whole one, when the block's row p is the whole matrix's row ρ p and the weight
    and the bias row are the same entry by entry. -/
theorem dense_rows {R E A N : ℕ} (ρ : Fin R → Fin E)
    (xb : FVec Ideal ⟨2, ![R, A]⟩ .f32) (xw : FVec Ideal ⟨2, ![E, A]⟩ .f32)
    (hx : ∀ (p : Fin R) (k : Fin A), xb (ix2 p k) = xw (ix2 (ρ p) k))
    (w w' : FVec Ideal ⟨2, ![A, N]⟩ .f32) (hw : ∀ (k : Fin A) (n : Fin N), w (ix2 k n) = w' (ix2 k n))
    (b b' : FVec Ideal ⟨2, ![1, N]⟩ .f32) (hb : ∀ n : Fin N, b (ix2 0 n) = b' (ix2 0 n)) (p : Fin R) (n : Fin N) :
    denseOut xb w b (ix2 p n) = denseOut xw w' b' (ix2 (ρ p) n) := by
  rw [denseOut_apply, denseOut_apply, hb n]
  exact congrArg (· + b' (ix2 0 n)) (Finset.sum_congr rfl fun k _ => by rw [hx p k, hw k n])

/-- The four layers of the chain on a block of rows, read at the whole matrix's rows. -/
theorem chain_rows {R E A H N : ℕ} (ρ : Fin R → Fin E)
    (xb : FVec Ideal ⟨2, ![R, A]⟩ .f32) (xw : FVec Ideal ⟨2, ![E, A]⟩ .f32)
    (hx : ∀ (p : Fin R) (k : Fin A), xb (ix2 p k) = xw (ix2 (ρ p) k))
    (w0 w0' : FVec Ideal ⟨2, ![A, H]⟩ .f32) (hw0 : ∀ k n, w0 (ix2 k n) = w0' (ix2 k n))
    (r0 r0' : FVec Ideal ⟨2, ![1, H]⟩ .f32) (hr0 : ∀ n, r0 (ix2 0 n) = r0' (ix2 0 n))
    (w1 w1' : FVec Ideal ⟨2, ![H, H]⟩ .f32) (hw1 : ∀ k n, w1 (ix2 k n) = w1' (ix2 k n))
    (r1 r1' : FVec Ideal ⟨2, ![1, H]⟩ .f32) (hr1 : ∀ n, r1 (ix2 0 n) = r1' (ix2 0 n))
    (w2 w2' : FVec Ideal ⟨2, ![H, H]⟩ .f32) (hw2 : ∀ k n, w2 (ix2 k n) = w2' (ix2 k n))
    (r2 r2' : FVec Ideal ⟨2, ![1, H]⟩ .f32) (hr2 : ∀ n, r2 (ix2 0 n) = r2' (ix2 0 n))
    (w3 w3' : FVec Ideal ⟨2, ![H, N]⟩ .f32) (hw3 : ∀ k n, w3 (ix2 k n) = w3' (ix2 k n))
    (r3 r3' : FVec Ideal ⟨2, ![1, N]⟩ .f32) (hr3 : ∀ n, r3 (ix2 0 n) = r3' (ix2 0 n)) (p : Fin R) (n : Fin N) :
    denseOut (denseOut (denseOut (denseOut xb w0 r0) w1 r1) w2 r2) w3 r3 (ix2 p n)
      = denseOut (denseOut (denseOut (denseOut xw w0' r0') w1' r1') w2' r2') w3' r3' (ix2 (ρ p) n) :=
  dense_rows ρ _ _ (fun p k => dense_rows ρ _ _ (fun p k => dense_rows ρ _ _
    (fun p k => dense_rows ρ xb xw hx w0 w0' hw0 r0 r0' hr0 p k) w1 w1' hw1 r1 r1' hr1 p k) w2 w2' hw2 r2 r2' hr2 p k) w3 w3' hw3 r3 r3' hr3 p n

end Cert.DenseChain

end
-- ==== Proof.KIValue.lean ====
/-
  What the region leaves in its two output arrays, over the extended reals.

  At grid point t the body reads rows 128·t … 128·t+127 of the 8192 × 8192 matrix and the resident weights and
  bias rows, and stores the first dense layer of those rows and the fourth.  A dense layer's row p reads only
  row p of its input, so the block point t writes back is rows 128·t … of the layer (of the chain) taken on the
  whole matrix; the 64 blocks tile the 8192 rows, so each output array ends as that whole-matrix function of
  the arrays the region found.
-/
import proofs.«105389_j88072599372111_1_alg».proof.Proof.KIFrame
import proofs.«105389_j88072599372111_1_alg».proof.Proof.DenseTile
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.LibGraphConv Cert.DenseChain

variable (m : (ℓ : Loc nD τ sig) → Buf (Elt Ideal) ℓ) (ρ : Dev nD → PrngReg)

theorem hz : (![0, 0] : Fin 2 → Nat) = fun _ => 0 := funext fun a => by fin_cases a <;> rfl

/-- The first payload is the first dense layer of the loaded blocks. -/
theorem pay1_eq (x0 : FVec Ideal S128x8192 .f32) (x1 : FVec Ideal S8192x32 .bf16) (x2 : FVec Ideal S1x32 .f32) :
    k0_pay1 (F := Ideal) x0 x1 x2 = denseOut x0 x1 x2 :=
  tile_dense (R := 128) (A := 8192) (N := 32) dot_S128x8192_S8192x32_S128x32_1_0_0_1_n_n rfl x0 x1 x2 _ _ _ _

/-- The second payload is the chain of the four dense layers of the loaded blocks. -/
theorem pay2_eq (x0 : FVec Ideal S128x8192 .f32) (x1 : FVec Ideal S8192x32 .bf16) (x2 : FVec Ideal S1x32 .f32)
    (x3 : FVec Ideal S32x32 .bf16) (x4 : FVec Ideal S1x32 .f32) (x5 : FVec Ideal S32x32 .bf16) (x6 : FVec Ideal S1x32 .f32)
    (x7 : FVec Ideal S32x8192 .bf16) (x8 : FVec Ideal S1x8192 .f32) :
    k0_pay2 (F := Ideal) x0 x1 x2 x3 x4 x5 x6 x7 x8
      = denseOut (denseOut (denseOut (denseOut x0 x1 x2) x3 x4) x5 x6) x7 x8 :=
  (tile_dense (R := 128) (A := 32) (N := 8192) dot_S128x32_S32x8192_S128x8192_1_0_0_1_n_n rfl _ x7 x8 _ _ _ _).trans
    (congrArg (fun z => denseOut z x7 x8)
      ((tile_dense (R := 128) (A := 32) (N := 32) dot_S128x32_S32x32_S128x32_1_0_0_1_n_n rfl _ x5 x6 _ _ _ _).trans
        (congrArg (fun z => denseOut z x5 x6)
          ((tile_dense (R := 128) (A := 32) (N := 32) dot_S128x32_S32x32_S128x32_1_0_0_1_n_n rfl _ x3 x4 _ _ _ _).trans
            (congrArg (fun z => denseOut z x3 x4) (pay1_eq x0 x1 x2))))))

/-- The printed index maps over the 64 points: the matrix's window and the two outputs' move one block of rows per
    point, the weights' and bias rows' windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The first dense layer on the whole matrix, from the arrays as the region finds them. -/
abbrev G9 (c : Dev nD) : FVec Ideal S8192x32 .f32 :=
  denseOut (V m c main_arg0) (V m c main_v64) (V m c main_v68)

/-- The chain of the four dense layers on the whole matrix, from the arrays as the region finds them. -/
abbrev G10 (c : Dev nD) : FVec Ideal S8192x8192 .f32 :=
  denseOut (denseOut (denseOut (denseOut (V m c main_arg0) (V m c main_v64) (V m c main_v68)) (V m c main_v65) (V m c main_v69))
    (V m c main_v66) (V m c main_v70)) (V m c main_v67) (V m c main_v71)

/-- The row of the whole matrix that row p of point t's block is. -/
def rowOf (t : Fin cfg0.N) (p : Fin 128) : Fin 8192 :=
  ⟨t.val * 128 + p.val, by have h : t.val < 64 := lt_of_lt_of_eq t.isLt N_0; have := p.isLt; omega⟩

/-- Row p of point t's block of the matrix is the matrix's row 128·t + p. -/
theorem read0 (c : Dev nD) (t : Fin cfg0.N) (p : Fin 128) (k : Fin 8192) :
    iblk m c 0 t (ix2 p k) = V m c main_arg0 (ix2 (rowOf t p) k) := by
  obtain ⟨e00, e01, -⟩ := idx_facts t
  show V m c main_arg0 (((cfg0.win 0).blk t).view.emb (ix2 p k)) = V m c main_arg0 (ix2 (rowOf t p) k)
  have h0 : ((cfg0.win 0).blk t).view.emb (ix2 p k) = ix2 (rowOf t p) k := by
    funext a; apply Fin.ext
    match a with
    | ⟨0, _⟩ => show win0_0.index t (0 : Fin 2) * 128 + 1 * p.val = t.val * 128 + p.val; omega
    | ⟨1, _⟩ => show win0_0.index t (1 : Fin 2) * 8192 + 1 * k.val = k.val; omega
  rw [h0]

/-- Window 1's block is the whole of its array at every point. -/
theorem read1 (c : Dev nD) (t : Fin cfg0.N) (k : Fin 8192) (n : Fin 32) :
    iblk m c 1 t (ix2 k n) = V m c main_v64 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v64 (((cfg0.win 1).blk t).view.emb (ix2 k n)) = V m c main_v64 (ix2 k n)
  have h0 : ((cfg0.win 1).blk t).view.emb (ix2 k n) = ix2 k n := by
    funext x; apply Fin.ext
    match x with
    | ⟨0, _⟩ => show win0_1.index t (0 : Fin 2) * 8192 + 1 * k.val = k.val; omega
    | ⟨1, _⟩ => show win0_1.index t (1 : Fin 2) * 32 + 1 * n.val = n.val; omega
  rw [h0]

/-- Window 2's block is the whole of its array at every point. -/
theorem read2 (c : Dev nD) (t : Fin cfg0.N) (k : Fin 1) (n : Fin 32) :
    iblk m c 2 t (ix2 k n) = V m c main_v68 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v68 (((cfg0.win 2).blk t).view.emb (ix2 k n)) = V m c main_v68 (ix2 k n)
  have h0 : ((cfg0.win 2).blk t).view.emb (ix2 k n) = ix2 k n := by
    funext x; apply Fin.ext
    match x with
    | ⟨0, _⟩ => show win0_2.index t (0 : Fin 2) * 1 + 1 * k.val = k.val; omega
    | ⟨1, _⟩ => show win0_2.index t (1 : Fin 2) * 32 + 1 * n.val = n.val; omega
  rw [h0]

/-- Window 3's block is the whole of its array at every point. -/
theorem read3 (c : Dev nD) (t : Fin cfg0.N) (k : Fin 32) (n : Fin 32) :
    iblk m c 3 t (ix2 k n) = V m c main_v65 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v65 (((cfg0.win 3).blk t).view.emb (ix2 k n)) = V m c main_v65 (ix2 k n)
  have h0 : ((cfg0.win 3).blk t).view.emb (ix2 k n) = ix2 k n := by
    funext x; apply Fin.ext
    match x with
    | ⟨0, _⟩ => show win0_3.index t (0 : Fin 2) * 32 + 1 * k.val = k.val; omega
    | ⟨1, _⟩ => show win0_3.index t (1 : Fin 2) * 32 + 1 * n.val = n.val; omega
  rw [h0]

/-- Window 4's block is the whole of its array at every point. -/
theorem read4 (c : Dev nD) (t : Fin cfg0.N) (k : Fin 1) (n : Fin 32) :
    iblk m c 4 t (ix2 k n) = V m c main_v69 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v69 (((cfg0.win 4).blk t).view.emb (ix2 k n)) = V m c main_v69 (ix2 k n)
  have h0 : ((cfg0.win 4).blk t).view.emb (ix2 k n) = ix2 k n := by
    funext x; apply Fin.ext
    match x with
    | ⟨0, _⟩ => show win0_4.index t (0 : Fin 2) * 1 + 1 * k.val = k.val; omega
    | ⟨1, _⟩ => show win0_4.index t (1 : Fin 2) * 32 + 1 * n.val = n.val; omega
  rw [h0]

/-- Window 5's block is the whole of its array at every point. -/
theorem read5 (c : Dev nD) (t : Fin cfg0.N) (k : Fin 32) (n : Fin 32) :
    iblk m c 5 t (ix2 k n) = V m c main_v66 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v66 (((cfg0.win 5).blk t).view.emb (ix2 k n)) = V m c main_v66 (ix2 k n)
  have h0 : ((cfg0.win 5).blk t).view.emb (ix2 k n) = ix2 k n := by
    funext x; apply Fin.ext
    match x with
    | ⟨0, _⟩ => show win0_5.index t (0 : Fin 2) * 32 + 1 * k.val = k.val; omega
    | ⟨1, _⟩ => show win0_5.index t (1 : Fin 2) * 32 + 1 * n.val = n.val; omega
  rw [h0]

/-- Window 6's block is the whole of its array at every point. -/
theorem read6 (c : Dev nD) (t : Fin cfg0.N) (k : Fin 1) (n : Fin 32) :
    iblk m c 6 t (ix2 k n) = V m c main_v70 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v70 (((cfg0.win 6).blk t).view.emb (ix2 k n)) = V m c main_v70 (ix2 k n)
  have h0 : ((cfg0.win 6).blk t).view.emb (ix2 k n) = ix2 k n := by
    funext x; apply Fin.ext
    match x with
    | ⟨0, _⟩ => show win0_6.index t (0 : Fin 2) * 1 + 1 * k.val = k.val; omega
    | ⟨1, _⟩ => show win0_6.index t (1 : Fin 2) * 32 + 1 * n.val = n.val; omega
  rw [h0]

/-- Window 7's block is the whole of its array at every point. -/
theorem read7 (c : Dev nD) (t : Fin cfg0.N) (k : Fin 32) (n : Fin 8192) :
    iblk m c 7 t (ix2 k n) = V m c main_v67 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v67 (((cfg0.win 7).blk t).view.emb (ix2 k n)) = V m c main_v67 (ix2 k n)
  have h0 : ((cfg0.win 7).blk t).view.emb (ix2 k n) = ix2 k n := by
    funext x; apply Fin.ext
    match x with
    | ⟨0, _⟩ => show win0_7.index t (0 : Fin 2) * 32 + 1 * k.val = k.val; omega
    | ⟨1, _⟩ => show win0_7.index t (1 : Fin 2) * 8192 + 1 * n.val = n.val; omega
  rw [h0]

/-- Window 8's block is the whole of its array at every point. -/
theorem read8 (c : Dev nD) (t : Fin cfg0.N) (k : Fin 1) (n : Fin 8192) :
    iblk m c 8 t (ix2 k n) = V m c main_v71 (ix2 k n) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v71 (((cfg0.win 8).blk t).view.emb (ix2 k n)) = V m c main_v71 (ix2 k n)
  have h0 : ((cfg0.win 8).blk t).view.emb (ix2 k n) = ix2 k n := by
    funext x; apply Fin.ext
    match x with
    | ⟨0, _⟩ => show win0_8.index t (0 : Fin 2) * 1 + 1 * k.val = k.val; omega
    | ⟨1, _⟩ => show win0_8.index t (1 : Fin 2) * 8192 + 1 * n.val = n.val; omega
  rw [h0]

/-- What point t writes back to output window 9's array is rows 128·t … of the whole-matrix function. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S128x8192) hz, View.ld_unit_zero (S := S8192x32) hz, View.ld_unit_zero (S := S1x32) hz]
  rw [pay1_eq]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  obtain ⟨p, n, rfl⟩ : ∃ (p : Fin 128) (n : Fin 32), j = ix2 p n := ⟨j 0, j 1, eq_ix2 j⟩
  have hemb : ((cfg0.win 9).blk t).view.emb (ix2 p n) = ix2 (rowOf t p) n := by
    funext x; apply Fin.ext
    match x with
    | ⟨0, _⟩ => show win0_9.index t (0 : Fin 2) * 128 + 1 * p.val = t.val * 128 + p.val; omega
    | ⟨1, _⟩ => show win0_9.index t (1 : Fin 2) * 32 + 1 * n.val = n.val; omega
  show _ = G9 m c (((cfg0.win 9).blk t).view.emb (ix2 p n))
  rw [hemb]
  exact dense_rows (rowOf t) _ _ (read0 m c t) _ _ (read1 m c t) _ _ (read2 m c t 0) p n

/-- An index of the array is in point t's block iff each coordinate is in the block's range on its axis. -/
theorem mem_blk9 (t : Fin cfg0.N) (i : S8192x32.Idx) :
    i ∈ ((cfg0.win 9).blk t).view.set ↔ ∀ a : Fin 2, win0_9.index t a * S128x32.size a ≤ (i a).val ∧ (i a).val < win0_9.index t a * S128x32.size a + S128x32.size a := by
  show i ∈ ((View.whole main_v72_0).slice (win0_9.rect t)).set ↔ _
  rw [View.set_slice_whole, Rect.mem_set_unit]
  exact Iff.rfl

/-- The 64 blocks of 128 rows tile the array: row r is in the block of point r / 128. -/
theorem cover9 (i : S8192x32.Idx) : ∃ t : Fin cfg0.N, (cfg0.win 9).flush t = true ∧ i ∈ ((cfg0.win 9).blk t).view.set := by
  have hi0 : (i 0).val < 8192 := (i 0).isLt
  have hi1 : (i 1).val < 32 := (i 1).isLt
  have hlt : (i 0).val / 128 < cfg0.N := lt_of_lt_of_eq (by omega : (i 0).val / 128 < 64) N_0.symm
  refine ⟨⟨(i 0).val / 128, hlt⟩, flush0_9 _, ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 128, hlt⟩
  intro a
  match a with
  | ⟨0, _⟩ =>
    show win0_9.index ⟨(i 0).val / 128, hlt⟩ (0 : Fin 2) * 128 ≤ (i 0).val ∧ (i 0).val < win0_9.index ⟨(i 0).val / 128, hlt⟩ (0 : Fin 2) * 128 + 128
    rw [e9_0]; show (i 0).val / 128 * 128 ≤ (i 0).val ∧ (i 0).val < (i 0).val / 128 * 128 + 128; omega
  | ⟨1, _⟩ =>
    show win0_9.index ⟨(i 0).val / 128, hlt⟩ (1 : Fin 2) * 32 ≤ (i 1).val ∧ (i 1).val < win0_9.index ⟨(i 0).val / 128, hlt⟩ (1 : Fin 2) * 32 + 32
    rw [e9_1]; omega

/-- Output window 9's array after the region: the whole-matrix function of the arrays the region found. -/
theorem final9 (c : Dev nD) : (dats m 0 c).arrAt 9 cfg0.N = G9 m c :=
  (dats m 0 c).arrAt_eq_of_cover 9 (G9 m c) (fun t _ => flushed9_eq m c t) cover9

/-- What point t writes back to output window 10's array is rows 128·t … of the whole-matrix function. -/
theorem flushed10_eq (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz]
  simp only [View.ld_unit_zero (S := S128x8192) hz, View.ld_unit_zero (S := S8192x32) hz, View.ld_unit_zero (S := S1x32) hz, View.ld_unit_zero (S := S32x32) hz, View.ld_unit_zero (S := S32x8192) hz, View.ld_unit_zero (S := S1x8192) hz]
  rw [pay2_eq]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  obtain ⟨p, n, rfl⟩ : ∃ (p : Fin 128) (n : Fin 8192), j = ix2 p n := ⟨j 0, j 1, eq_ix2 j⟩
  have hemb : ((cfg0.win 10).blk t).view.emb (ix2 p n) = ix2 (rowOf t p) n := by
    funext x; apply Fin.ext
    match x with
    | ⟨0, _⟩ => show win0_10.index t (0 : Fin 2) * 128 + 1 * p.val = t.val * 128 + p.val; omega
    | ⟨1, _⟩ => show win0_10.index t (1 : Fin 2) * 8192 + 1 * n.val = n.val; omega
  show _ = G10 m c (((cfg0.win 10).blk t).view.emb (ix2 p n))
  rw [hemb]
  exact chain_rows (rowOf t) _ _ (read0 m c t) _ _ (read1 m c t) _ _ (read2 m c t 0) _ _ (read3 m c t) _ _ (read4 m c t 0) _ _ (read5 m c t) _ _ (read6 m c t 0) _ _ (read7 m c t) _ _ (read8 m c t 0) p n

/-- An index of the array is in point t's block iff each coordinate is in the block's range on its axis. -/
theorem mem_blk10 (t : Fin cfg0.N) (i : S8192x8192.Idx) :
    i ∈ ((cfg0.win 10).blk t).view.set ↔ ∀ a : Fin 2, win0_10.index t a * S128x8192.size a ≤ (i a).val ∧ (i a).val < win0_10.index t a * S128x8192.size a + S128x8192.size a := by
  show i ∈ ((View.whole main_v72_1).slice (win0_10.rect t)).set ↔ _
  rw [View.set_slice_whole, Rect.mem_set_unit]
  exact Iff.rfl

/-- The 64 blocks of 128 rows tile the array: row r is in the block of point r / 128. -/
theorem cover10 (i : S8192x8192.Idx) : ∃ t : Fin cfg0.N, (cfg0.win 10).flush t = true ∧ i ∈ ((cfg0.win 10).blk t).view.set := by
  have hi0 : (i 0).val < 8192 := (i 0).isLt
  have hi1 : (i 1).val < 8192 := (i 1).isLt
  have hlt : (i 0).val / 128 < cfg0.N := lt_of_lt_of_eq (by omega : (i 0).val / 128 < 64) N_0.symm
  refine ⟨⟨(i 0).val / 128, hlt⟩, flush0_10 _, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 128, hlt⟩
  intro a
  match a with
  | ⟨0, _⟩ =>
    show win0_10.index ⟨(i 0).val / 128, hlt⟩ (0 : Fin 2) * 128 ≤ (i 0).val ∧ (i 0).val < win0_10.index ⟨(i 0).val / 128, hlt⟩ (0 : Fin 2) * 128 + 128
    rw [e10_0]; show (i 0).val / 128 * 128 ≤ (i 0).val ∧ (i 0).val < (i 0).val / 128 * 128 + 128; omega
  | ⟨1, _⟩ =>
    show win0_10.index ⟨(i 0).val / 128, hlt⟩ (1 : Fin 2) * 8192 ≤ (i 1).val ∧ (i 1).val < win0_10.index ⟨(i 0).val / 128, hlt⟩ (1 : Fin 2) * 8192 + 8192
    rw [e10_1]; omega

/-- Output window 10's array after the region: the whole-matrix function of the arrays the region found. -/
theorem final10 (c : Dev nD) : (dats m 0 c).arrAt 10 cfg0.N = G10 m c :=
  (dats m 0 c).arrAt_eq_of_cover 10 (G10 m c) (fun t _ => flushed10_eq m c t) cover10

/-! ## The results, read off a final state of the run -/

/-- In a final state of the run the classifier's result is what the host operations after the region compute from
    the region's exit contents, and the last dense layer's array is the chain on the whole matrix. -/
theorem values_of_post (r : PUnit × MemSt nD τ sig (Elt Ideal))
    (h : Pipeline.FramePost cfgs (dats m) 0 (Pipeline.afterTail₀ cfgs (dats m) 0 (V0 m) [hostOps1, hostOps1_1, hostOps1_2, hostOps1_3, hostOps1_4, hostOps1_5]) r) (c : Dev nD) :
      r.2.mem ((c.tc : Thread nD τ).loc main_v136)
        = Pipeline.afterTail₀ cfgs (dats m) 0 (V0 m) [hostOps1, hostOps1_1, hostOps1_2, hostOps1_3, hostOps1_4, hostOps1_5] c main_v136
      ∧ r.2.mem ((c.tc : Thread nD τ).loc main_v72_1) = G10 m c :=
  ⟨(h c).2 main_v136 (Pipeline.mem_restRefs_of main_v136 (by decide) (by decide)), ((h c).1 10).trans (final10 m c)⟩

end Cert.KernelIdeal.HandValue

end
-- ==== Proof.HostBridge.lean ====
import proofs.«105389_j88072599372111_1_alg».proof.Proof.Gen.KernelIdeal.Launch
import proofs.«105389_j88072599372111_1_alg».proof.Proof.RefOps
import Idealize.ShloMosaic.Lib.StableHlo.Run

noncomputable section

namespace Cert.Bridge

open Idealize.ShloMosaic Idealize.ShloMosaic.TcCoe Idealize.SL.Sem

variable {F : FTy → Type} [FloatOps F]

/-- Running two lines of operations one after the other is running their concatenation. -/
theorem after_append {τ : Topo} {sig : RefSig} {Val : EltTy → Type} (l₁ l₂ : List (HloOp τ sig Val))
    (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-! ## Reading a line's results in one pass

The library's one-pass result tactic does not reach a result that sits inside the operand list of a concatenation
(the function `fun a b => concatenate t k [⟨s₁, a⟩, ⟨s₂, b⟩] h` applied to two results puts them under a dependent
pair). Here a two-operand operation's result is first stated through `ap2 f x y`, an application that is not unfolded
until its operands `x`, `y` have been rewritten; then `ap2` is replaced by the application itself. -/

/-- `f x y`, kept folded while `x` and `y` are rewritten. -/
def ap2 {α β γ : Type} (f : α → β → γ) (x : α) (y : β) : γ := f x y

theorem ap2_def {α β γ : Type} (f : α → β → γ) (x : α) (y : β) : ap2 f x y = f x y := rfl

theorem binary_result_ap {τ : Topo} {sig : RefSig} {Val : EltTy → Type} {a b y : Ref sig .tc}
    (f : a.ty.Contents Val → b.ty.Contents Val → y.ty.Contents Val) (ha hb hy) (V : Valuation τ sig Val) :
    (StableHlo.binary (τ := τ) a b y f ha hb hy).result V (no_index (Proc.devRef .tc y))
      = ap2 f (V (Proc.devRef .tc a)) (V (Proc.devRef .tc b)) :=
  StableHlo.binary_result a b y f ha hb hy V

/-- The results of a literal line of operations, in one rewriting pass, with the given equations between contents
    rewritten in the same pass. -/
syntax "results_simp" ("[" Lean.Parser.Tactic.simpLemma,* "]")? : tactic
macro_rules
  | `(tactic| results_simp) => `(tactic| results_simp [])
  | `(tactic| results_simp [$hs,*]) =>
    `(tactic| simp (disch := decide) only [StableHlo.after_cons, StableHlo.after_nil,
      StableHlo.nullary_result', StableHlo.unary_result', binary_result_ap, ap2_def, StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne', $hs,*])

abbrev headK : List (HloOp Cert.KernelIdeal.τ Cert.KernelIdeal.sig (Elt F)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4]

abbrev tailK : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5]

abbrev headR : List (HloOp Cert.ReferenceIdeal.τ Cert.ReferenceIdeal.sig (Elt F)) :=
  Cert.ReferenceIdeal.Hand.rA0 ++ (Cert.ReferenceIdeal.Hand.rA1 ++ (Cert.ReferenceIdeal.Hand.rA2 ++
    (Cert.ReferenceIdeal.Hand.rA3 ++ Cert.ReferenceIdeal.Hand.rB)))

abbrev tailR : List (HloOp Cert.ReferenceIdeal.τ Cert.ReferenceIdeal.sig (Elt F)) :=
  Cert.ReferenceIdeal.Hand.rC0 ++ (Cert.ReferenceIdeal.Hand.rC1 ++ (Cert.ReferenceIdeal.Hand.rC2 ++
    (Cert.ReferenceIdeal.Hand.rC3 ++ (Cert.ReferenceIdeal.Hand.rD ++ (Cert.ReferenceIdeal.Hand.rE0 ++
      Cert.ReferenceIdeal.Hand.rE1)))))

/-- The reference's operations are the head's followed by the tail's. -/
theorem ops_split :
    (Cert.ReferenceIdeal.Hand.ops : List (HloOp Cert.ReferenceIdeal.τ Cert.ReferenceIdeal.sig (Elt F))) = headR ++ tailR := by
  simp only [Cert.ReferenceIdeal.Hand.ops, headR, tailR, List.append_assoc]

end Cert.Bridge

end
-- ==== Proof.HostBridgeKeep.lean ====
import proofs.«105389_j88072599372111_1_alg».proof.Proof.HostBridge

noncomputable section

namespace Cert.Bridge

open Idealize.ShloMosaic Idealize.ShloMosaic.TcCoe Idealize.SL.Sem

variable {F : FTy → Type} [FloatOps F]

set_option maxRecDepth 8192

/-- A buffer in a list of references is, as a one-element set of device buffers, inside the list's. -/
theorem single_sub {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## What each segment writes -/

/-- The buffers the operations of this segment write, in order. -/
abbrev hostOps0_W : List (Ref Cert.KernelIdeal.sig .tc) :=
  [Cert.KernelIdeal.main_v0, Cert.KernelIdeal.main_v1, Cert.KernelIdeal.main_v2, Cert.KernelIdeal.main_v3, Cert.KernelIdeal.main_v4, Cert.KernelIdeal.main_v5,
   Cert.KernelIdeal.main_v6, Cert.KernelIdeal.main_v7, Cert.KernelIdeal.main_cst, Cert.KernelIdeal.main_v8, Cert.KernelIdeal.main_cst_0, Cert.KernelIdeal.main_v9,
   Cert.KernelIdeal.main_v10, Cert.KernelIdeal.main_v11, Cert.KernelIdeal.main_v12, Cert.KernelIdeal.main_c, Cert.KernelIdeal.main_v13, Cert.KernelIdeal.main_v14,
   Cert.KernelIdeal.main_c_1, Cert.KernelIdeal.main_v15, Cert.KernelIdeal.main_v16, Cert.KernelIdeal.main_v17, Cert.KernelIdeal.main_v18, Cert.KernelIdeal.main_v19,
   Cert.KernelIdeal.main_c_2, Cert.KernelIdeal.main_v20, Cert.KernelIdeal.main_v21, Cert.KernelIdeal.main_c_3, Cert.KernelIdeal.main_v22, Cert.KernelIdeal.main_v23,
   Cert.KernelIdeal.main_v24, Cert.KernelIdeal.main_v25, Cert.KernelIdeal.main_v26, Cert.KernelIdeal.main_v27, Cert.KernelIdeal.main_v28, Cert.KernelIdeal.main_c_4,
   Cert.KernelIdeal.main_v29, Cert.KernelIdeal.main_v30, Cert.KernelIdeal.main_c_5, Cert.KernelIdeal.main_v31, Cert.KernelIdeal.main_v32, Cert.KernelIdeal.main_v33,
   Cert.KernelIdeal.main_v34, Cert.KernelIdeal.main_v35, Cert.KernelIdeal.main_v36, Cert.KernelIdeal.main_v37, Cert.KernelIdeal.main_cst_6, Cert.KernelIdeal.main_v38,
   Cert.KernelIdeal.main_v39, Cert.KernelIdeal.main_v40, Cert.KernelIdeal.main_v41, Cert.KernelIdeal.main_v42, Cert.KernelIdeal.main_v43, Cert.KernelIdeal.main_cst_7,
   Cert.KernelIdeal.main_v44, Cert.KernelIdeal.main_cst_8, Cert.KernelIdeal.main_v45, Cert.KernelIdeal.main_v46, Cert.KernelIdeal.main_c_9]
theorem hostOps0_writes : (Cert.KernelIdeal.Gen.hostOps0 : List (HloOp Cert.KernelIdeal.τ Cert.KernelIdeal.sig (Elt F))).Forall fun op =>
    op.writes ⊆ (hostOps0_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide)⟩

/-- The buffers the operations of this segment write, in order. -/
abbrev hostOps0_1_W : List (Ref Cert.KernelIdeal.sig .tc) :=
  [Cert.KernelIdeal.main_call0_cst, Cert.KernelIdeal.main_call0_v0, Cert.KernelIdeal.main_call0_v1, Cert.KernelIdeal.main_call0_cst_0, Cert.KernelIdeal.main_call0_v2, Cert.KernelIdeal.main_call0_v3,
   Cert.KernelIdeal.main_call0_v4, Cert.KernelIdeal.main_call0_v5, Cert.KernelIdeal.main_call0_v6, Cert.KernelIdeal.main_call0_v7, Cert.KernelIdeal.main_call0_cst_1, Cert.KernelIdeal.main_call0_v8,
   Cert.KernelIdeal.main_call0_cst_2, Cert.KernelIdeal.main_call0_v9, Cert.KernelIdeal.main_call0_v10, Cert.KernelIdeal.main_call0_v11, Cert.KernelIdeal.main_call0_cst_3, Cert.KernelIdeal.main_call0_v12,
   Cert.KernelIdeal.main_call0_cst_4, Cert.KernelIdeal.main_call0_call0_v0, Cert.KernelIdeal.main_call0_call0_v1, Cert.KernelIdeal.main_v47]
theorem hostOps0_1_writes : (Cert.KernelIdeal.Gen.hostOps0_1 : List (HloOp Cert.KernelIdeal.τ Cert.KernelIdeal.sig (Elt F))).Forall fun op =>
    op.writes ⊆ (hostOps0_1_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide)⟩

/-- The buffers the operations of this segment write, in order. -/
abbrev hostOps0_2_W : List (Ref Cert.KernelIdeal.sig .tc) :=
  [Cert.KernelIdeal.main_v48, Cert.KernelIdeal.main_v49, Cert.KernelIdeal.main_v50, Cert.KernelIdeal.main_v51, Cert.KernelIdeal.main_v52, Cert.KernelIdeal.main_v53,
   Cert.KernelIdeal.main_cst_10, Cert.KernelIdeal.main_v54, Cert.KernelIdeal.main_v55, Cert.KernelIdeal.main_v56, Cert.KernelIdeal.main_v57, Cert.KernelIdeal.main_v58,
   Cert.KernelIdeal.main_v59, Cert.KernelIdeal.main_v60, Cert.KernelIdeal.main_v61, Cert.KernelIdeal.main_v62]
theorem hostOps0_2_writes : (Cert.KernelIdeal.Gen.hostOps0_2 : List (HloOp Cert.KernelIdeal.τ Cert.KernelIdeal.sig (Elt F))).Forall fun op =>
    op.writes ⊆ (hostOps0_2_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide)⟩

/-- The buffers the operations of this segment write, in order. -/
abbrev hostOps0_3_W : List (Ref Cert.KernelIdeal.sig .tc) :=
  [Cert.KernelIdeal.main_call1_cst, Cert.KernelIdeal.main_call1_v0, Cert.KernelIdeal.main_v63]
theorem hostOps0_3_writes : (Cert.KernelIdeal.Gen.hostOps0_3 : List (HloOp Cert.KernelIdeal.τ Cert.KernelIdeal.sig (Elt F))).Forall fun op =>
    op.writes ⊆ (hostOps0_3_W.map (Proc.devRef (τ := Cert.KernelIdeal.τ) .tc)).toFinset :=
  ⟨single_sub (by decide), single_sub (by decide), single_sub (by decide)⟩

/-- The buffers the operations of this segment write, in order. -/
abbrev hostOps0_4_W : List (Ref Cert.KernelIdeal.sig .tc) :=
  [Cert.KernelIdeal.main_v64, Cert.KernelIdeal.main_v65, Cert.KernelIdeal.main_v66, Cert.KernelIdeal.main_v67, Cert.KernelIdeal.main_v68, Cert.KernelIdeal.main_v69,
   Cert.KernelIdeal.main_v70, Cert.KernelIdeal.main_v71]
theorem hostOps0_4_writes : (Cert.KernelIdeal.Gen.hostOps0_4 : List (HloOp Cert.KernelIdeal.τ Cert.KernelIdeal.sig (Elt F))).Forall fun op =>
    op.writes ⊆ (hostOps0_4_W.map (Proc.devRef (τ := Cert.KernelIdeal.τ) .tc)).toFinset :=
  ⟨single_sub (by decide), single_sub (by decide), single_sub (by decide), single_sub (by decide), single_sub (by decide),
   single_sub (by decide), single_sub (by decide), single_sub (by decide)⟩

/-- The buffers the operations of this segment write, in order. -/
abbrev hostOps1_W : List (Ref Cert.KernelIdeal.sig .tc) :=
  [Cert.KernelIdeal.main_v73, Cert.KernelIdeal.main_v74, Cert.KernelIdeal.main_cst_11, Cert.KernelIdeal.main_v75, Cert.KernelIdeal.main_cst_12, Cert.KernelIdeal.main_v76,
   Cert.KernelIdeal.main_v77, Cert.KernelIdeal.main_v78, Cert.KernelIdeal.main_v79, Cert.KernelIdeal.main_c_13, Cert.KernelIdeal.main_v80, Cert.KernelIdeal.main_v81,
   Cert.KernelIdeal.main_c_14, Cert.KernelIdeal.main_v82, Cert.KernelIdeal.main_v83, Cert.KernelIdeal.main_v84, Cert.KernelIdeal.main_v85, Cert.KernelIdeal.main_v86,
   Cert.KernelIdeal.main_c_15, Cert.KernelIdeal.main_v87, Cert.KernelIdeal.main_v88, Cert.KernelIdeal.main_c_16, Cert.KernelIdeal.main_v89, Cert.KernelIdeal.main_v90,
   Cert.KernelIdeal.main_v91, Cert.KernelIdeal.main_v92, Cert.KernelIdeal.main_v93, Cert.KernelIdeal.main_v94, Cert.KernelIdeal.main_v95, Cert.KernelIdeal.main_c_17,
   Cert.KernelIdeal.main_v96, Cert.KernelIdeal.main_v97, Cert.KernelIdeal.main_c_18, Cert.KernelIdeal.main_v98, Cert.KernelIdeal.main_v99, Cert.KernelIdeal.main_v100,
   Cert.KernelIdeal.main_v101, Cert.KernelIdeal.main_v102, Cert.KernelIdeal.main_v103, Cert.KernelIdeal.main_v104, Cert.KernelIdeal.main_cst_19, Cert.KernelIdeal.main_v105,
   Cert.KernelIdeal.main_v106, Cert.KernelIdeal.main_v107, Cert.KernelIdeal.main_v108, Cert.KernelIdeal.main_v109, Cert.KernelIdeal.main_v110, Cert.KernelIdeal.main_cst_20,
   Cert.KernelIdeal.main_v111, Cert.KernelIdeal.main_cst_21, Cert.KernelIdeal.main_v112, Cert.KernelIdeal.main_v113, Cert.KernelIdeal.main_c_22]
theorem hostOps1_writes : (Cert.KernelIdeal.Gen.hostOps1 : List (HloOp Cert.KernelIdeal.τ Cert.KernelIdeal.sig (Elt F))).Forall fun op =>
    op.writes ⊆ (hostOps1_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide)⟩

/-- The buffers the operations of this segment write, in order. -/
abbrev hostOps1_1_W : List (Ref Cert.KernelIdeal.sig .tc) :=
  [Cert.KernelIdeal.main_call2_cst, Cert.KernelIdeal.main_call2_v0, Cert.KernelIdeal.main_call2_v1, Cert.KernelIdeal.main_call2_cst_0, Cert.KernelIdeal.main_call2_v2, Cert.KernelIdeal.main_call2_v3,
   Cert.KernelIdeal.main_call2_v4, Cert.KernelIdeal.main_call2_v5, Cert.KernelIdeal.main_call2_v6, Cert.KernelIdeal.main_call2_v7, Cert.KernelIdeal.main_call2_cst_1, Cert.KernelIdeal.main_call2_v8,
   Cert.KernelIdeal.main_call2_cst_2, Cert.KernelIdeal.main_call2_v9, Cert.KernelIdeal.main_call2_v10, Cert.KernelIdeal.main_call2_v11, Cert.KernelIdeal.main_call2_cst_3, Cert.KernelIdeal.main_call2_v12,
   Cert.KernelIdeal.main_call2_cst_4, Cert.KernelIdeal.main_call2_call0_v0, Cert.KernelIdeal.main_call2_call0_v1, Cert.KernelIdeal.main_v114]
theorem hostOps1_1_writes : (Cert.KernelIdeal.Gen.hostOps1_1 : List (HloOp Cert.KernelIdeal.τ Cert.KernelIdeal.sig (Elt F))).Forall fun op =>
    op.writes ⊆ (hostOps1_1_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide)⟩

/-- The buffers the operations of this segment write, in order. -/
abbrev hostOps1_2_W : List (Ref Cert.KernelIdeal.sig .tc) :=
  [Cert.KernelIdeal.main_v115, Cert.KernelIdeal.main_v116, Cert.KernelIdeal.main_v117, Cert.KernelIdeal.main_v118, Cert.KernelIdeal.main_v119, Cert.KernelIdeal.main_v120,
   Cert.KernelIdeal.main_cst_23, Cert.KernelIdeal.main_v121, Cert.KernelIdeal.main_v122, Cert.KernelIdeal.main_v123, Cert.KernelIdeal.main_v124, Cert.KernelIdeal.main_v125,
   Cert.KernelIdeal.main_v126, Cert.KernelIdeal.main_v127, Cert.KernelIdeal.main_v128, Cert.KernelIdeal.main_v129]
theorem hostOps1_2_writes : (Cert.KernelIdeal.Gen.hostOps1_2 : List (HloOp Cert.KernelIdeal.τ Cert.KernelIdeal.sig (Elt F))).Forall fun op =>
    op.writes ⊆ (hostOps1_2_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide)⟩

/-- The buffers the operations of this segment write, in order. -/
abbrev hostOps1_3_W : List (Ref Cert.KernelIdeal.sig .tc) :=
  [Cert.KernelIdeal.main_call3_cst, Cert.KernelIdeal.main_call3_v0, Cert.KernelIdeal.main_v130]
theorem hostOps1_3_writes : (Cert.KernelIdeal.Gen.hostOps1_3 : List (HloOp Cert.KernelIdeal.τ Cert.KernelIdeal.sig (Elt F))).Forall fun op =>
    op.writes ⊆ (hostOps1_3_W.map (Proc.devRef (τ := Cert.KernelIdeal.τ) .tc)).toFinset :=
  ⟨single_sub (by decide), single_sub (by decide), single_sub (by decide)⟩

/-- The buffers the operations of this segment write, in order. -/
abbrev hostOps1_4_W : List (Ref Cert.KernelIdeal.sig .tc) :=
  [Cert.KernelIdeal.main_v131, Cert.KernelIdeal.main_v132, Cert.KernelIdeal.main_v133, Cert.KernelIdeal.main_v134, Cert.KernelIdeal.main_v135]
theorem hostOps1_4_writes : (Cert.KernelIdeal.Gen.hostOps1_4 : List (HloOp Cert.KernelIdeal.τ Cert.KernelIdeal.sig (Elt F))).Forall fun op =>
    op.writes ⊆ (hostOps1_4_W.map (Proc.devRef (τ := Cert.KernelIdeal.τ) .tc)).toFinset :=
  ⟨single_sub (by decide), single_sub (by decide), single_sub (by decide), single_sub (by decide), single_sub (by decide)⟩

/-- The buffers the operations of this segment write, in order. -/
abbrev hostOps1_5_W : List (Ref Cert.KernelIdeal.sig .tc) :=
  [Cert.KernelIdeal.main_call4_cst, Cert.KernelIdeal.main_call4_v0, Cert.KernelIdeal.main_call4_cst_0, Cert.KernelIdeal.main_call4_v1, Cert.KernelIdeal.main_call4_v2, Cert.KernelIdeal.main_call4_v3,
   Cert.KernelIdeal.main_call4_v4, Cert.KernelIdeal.main_call4_v5, Cert.KernelIdeal.main_call4_v6, Cert.KernelIdeal.main_call4_cst_1, Cert.KernelIdeal.main_call4_v7, Cert.KernelIdeal.main_call4_v8,
   Cert.KernelIdeal.main_call4_v9, Cert.KernelIdeal.main_call4_v10, Cert.KernelIdeal.main_v136]
theorem hostOps1_5_writes : (Cert.KernelIdeal.Gen.hostOps1_5 : List (HloOp Cert.KernelIdeal.τ Cert.KernelIdeal.sig (Elt F))).Forall fun op =>
    op.writes ⊆ (hostOps1_5_W.map (Proc.devRef (τ := Cert.KernelIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide)⟩

/-- The buffers the operations of this segment write, in order. -/
abbrev rA0_W : List (Ref Cert.ReferenceIdeal.sig .tc) :=
  [Cert.ReferenceIdeal.main_v0, Cert.ReferenceIdeal.main_v1, Cert.ReferenceIdeal.main_v2, Cert.ReferenceIdeal.main_v3, Cert.ReferenceIdeal.main_v4, Cert.ReferenceIdeal.main_v5,
   Cert.ReferenceIdeal.main_v6, Cert.ReferenceIdeal.main_v7, Cert.ReferenceIdeal.main_cst, Cert.ReferenceIdeal.main_v8, Cert.ReferenceIdeal.main_cst_0, Cert.ReferenceIdeal.main_v9,
   Cert.ReferenceIdeal.main_v10, Cert.ReferenceIdeal.main_v11, Cert.ReferenceIdeal.main_v12, Cert.ReferenceIdeal.main_c, Cert.ReferenceIdeal.main_v13, Cert.ReferenceIdeal.main_v14,
   Cert.ReferenceIdeal.main_c_1, Cert.ReferenceIdeal.main_v15, Cert.ReferenceIdeal.main_v16, Cert.ReferenceIdeal.main_v17, Cert.ReferenceIdeal.main_v18, Cert.ReferenceIdeal.main_v19,
   Cert.ReferenceIdeal.main_c_2, Cert.ReferenceIdeal.main_v20, Cert.ReferenceIdeal.main_v21, Cert.ReferenceIdeal.main_c_3, Cert.ReferenceIdeal.main_v22, Cert.ReferenceIdeal.main_v23,
   Cert.ReferenceIdeal.main_v24, Cert.ReferenceIdeal.main_v25, Cert.ReferenceIdeal.main_v26, Cert.ReferenceIdeal.main_v27, Cert.ReferenceIdeal.main_v28, Cert.ReferenceIdeal.main_c_4,
   Cert.ReferenceIdeal.main_v29, Cert.ReferenceIdeal.main_v30, Cert.ReferenceIdeal.main_c_5, Cert.ReferenceIdeal.main_v31, Cert.ReferenceIdeal.main_v32, Cert.ReferenceIdeal.main_v33,
   Cert.ReferenceIdeal.main_v34, Cert.ReferenceIdeal.main_v35, Cert.ReferenceIdeal.main_v36, Cert.ReferenceIdeal.main_v37, Cert.ReferenceIdeal.main_cst_6, Cert.ReferenceIdeal.main_v38,
   Cert.ReferenceIdeal.main_v39, Cert.ReferenceIdeal.main_v40, Cert.ReferenceIdeal.main_v41, Cert.ReferenceIdeal.main_v42, Cert.ReferenceIdeal.main_v43, Cert.ReferenceIdeal.main_cst_7,
   Cert.ReferenceIdeal.main_v44, Cert.ReferenceIdeal.main_cst_8, Cert.ReferenceIdeal.main_v45, Cert.ReferenceIdeal.main_v46, Cert.ReferenceIdeal.main_c_9]
theorem rA0_writes : (Cert.ReferenceIdeal.Hand.rA0 : List (HloOp Cert.ReferenceIdeal.τ Cert.ReferenceIdeal.sig (Elt F))).Forall fun op =>
    op.writes ⊆ (rA0_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide)⟩

/-- The buffers the operations of this segment write, in order. -/
abbrev rA1_W : List (Ref Cert.ReferenceIdeal.sig .tc) :=
  [Cert.ReferenceIdeal.main_call0_cst, Cert.ReferenceIdeal.main_call0_v0, Cert.ReferenceIdeal.main_call0_v1, Cert.ReferenceIdeal.main_call0_cst_0, Cert.ReferenceIdeal.main_call0_v2, Cert.ReferenceIdeal.main_call0_v3,
   Cert.ReferenceIdeal.main_call0_v4, Cert.ReferenceIdeal.main_call0_v5, Cert.ReferenceIdeal.main_call0_v6, Cert.ReferenceIdeal.main_call0_v7, Cert.ReferenceIdeal.main_call0_cst_1, Cert.ReferenceIdeal.main_call0_v8,
   Cert.ReferenceIdeal.main_call0_cst_2, Cert.ReferenceIdeal.main_call0_v9, Cert.ReferenceIdeal.main_call0_v10, Cert.ReferenceIdeal.main_call0_v11, Cert.ReferenceIdeal.main_call0_cst_3, Cert.ReferenceIdeal.main_call0_v12,
   Cert.ReferenceIdeal.main_call0_cst_4, Cert.ReferenceIdeal.main_call0_call0_v0, Cert.ReferenceIdeal.main_call0_call0_v1, Cert.ReferenceIdeal.main_v47]
theorem rA1_writes : (Cert.ReferenceIdeal.Hand.rA1 : List (HloOp Cert.ReferenceIdeal.τ Cert.ReferenceIdeal.sig (Elt F))).Forall fun op =>
    op.writes ⊆ (rA1_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide)⟩

/-- The buffers the operations of this segment write, in order. -/
abbrev rA2_W : List (Ref Cert.ReferenceIdeal.sig .tc) :=
  [Cert.ReferenceIdeal.main_v48, Cert.ReferenceIdeal.main_v49, Cert.ReferenceIdeal.main_v50, Cert.ReferenceIdeal.main_v51, Cert.ReferenceIdeal.main_v52, Cert.ReferenceIdeal.main_v53,
   Cert.ReferenceIdeal.main_cst_10, Cert.ReferenceIdeal.main_v54, Cert.ReferenceIdeal.main_v55, Cert.ReferenceIdeal.main_v56, Cert.ReferenceIdeal.main_v57, Cert.ReferenceIdeal.main_v58,
   Cert.ReferenceIdeal.main_v59, Cert.ReferenceIdeal.main_v60, Cert.ReferenceIdeal.main_v61, Cert.ReferenceIdeal.main_v62]
theorem rA2_writes : (Cert.ReferenceIdeal.Hand.rA2 : List (HloOp Cert.ReferenceIdeal.τ Cert.ReferenceIdeal.sig (Elt F))).Forall fun op =>
    op.writes ⊆ (rA2_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide)⟩

/-- The buffers the operations of this segment write, in order. -/
abbrev rA3_W : List (Ref Cert.ReferenceIdeal.sig .tc) :=
  [Cert.ReferenceIdeal.main_call1_cst, Cert.ReferenceIdeal.main_call1_v0, Cert.ReferenceIdeal.main_v63]
theorem rA3_writes : (Cert.ReferenceIdeal.Hand.rA3 : List (HloOp Cert.ReferenceIdeal.τ Cert.ReferenceIdeal.sig (Elt F))).Forall fun op =>
    op.writes ⊆ (rA3_W.map (Proc.devRef (τ := Cert.ReferenceIdeal.τ) .tc)).toFinset :=
  ⟨single_sub (by decide), single_sub (by decide), single_sub (by decide)⟩

/-- The buffers the operations of this segment write, in order. -/
abbrev rB_W : List (Ref Cert.ReferenceIdeal.sig .tc) :=
  [Cert.ReferenceIdeal.main_v64, Cert.ReferenceIdeal.main_v65, Cert.ReferenceIdeal.main_v66, Cert.ReferenceIdeal.main_v67]
theorem rB_writes : (Cert.ReferenceIdeal.Hand.rB : List (HloOp Cert.ReferenceIdeal.τ Cert.ReferenceIdeal.sig (Elt F))).Forall fun op =>
    op.writes ⊆ (rB_W.map (Proc.devRef (τ := Cert.ReferenceIdeal.τ) .tc)).toFinset :=
  ⟨single_sub (by decide), single_sub (by decide), single_sub (by decide), single_sub (by decide)⟩

/-- The buffers the operations of this segment write, in order. -/
abbrev rC0_W : List (Ref Cert.ReferenceIdeal.sig .tc) :=
  [Cert.ReferenceIdeal.main_v68, Cert.ReferenceIdeal.main_v69, Cert.ReferenceIdeal.main_cst_11, Cert.ReferenceIdeal.main_v70, Cert.ReferenceIdeal.main_cst_12, Cert.ReferenceIdeal.main_v71,
   Cert.ReferenceIdeal.main_v72, Cert.ReferenceIdeal.main_v73, Cert.ReferenceIdeal.main_v74, Cert.ReferenceIdeal.main_c_13, Cert.ReferenceIdeal.main_v75, Cert.ReferenceIdeal.main_v76,
   Cert.ReferenceIdeal.main_c_14, Cert.ReferenceIdeal.main_v77, Cert.ReferenceIdeal.main_v78, Cert.ReferenceIdeal.main_v79, Cert.ReferenceIdeal.main_v80, Cert.ReferenceIdeal.main_v81,
   Cert.ReferenceIdeal.main_c_15, Cert.ReferenceIdeal.main_v82, Cert.ReferenceIdeal.main_v83, Cert.ReferenceIdeal.main_c_16, Cert.ReferenceIdeal.main_v84, Cert.ReferenceIdeal.main_v85,
   Cert.ReferenceIdeal.main_v86, Cert.ReferenceIdeal.main_v87, Cert.ReferenceIdeal.main_v88, Cert.ReferenceIdeal.main_v89, Cert.ReferenceIdeal.main_v90, Cert.ReferenceIdeal.main_c_17,
   Cert.ReferenceIdeal.main_v91, Cert.ReferenceIdeal.main_v92, Cert.ReferenceIdeal.main_c_18, Cert.ReferenceIdeal.main_v93, Cert.ReferenceIdeal.main_v94, Cert.ReferenceIdeal.main_v95,
   Cert.ReferenceIdeal.main_v96, Cert.ReferenceIdeal.main_v97, Cert.ReferenceIdeal.main_v98, Cert.ReferenceIdeal.main_v99, Cert.ReferenceIdeal.main_cst_19, Cert.ReferenceIdeal.main_v100,
   Cert.ReferenceIdeal.main_v101, Cert.ReferenceIdeal.main_v102, Cert.ReferenceIdeal.main_v103, Cert.ReferenceIdeal.main_v104, Cert.ReferenceIdeal.main_v105, Cert.ReferenceIdeal.main_cst_20,
   Cert.ReferenceIdeal.main_v106, Cert.ReferenceIdeal.main_cst_21, Cert.ReferenceIdeal.main_v107, Cert.ReferenceIdeal.main_v108, Cert.ReferenceIdeal.main_c_22]
theorem rC0_writes : (Cert.ReferenceIdeal.Hand.rC0 : List (HloOp Cert.ReferenceIdeal.τ Cert.ReferenceIdeal.sig (Elt F))).Forall fun op =>
    op.writes ⊆ (rC0_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide)⟩

/-- The buffers the operations of this segment write, in order. -/
abbrev rC1_W : List (Ref Cert.ReferenceIdeal.sig .tc) :=
  [Cert.ReferenceIdeal.main_call2_cst, Cert.ReferenceIdeal.main_call2_v0, Cert.ReferenceIdeal.main_call2_v1, Cert.ReferenceIdeal.main_call2_cst_0, Cert.ReferenceIdeal.main_call2_v2, Cert.ReferenceIdeal.main_call2_v3,
   Cert.ReferenceIdeal.main_call2_v4, Cert.ReferenceIdeal.main_call2_v5, Cert.ReferenceIdeal.main_call2_v6, Cert.ReferenceIdeal.main_call2_v7, Cert.ReferenceIdeal.main_call2_cst_1, Cert.ReferenceIdeal.main_call2_v8,
   Cert.ReferenceIdeal.main_call2_cst_2, Cert.ReferenceIdeal.main_call2_v9, Cert.ReferenceIdeal.main_call2_v10, Cert.ReferenceIdeal.main_call2_v11, Cert.ReferenceIdeal.main_call2_cst_3, Cert.ReferenceIdeal.main_call2_v12,
   Cert.ReferenceIdeal.main_call2_cst_4, Cert.ReferenceIdeal.main_call2_call0_v0, Cert.ReferenceIdeal.main_call2_call0_v1, Cert.ReferenceIdeal.main_v109]
theorem rC1_writes : (Cert.ReferenceIdeal.Hand.rC1 : List (HloOp Cert.ReferenceIdeal.τ Cert.ReferenceIdeal.sig (Elt F))).Forall fun op =>
    op.writes ⊆ (rC1_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide), single_sub (by decide)⟩

/-- The buffers the operations of this segment write, in order. -/
abbrev rC2_W : List (Ref Cert.ReferenceIdeal.sig .tc) :=
  [Cert.ReferenceIdeal.main_v110, Cert.ReferenceIdeal.main_v111, Cert.ReferenceIdeal.main_v112, Cert.ReferenceIdeal.main_v113, Cert.ReferenceIdeal.main_v114, Cert.ReferenceIdeal.main_v115,
   Cert.ReferenceIdeal.main_cst_23, Cert.ReferenceIdeal.main_v116, Cert.ReferenceIdeal.main_v117, Cert.ReferenceIdeal.main_v118, Cert.ReferenceIdeal.main_v119, Cert.ReferenceIdeal.main_v120,
   Cert.ReferenceIdeal.main_v121, Cert.ReferenceIdeal.main_v122, Cert.ReferenceIdeal.main_v123, Cert.ReferenceIdeal.main_v124]
theorem rC2_writes : (Cert.ReferenceIdeal.Hand.rC2 : List (HloOp Cert.ReferenceIdeal.τ Cert.ReferenceIdeal.sig (Elt F))).Forall fun op =>
    op.writes ⊆ (rC2_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide),
   single_sub (by decide)⟩

/-- The buffers the operations of this segment write, in order. -/
abbrev rC3_W : List (Ref Cert.ReferenceIdeal.sig .tc) :=
  [Cert.ReferenceIdeal.main_call3_cst, Cert.ReferenceIdeal.main_call3_v0, Cert.ReferenceIdeal.main_v125]
theorem rC3_writes : (Cert.ReferenceIdeal.Hand.rC3 : List (HloOp Cert.ReferenceIdeal.τ Cert.ReferenceIdeal.sig (Elt F))).Forall fun op =>
    op.writes ⊆ (rC3_W.map (Proc.devRef (τ := Cert.ReferenceIdeal.τ) .tc)).toFinset :=
  ⟨single_sub (by decide), single_sub (by decide), single_sub (by decide)⟩

/-- The buffers the operations of this segment write, in order. -/
abbrev rD_W : List (Ref Cert.ReferenceIdeal.sig .tc) :=
  [Cert.ReferenceIdeal.main_v126, Cert.ReferenceIdeal.main_v127, Cert.ReferenceIdeal.main_v128, Cert.ReferenceIdeal.main_v129, Cert.ReferenceIdeal.main_v130, Cert.ReferenceIdeal.main_v131,
   Cert.ReferenceIdeal.main_v132, Cert.ReferenceIdeal.main_v133, Cert.ReferenceIdeal.main_v134, Cert.ReferenceIdeal.main_v135, Cert.ReferenceIdeal.main_v136, Cert.ReferenceIdeal.main_v137]
theorem rD_writes : (Cert.ReferenceIdeal.Hand.rD : List (HloOp Cert.ReferenceIdeal.τ Cert.ReferenceIdeal.sig (Elt F))).Forall fun op =>
    op.writes ⊆ (rD_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide)⟩

/-- The buffers the operations of this segment write, in order. -/
abbrev rE0_W : List (Ref Cert.ReferenceIdeal.sig .tc) :=
  [Cert.ReferenceIdeal.main_v138, Cert.ReferenceIdeal.main_v139, Cert.ReferenceIdeal.main_v140, Cert.ReferenceIdeal.main_v141, Cert.ReferenceIdeal.main_v142]
theorem rE0_writes : (Cert.ReferenceIdeal.Hand.rE0 : List (HloOp Cert.ReferenceIdeal.τ Cert.ReferenceIdeal.sig (Elt F))).Forall fun op =>
    op.writes ⊆ (rE0_W.map (Proc.devRef (τ := Cert.ReferenceIdeal.τ) .tc)).toFinset :=
  ⟨single_sub (by decide), single_sub (by decide), single_sub (by decide), single_sub (by decide), single_sub (by decide)⟩

/-- The buffers the operations of this segment write, in order. -/
abbrev rE1_W : List (Ref Cert.ReferenceIdeal.sig .tc) :=
  [Cert.ReferenceIdeal.main_call4_cst, Cert.ReferenceIdeal.main_call4_v0, Cert.ReferenceIdeal.main_call4_cst_0, Cert.ReferenceIdeal.main_call4_v1, Cert.ReferenceIdeal.main_call4_v2, Cert.ReferenceIdeal.main_call4_v3,
   Cert.ReferenceIdeal.main_call4_v4, Cert.ReferenceIdeal.main_call4_v5, Cert.ReferenceIdeal.main_call4_v6, Cert.ReferenceIdeal.main_call4_cst_1, Cert.ReferenceIdeal.main_call4_v7, Cert.ReferenceIdeal.main_call4_v8,
   Cert.ReferenceIdeal.main_call4_v9, Cert.ReferenceIdeal.main_call4_v10, Cert.ReferenceIdeal.main_v143]
theorem rE1_writes : (Cert.ReferenceIdeal.Hand.rE1 : List (HloOp Cert.ReferenceIdeal.τ Cert.ReferenceIdeal.sig (Elt F))).Forall fun op =>
    op.writes ⊆ (rE1_W.map (Proc.devRef (τ := Cert.ReferenceIdeal.τ) .tc)).toFinset :=
  ⟨single_sub (by decide), single_sub (by decide), single_sub (by decide), single_sub (by decide), single_sub (by decide),
   single_sub (by decide), single_sub (by decide), single_sub (by decide), single_sub (by decide), single_sub (by decide),
   single_sub (by decide), single_sub (by decide), single_sub (by decide), single_sub (by decide), single_sub (by decide)⟩

/-! ## Buffers a line does not write keep their contents -/

/-- The kernel's host prefix without its last segment (the window arrays' conversions and reshapes). -/
abbrev headK0 : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3]
theorem headK_split : (headK : List (HloOp Cert.KernelIdeal.τ Cert.KernelIdeal.sig (Elt F))) = headK0 ++ Cert.KernelIdeal.Gen.hostOps0_4 := by
  simp only [headK, headK0, List.flatten_cons, List.flatten_nil, List.append_nil, List.append_assoc]
/-- The reference's head without its last segment (the first dense layer). -/
abbrev headR0 : List (HloOp Cert.ReferenceIdeal.τ Cert.ReferenceIdeal.sig (Elt F)) :=
  Cert.ReferenceIdeal.Hand.rA0 ++ (Cert.ReferenceIdeal.Hand.rA1 ++ (Cert.ReferenceIdeal.Hand.rA2 ++ Cert.ReferenceIdeal.Hand.rA3))
theorem headR_split : (headR : List (HloOp Cert.ReferenceIdeal.τ Cert.ReferenceIdeal.sig (Elt F))) = headR0 ++ Cert.ReferenceIdeal.Hand.rB := by
  simp only [headR, headR0, List.append_assoc]
/-- The reference's tail up to the remaining dense layers, and after them. -/
abbrev tailR0 : List (HloOp Cert.ReferenceIdeal.τ Cert.ReferenceIdeal.sig (Elt F)) :=
  Cert.ReferenceIdeal.Hand.rC0 ++ (Cert.ReferenceIdeal.Hand.rC1 ++ (Cert.ReferenceIdeal.Hand.rC2 ++ Cert.ReferenceIdeal.Hand.rC3))
abbrev tailRE : List (HloOp Cert.ReferenceIdeal.τ Cert.ReferenceIdeal.sig (Elt F)) := Cert.ReferenceIdeal.Hand.rE0 ++ Cert.ReferenceIdeal.Hand.rE1
theorem tailR_split : (tailR : List (HloOp Cert.ReferenceIdeal.τ Cert.ReferenceIdeal.sig (Elt F))) = tailR0 ++ (Cert.ReferenceIdeal.Hand.rD ++ tailRE) := by
  simp only [tailR, tailR0, tailRE, List.append_assoc]

/-- The buffers the operations of `headK0` write. -/
abbrev headK0_W : List (Ref Cert.KernelIdeal.sig .tc) := hostOps0_W ++ (hostOps0_1_W ++ (hostOps0_2_W ++ (hostOps0_3_W)))
/-- No operation of the prefix's first four segments writes a buffer outside that list. -/
theorem headK0_kept (V : Valuation Cert.KernelIdeal.τ Cert.KernelIdeal.sig (Elt F)) (r : Ref Cert.KernelIdeal.sig .tc) (h : r ∉ headK0_W) :
    StableHlo.after (headK0 : List (HloOp Cert.KernelIdeal.τ Cert.KernelIdeal.sig (Elt F))) V (Proc.devRef .tc r) = V (Proc.devRef .tc r) := by
  have h' := h
  simp only [headK0_W, List.mem_append, not_or] at h'
  obtain ⟨h1, h2, h3, h4⟩ := h'
  simp only [headK0, List.flatten_cons, List.flatten_nil, List.append_nil, after_append]
  rw [StableHlo.after_of_writes_sub _ _ hostOps0_3_writes h4,
    StableHlo.after_of_writes_sub _ _ hostOps0_2_writes h3,
    StableHlo.after_of_writes_sub _ _ hostOps0_1_writes h2,
    StableHlo.after_of_writes_sub _ _ hostOps0_writes h1]
/-- The buffers the operations of `headK` write. -/
abbrev headK_W : List (Ref Cert.KernelIdeal.sig .tc) := hostOps0_W ++ (hostOps0_1_W ++ (hostOps0_2_W ++ (hostOps0_3_W ++ (hostOps0_4_W))))
/-- No operation of the kernel's host prefix writes a buffer outside that list. -/
theorem headK_kept (V : Valuation Cert.KernelIdeal.τ Cert.KernelIdeal.sig (Elt F)) (r : Ref Cert.KernelIdeal.sig .tc) (h : r ∉ headK_W) :
    StableHlo.after (headK : List (HloOp Cert.KernelIdeal.τ Cert.KernelIdeal.sig (Elt F))) V (Proc.devRef .tc r) = V (Proc.devRef .tc r) := by
  have h' := h
  simp only [headK_W, List.mem_append, not_or] at h'
  obtain ⟨h1, h2, h3, h4, h5⟩ := h'
  simp only [headK, List.flatten_cons, List.flatten_nil, List.append_nil, after_append]
  rw [StableHlo.after_of_writes_sub _ _ hostOps0_4_writes h5,
    StableHlo.after_of_writes_sub _ _ hostOps0_3_writes h4,
    StableHlo.after_of_writes_sub _ _ hostOps0_2_writes h3,
    StableHlo.after_of_writes_sub _ _ hostOps0_1_writes h2,
    StableHlo.after_of_writes_sub _ _ hostOps0_writes h1]
/-- The buffers the operations of `tailK` write. -/
abbrev tailK_W : List (Ref Cert.KernelIdeal.sig .tc) := hostOps1_W ++ (hostOps1_1_W ++ (hostOps1_2_W ++ (hostOps1_3_W ++ (hostOps1_4_W ++ (hostOps1_5_W)))))
/-- No operation of the kernel's host suffix writes a buffer outside that list. -/
theorem tailK_kept (V : Valuation Cert.KernelIdeal.τ Cert.KernelIdeal.sig (Elt F)) (r : Ref Cert.KernelIdeal.sig .tc) (h : r ∉ tailK_W) :
    StableHlo.after (tailK : List (HloOp Cert.KernelIdeal.τ Cert.KernelIdeal.sig (Elt F))) V (Proc.devRef .tc r) = V (Proc.devRef .tc r) := by
  have h' := h
  simp only [tailK_W, List.mem_append, not_or] at h'
  obtain ⟨h1, h2, h3, h4, h5, h6⟩ := h'
  simp only [tailK, List.flatten_cons, List.flatten_nil, List.append_nil, after_append]
  rw [StableHlo.after_of_writes_sub _ _ hostOps1_5_writes h6,
    StableHlo.after_of_writes_sub _ _ hostOps1_4_writes h5,
    StableHlo.after_of_writes_sub _ _ hostOps1_3_writes h4,
    StableHlo.after_of_writes_sub _ _ hostOps1_2_writes h3,
    StableHlo.after_of_writes_sub _ _ hostOps1_1_writes h2,
    StableHlo.after_of_writes_sub _ _ hostOps1_writes h1]
/-- The buffers the operations of `headR0` write. -/
abbrev headR0_W : List (Ref Cert.ReferenceIdeal.sig .tc) := rA0_W ++ (rA1_W ++ (rA2_W ++ (rA3_W)))
/-- No operation of the reference's head before its dense layer writes a buffer outside that list. -/
theorem headR0_kept (V : Valuation Cert.ReferenceIdeal.τ Cert.ReferenceIdeal.sig (Elt F)) (r : Ref Cert.ReferenceIdeal.sig .tc) (h : r ∉ headR0_W) :
    StableHlo.after (headR0 : List (HloOp Cert.ReferenceIdeal.τ Cert.ReferenceIdeal.sig (Elt F))) V (Proc.devRef .tc r) = V (Proc.devRef .tc r) := by
  have h' := h
  simp only [headR0_W, List.mem_append, not_or] at h'
  obtain ⟨h1, h2, h3, h4⟩ := h'
  simp only [headR0, List.flatten_cons, List.flatten_nil, List.append_nil, after_append]
  rw [StableHlo.after_of_writes_sub _ _ rA3_writes h4,
    StableHlo.after_of_writes_sub _ _ rA2_writes h3,
    StableHlo.after_of_writes_sub _ _ rA1_writes h2,
    StableHlo.after_of_writes_sub _ _ rA0_writes h1]
/-- The buffers the operations of `headR` write. -/
abbrev headR_W : List (Ref Cert.ReferenceIdeal.sig .tc) := rA0_W ++ (rA1_W ++ (rA2_W ++ (rA3_W ++ (rB_W))))
/-- No operation of the reference's head writes a buffer outside that list. -/
theorem headR_kept (V : Valuation Cert.ReferenceIdeal.τ Cert.ReferenceIdeal.sig (Elt F)) (r : Ref Cert.ReferenceIdeal.sig .tc) (h : r ∉ headR_W) :
    StableHlo.after (headR : List (HloOp Cert.ReferenceIdeal.τ Cert.ReferenceIdeal.sig (Elt F))) V (Proc.devRef .tc r) = V (Proc.devRef .tc r) := by
  have h' := h
  simp only [headR_W, List.mem_append, not_or] at h'
  obtain ⟨h1, h2, h3, h4, h5⟩ := h'
  simp only [headR, List.flatten_cons, List.flatten_nil, List.append_nil, after_append]
  rw [StableHlo.after_of_writes_sub _ _ rB_writes h5,
    StableHlo.after_of_writes_sub _ _ rA3_writes h4,
    StableHlo.after_of_writes_sub _ _ rA2_writes h3,
    StableHlo.after_of_writes_sub _ _ rA1_writes h2,
    StableHlo.after_of_writes_sub _ _ rA0_writes h1]
/-- The buffers the operations of `tailR0` write. -/
abbrev tailR0_W : List (Ref Cert.ReferenceIdeal.sig .tc) := rC0_W ++ (rC1_W ++ (rC2_W ++ (rC3_W)))
/-- No operation of the reference's second layer writes a buffer outside that list. -/
theorem tailR0_kept (V : Valuation Cert.ReferenceIdeal.τ Cert.ReferenceIdeal.sig (Elt F)) (r : Ref Cert.ReferenceIdeal.sig .tc) (h : r ∉ tailR0_W) :
    StableHlo.after (tailR0 : List (HloOp Cert.ReferenceIdeal.τ Cert.ReferenceIdeal.sig (Elt F))) V (Proc.devRef .tc r) = V (Proc.devRef .tc r) := by
  have h' := h
  simp only [tailR0_W, List.mem_append, not_or] at h'
  obtain ⟨h1, h2, h3, h4⟩ := h'
  simp only [tailR0, List.flatten_cons, List.flatten_nil, List.append_nil, after_append]
  rw [StableHlo.after_of_writes_sub _ _ rC3_writes h4,
    StableHlo.after_of_writes_sub _ _ rC2_writes h3,
    StableHlo.after_of_writes_sub _ _ rC1_writes h2,
    StableHlo.after_of_writes_sub _ _ rC0_writes h1]
/-- The buffers the operations of `tailRE` write. -/
abbrev tailRE_W : List (Ref Cert.ReferenceIdeal.sig .tc) := rE0_W ++ (rE1_W)
/-- No operation of the reference's classifier writes a buffer outside that list. -/
theorem tailRE_kept (V : Valuation Cert.ReferenceIdeal.τ Cert.ReferenceIdeal.sig (Elt F)) (r : Ref Cert.ReferenceIdeal.sig .tc) (h : r ∉ tailRE_W) :
    StableHlo.after (tailRE : List (HloOp Cert.ReferenceIdeal.τ Cert.ReferenceIdeal.sig (Elt F))) V (Proc.devRef .tc r) = V (Proc.devRef .tc r) := by
  have h' := h
  simp only [tailRE_W, List.mem_append, not_or] at h'
  obtain ⟨h1, h2⟩ := h'
  simp only [tailRE, List.flatten_cons, List.flatten_nil, List.append_nil, after_append]
  rw [StableHlo.after_of_writes_sub _ _ rE1_writes h2,
    StableHlo.after_of_writes_sub _ _ rE0_writes h1]
/-- The buffers the operations of `tailR` write. -/
abbrev tailR_W : List (Ref Cert.ReferenceIdeal.sig .tc) := rC0_W ++ (rC1_W ++ (rC2_W ++ (rC3_W ++ (rD_W ++ (rE0_W ++ (rE1_W))))))
/-- No operation of the reference's tail writes a buffer outside that list. -/
theorem tailR_kept (V : Valuation Cert.ReferenceIdeal.τ Cert.ReferenceIdeal.sig (Elt F)) (r : Ref Cert.ReferenceIdeal.sig .tc) (h : r ∉ tailR_W) :
    StableHlo.after (tailR : List (HloOp Cert.ReferenceIdeal.τ Cert.ReferenceIdeal.sig (Elt F))) V (Proc.devRef .tc r) = V (Proc.devRef .tc r) := by
  have h' := h
  simp only [tailR_W, List.mem_append, not_or] at h'
  obtain ⟨h1, h2, h3, h4, h5, h6, h7⟩ := h'
  simp only [tailR, List.flatten_cons, List.flatten_nil, List.append_nil, after_append]
  rw [StableHlo.after_of_writes_sub _ _ rE1_writes h7,
    StableHlo.after_of_writes_sub _ _ rE0_writes h6,
    StableHlo.after_of_writes_sub _ _ rD_writes h5,
    StableHlo.after_of_writes_sub _ _ rC3_writes h4,
    StableHlo.after_of_writes_sub _ _ rC2_writes h3,
    StableHlo.after_of_writes_sub _ _ rC1_writes h2,
    StableHlo.after_of_writes_sub _ _ rC0_writes h1]

/-! ## The arguments are written by no operation -/

theorem headK_arg0 (V : Valuation Cert.KernelIdeal.τ Cert.KernelIdeal.sig (Elt F)) :
    StableHlo.after (headK : List (HloOp Cert.KernelIdeal.τ Cert.KernelIdeal.sig (Elt F))) V (Cert.KernelIdeal.main_arg0 : DevRef Cert.KernelIdeal.τ Cert.KernelIdeal.sig) = V (Cert.KernelIdeal.main_arg0 : DevRef Cert.KernelIdeal.τ Cert.KernelIdeal.sig) :=
  headK_kept V Cert.KernelIdeal.main_arg0 (by decide)
theorem headK_arg1 (V : Valuation Cert.KernelIdeal.τ Cert.KernelIdeal.sig (Elt F)) :
    StableHlo.after (headK : List (HloOp Cert.KernelIdeal.τ Cert.KernelIdeal.sig (Elt F))) V (Cert.KernelIdeal.main_arg1 : DevRef Cert.KernelIdeal.τ Cert.KernelIdeal.sig) = V (Cert.KernelIdeal.main_arg1 : DevRef Cert.KernelIdeal.τ Cert.KernelIdeal.sig) :=
  headK_kept V Cert.KernelIdeal.main_arg1 (by decide)
theorem headK_arg2 (V : Valuation Cert.KernelIdeal.τ Cert.KernelIdeal.sig (Elt F)) :
    StableHlo.after (headK : List (HloOp Cert.KernelIdeal.τ Cert.KernelIdeal.sig (Elt F))) V (Cert.KernelIdeal.main_arg2 : DevRef Cert.KernelIdeal.τ Cert.KernelIdeal.sig) = V (Cert.KernelIdeal.main_arg2 : DevRef Cert.KernelIdeal.τ Cert.KernelIdeal.sig) :=
  headK_kept V Cert.KernelIdeal.main_arg2 (by decide)
theorem headK_arg3 (V : Valuation Cert.KernelIdeal.τ Cert.KernelIdeal.sig (Elt F)) :
    StableHlo.after (headK : List (HloOp Cert.KernelIdeal.τ Cert.KernelIdeal.sig (Elt F))) V (Cert.KernelIdeal.main_arg3 : DevRef Cert.KernelIdeal.τ Cert.KernelIdeal.sig) = V (Cert.KernelIdeal.main_arg3 : DevRef Cert.KernelIdeal.τ Cert.KernelIdeal.sig) :=
  headK_kept V Cert.KernelIdeal.main_arg3 (by decide)
theorem headK_arg4 (V : Valuation Cert.KernelIdeal.τ Cert.KernelIdeal.sig (Elt F)) :
    StableHlo.after (headK : List (HloOp Cert.KernelIdeal.τ Cert.KernelIdeal.sig (Elt F))) V (Cert.KernelIdeal.main_arg4 : DevRef Cert.KernelIdeal.τ Cert.KernelIdeal.sig) = V (Cert.KernelIdeal.main_arg4 : DevRef Cert.KernelIdeal.τ Cert.KernelIdeal.sig) :=
  headK_kept V Cert.KernelIdeal.main_arg4 (by decide)
theorem headK_arg5 (V : Valuation Cert.KernelIdeal.τ Cert.KernelIdeal.sig (Elt F)) :
    StableHlo.after (headK : List (HloOp Cert.KernelIdeal.τ Cert.KernelIdeal.sig (Elt F))) V (Cert.KernelIdeal.main_arg5 : DevRef Cert.KernelIdeal.τ Cert.KernelIdeal.sig) = V (Cert.KernelIdeal.main_arg5 : DevRef Cert.KernelIdeal.τ Cert.KernelIdeal.sig) :=
  headK_kept V Cert.KernelIdeal.main_arg5 (by decide)
theorem headK_arg6 (V : Valuation Cert.KernelIdeal.τ Cert.KernelIdeal.sig (Elt F)) :
    StableHlo.after (headK : List (HloOp Cert.KernelIdeal.τ Cert.KernelIdeal.sig (Elt F))) V (Cert.KernelIdeal.main_arg6 : DevRef Cert.KernelIdeal.τ Cert.KernelIdeal.sig) = V (Cert.KernelIdeal.main_arg6 : DevRef Cert.KernelIdeal.τ Cert.KernelIdeal.sig) :=
  headK_kept V Cert.KernelIdeal.main_arg6 (by decide)
theorem headK_arg7 (V : Valuation Cert.KernelIdeal.τ Cert.KernelIdeal.sig (Elt F)) :
    StableHlo.after (headK : List (HloOp Cert.KernelIdeal.τ Cert.KernelIdeal.sig (Elt F))) V (Cert.KernelIdeal.main_arg7 : DevRef Cert.KernelIdeal.τ Cert.KernelIdeal.sig) = V (Cert.KernelIdeal.main_arg7 : DevRef Cert.KernelIdeal.τ Cert.KernelIdeal.sig) :=
  headK_kept V Cert.KernelIdeal.main_arg7 (by decide)
theorem headK_arg8 (V : Valuation Cert.KernelIdeal.τ Cert.KernelIdeal.sig (Elt F)) :
    StableHlo.after (headK : List (HloOp Cert.KernelIdeal.τ Cert.KernelIdeal.sig (Elt F))) V (Cert.KernelIdeal.main_arg8 : DevRef Cert.KernelIdeal.τ Cert.KernelIdeal.sig) = V (Cert.KernelIdeal.main_arg8 : DevRef Cert.KernelIdeal.τ Cert.KernelIdeal.sig) :=
  headK_kept V Cert.KernelIdeal.main_arg8 (by decide)
theorem headK_arg9 (V : Valuation Cert.KernelIdeal.τ Cert.KernelIdeal.sig (Elt F)) :
    StableHlo.after (headK : List (HloOp Cert.KernelIdeal.τ Cert.KernelIdeal.sig (Elt F))) V (Cert.KernelIdeal.main_arg9 : DevRef Cert.KernelIdeal.τ Cert.KernelIdeal.sig) = V (Cert.KernelIdeal.main_arg9 : DevRef Cert.KernelIdeal.τ Cert.KernelIdeal.sig) :=
  headK_kept V Cert.KernelIdeal.main_arg9 (by decide)
theorem headK_arg10 (V : Valuation Cert.KernelIdeal.τ Cert.KernelIdeal.sig (Elt F)) :
    StableHlo.after (headK : List (HloOp Cert.KernelIdeal.τ Cert.KernelIdeal.sig (Elt F))) V (Cert.KernelIdeal.main_arg10 : DevRef Cert.KernelIdeal.τ Cert.KernelIdeal.sig) = V (Cert.KernelIdeal.main_arg10 : DevRef Cert.KernelIdeal.τ Cert.KernelIdeal.sig) :=
  headK_kept V Cert.KernelIdeal.main_arg10 (by decide)
theorem headK_arg11 (V : Valuation Cert.KernelIdeal.τ Cert.KernelIdeal.sig (Elt F)) :
    StableHlo.after (headK : List (HloOp Cert.KernelIdeal.τ Cert.KernelIdeal.sig (Elt F))) V (Cert.KernelIdeal.main_arg11 : DevRef Cert.KernelIdeal.τ Cert.KernelIdeal.sig) = V (Cert.KernelIdeal.main_arg11 : DevRef Cert.KernelIdeal.τ Cert.KernelIdeal.sig) :=
  headK_kept V Cert.KernelIdeal.main_arg11 (by decide)
theorem headK_arg12 (V : Valuation Cert.KernelIdeal.τ Cert.KernelIdeal.sig (Elt F)) :
    StableHlo.after (headK : List (HloOp Cert.KernelIdeal.τ Cert.KernelIdeal.sig (Elt F))) V (Cert.KernelIdeal.main_arg12 : DevRef Cert.KernelIdeal.τ Cert.KernelIdeal.sig) = V (Cert.KernelIdeal.main_arg12 : DevRef Cert.KernelIdeal.τ Cert.KernelIdeal.sig) :=
  headK_kept V Cert.KernelIdeal.main_arg12 (by decide)
theorem headK_arg13 (V : Valuation Cert.KernelIdeal.τ Cert.KernelIdeal.sig (Elt F)) :
    StableHlo.after (headK : List (HloOp Cert.KernelIdeal.τ Cert.KernelIdeal.sig (Elt F))) V (Cert.KernelIdeal.main_arg13 : DevRef Cert.KernelIdeal.τ Cert.KernelIdeal.sig) = V (Cert.KernelIdeal.main_arg13 : DevRef Cert.KernelIdeal.τ Cert.KernelIdeal.sig) :=
  headK_kept V Cert.KernelIdeal.main_arg13 (by decide)
theorem headK_arg14 (V : Valuation Cert.KernelIdeal.τ Cert.KernelIdeal.sig (Elt F)) :
    StableHlo.after (headK : List (HloOp Cert.KernelIdeal.τ Cert.KernelIdeal.sig (Elt F))) V (Cert.KernelIdeal.main_arg14 : DevRef Cert.KernelIdeal.τ Cert.KernelIdeal.sig) = V (Cert.KernelIdeal.main_arg14 : DevRef Cert.KernelIdeal.τ Cert.KernelIdeal.sig) :=
  headK_kept V Cert.KernelIdeal.main_arg14 (by decide)
theorem headK_arg15 (V : Valuation Cert.KernelIdeal.τ Cert.KernelIdeal.sig (Elt F)) :
    StableHlo.after (headK : List (HloOp Cert.KernelIdeal.τ Cert.KernelIdeal.sig (Elt F))) V (Cert.KernelIdeal.main_arg15 : DevRef Cert.KernelIdeal.τ Cert.KernelIdeal.sig) = V (Cert.KernelIdeal.main_arg15 : DevRef Cert.KernelIdeal.τ Cert.KernelIdeal.sig) :=
  headK_kept V Cert.KernelIdeal.main_arg15 (by decide)
theorem headK_arg16 (V : Valuation Cert.KernelIdeal.τ Cert.KernelIdeal.sig (Elt F)) :
    StableHlo.after (headK : List (HloOp Cert.KernelIdeal.τ Cert.KernelIdeal.sig (Elt F))) V (Cert.KernelIdeal.main_arg16 : DevRef Cert.KernelIdeal.τ Cert.KernelIdeal.sig) = V (Cert.KernelIdeal.main_arg16 : DevRef Cert.KernelIdeal.τ Cert.KernelIdeal.sig) :=
  headK_kept V Cert.KernelIdeal.main_arg16 (by decide)
theorem headK_arg17 (V : Valuation Cert.KernelIdeal.τ Cert.KernelIdeal.sig (Elt F)) :
    StableHlo.after (headK : List (HloOp Cert.KernelIdeal.τ Cert.KernelIdeal.sig (Elt F))) V (Cert.KernelIdeal.main_arg17 : DevRef Cert.KernelIdeal.τ Cert.KernelIdeal.sig) = V (Cert.KernelIdeal.main_arg17 : DevRef Cert.KernelIdeal.τ Cert.KernelIdeal.sig) :=
  headK_kept V Cert.KernelIdeal.main_arg17 (by decide)
theorem headK_arg18 (V : Valuation Cert.KernelIdeal.τ Cert.KernelIdeal.sig (Elt F)) :
    StableHlo.after (headK : List (HloOp Cert.KernelIdeal.τ Cert.KernelIdeal.sig (Elt F))) V (Cert.KernelIdeal.main_arg18 : DevRef Cert.KernelIdeal.τ Cert.KernelIdeal.sig) = V (Cert.KernelIdeal.main_arg18 : DevRef Cert.KernelIdeal.τ Cert.KernelIdeal.sig) :=
  headK_kept V Cert.KernelIdeal.main_arg18 (by decide)
theorem headK_arg19 (V : Valuation Cert.KernelIdeal.τ Cert.KernelIdeal.sig (Elt F)) :
    StableHlo.after (headK : List (HloOp Cert.KernelIdeal.τ Cert.KernelIdeal.sig (Elt F))) V (Cert.KernelIdeal.main_arg19 : DevRef Cert.KernelIdeal.τ Cert.KernelIdeal.sig) = V (Cert.KernelIdeal.main_arg19 : DevRef Cert.KernelIdeal.τ Cert.KernelIdeal.sig) :=
  headK_kept V Cert.KernelIdeal.main_arg19 (by decide)
theorem headK_arg20 (V : Valuation Cert.KernelIdeal.τ Cert.KernelIdeal.sig (Elt F)) :
    StableHlo.after (headK : List (HloOp Cert.KernelIdeal.τ Cert.KernelIdeal.sig (Elt F))) V (Cert.KernelIdeal.main_arg20 : DevRef Cert.KernelIdeal.τ Cert.KernelIdeal.sig) = V (Cert.KernelIdeal.main_arg20 : DevRef Cert.KernelIdeal.τ Cert.KernelIdeal.sig) :=
  headK_kept V Cert.KernelIdeal.main_arg20 (by decide)
theorem headR_arg0 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg0 : DevRef Cert.ReferenceIdeal.τ Cert.ReferenceIdeal.sig) = V (Cert.ReferenceIdeal.main_arg0 : DevRef Cert.ReferenceIdeal.τ Cert.ReferenceIdeal.sig) :=
  headR_kept V Cert.ReferenceIdeal.main_arg0 (by decide)
theorem headR_arg1 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg1 : DevRef Cert.ReferenceIdeal.τ Cert.ReferenceIdeal.sig) = V (Cert.ReferenceIdeal.main_arg1 : DevRef Cert.ReferenceIdeal.τ Cert.ReferenceIdeal.sig) :=
  headR_kept V Cert.ReferenceIdeal.main_arg1 (by decide)
theorem headR_arg2 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg2 : DevRef Cert.ReferenceIdeal.τ Cert.ReferenceIdeal.sig) = V (Cert.ReferenceIdeal.main_arg2 : DevRef Cert.ReferenceIdeal.τ Cert.ReferenceIdeal.sig) :=
  headR_kept V Cert.ReferenceIdeal.main_arg2 (by decide)
theorem headR_arg3 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg3 : DevRef Cert.ReferenceIdeal.τ Cert.ReferenceIdeal.sig) = V (Cert.ReferenceIdeal.main_arg3 : DevRef Cert.ReferenceIdeal.τ Cert.ReferenceIdeal.sig) :=
  headR_kept V Cert.ReferenceIdeal.main_arg3 (by decide)
theorem headR_arg4 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg4 : DevRef Cert.ReferenceIdeal.τ Cert.ReferenceIdeal.sig) = V (Cert.ReferenceIdeal.main_arg4 : DevRef Cert.ReferenceIdeal.τ Cert.ReferenceIdeal.sig) :=
  headR_kept V Cert.ReferenceIdeal.main_arg4 (by decide)
theorem headR_arg5 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg5 : DevRef Cert.ReferenceIdeal.τ Cert.ReferenceIdeal.sig) = V (Cert.ReferenceIdeal.main_arg5 : DevRef Cert.ReferenceIdeal.τ Cert.ReferenceIdeal.sig) :=
  headR_kept V Cert.ReferenceIdeal.main_arg5 (by decide)
theorem headR_arg6 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg6 : DevRef Cert.ReferenceIdeal.τ Cert.ReferenceIdeal.sig) = V (Cert.ReferenceIdeal.main_arg6 : DevRef Cert.ReferenceIdeal.τ Cert.ReferenceIdeal.sig) :=
  headR_kept V Cert.ReferenceIdeal.main_arg6 (by decide)
theorem headR_arg7 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg7 : DevRef Cert.ReferenceIdeal.τ Cert.ReferenceIdeal.sig) = V (Cert.ReferenceIdeal.main_arg7 : DevRef Cert.ReferenceIdeal.τ Cert.ReferenceIdeal.sig) :=
  headR_kept V Cert.ReferenceIdeal.main_arg7 (by decide)
theorem headR_arg8 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg8 : DevRef Cert.ReferenceIdeal.τ Cert.ReferenceIdeal.sig) = V (Cert.ReferenceIdeal.main_arg8 : DevRef Cert.ReferenceIdeal.τ Cert.ReferenceIdeal.sig) :=
  headR_kept V Cert.ReferenceIdeal.main_arg8 (by decide)
theorem headR_arg9 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg9 : DevRef Cert.ReferenceIdeal.τ Cert.ReferenceIdeal.sig) = V (Cert.ReferenceIdeal.main_arg9 : DevRef Cert.ReferenceIdeal.τ Cert.ReferenceIdeal.sig) :=
  headR_kept V Cert.ReferenceIdeal.main_arg9 (by decide)
theorem headR_arg10 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg10 : DevRef Cert.ReferenceIdeal.τ Cert.ReferenceIdeal.sig) = V (Cert.ReferenceIdeal.main_arg10 : DevRef Cert.ReferenceIdeal.τ Cert.ReferenceIdeal.sig) :=
  headR_kept V Cert.ReferenceIdeal.main_arg10 (by decide)
theorem headR_arg11 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg11 : DevRef Cert.ReferenceIdeal.τ Cert.ReferenceIdeal.sig) = V (Cert.ReferenceIdeal.main_arg11 : DevRef Cert.ReferenceIdeal.τ Cert.ReferenceIdeal.sig) :=
  headR_kept V Cert.ReferenceIdeal.main_arg11 (by decide)
theorem headR_arg12 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg12 : DevRef Cert.ReferenceIdeal.τ Cert.ReferenceIdeal.sig) = V (Cert.ReferenceIdeal.main_arg12 : DevRef Cert.ReferenceIdeal.τ Cert.ReferenceIdeal.sig) :=
  headR_kept V Cert.ReferenceIdeal.main_arg12 (by decide)
theorem headR_arg13 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg13 : DevRef Cert.ReferenceIdeal.τ Cert.ReferenceIdeal.sig) = V (Cert.ReferenceIdeal.main_arg13 : DevRef Cert.ReferenceIdeal.τ Cert.ReferenceIdeal.sig) :=
  headR_kept V Cert.ReferenceIdeal.main_arg13 (by decide)
theorem headR_arg14 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg14 : DevRef Cert.ReferenceIdeal.τ Cert.ReferenceIdeal.sig) = V (Cert.ReferenceIdeal.main_arg14 : DevRef Cert.ReferenceIdeal.τ Cert.ReferenceIdeal.sig) :=
  headR_kept V Cert.ReferenceIdeal.main_arg14 (by decide)
theorem headR_arg15 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg15 : DevRef Cert.ReferenceIdeal.τ Cert.ReferenceIdeal.sig) = V (Cert.ReferenceIdeal.main_arg15 : DevRef Cert.ReferenceIdeal.τ Cert.ReferenceIdeal.sig) :=
  headR_kept V Cert.ReferenceIdeal.main_arg15 (by decide)
theorem headR_arg16 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg16 : DevRef Cert.ReferenceIdeal.τ Cert.ReferenceIdeal.sig) = V (Cert.ReferenceIdeal.main_arg16 : DevRef Cert.ReferenceIdeal.τ Cert.ReferenceIdeal.sig) :=
  headR_kept V Cert.ReferenceIdeal.main_arg16 (by decide)
theorem headR_arg17 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg17 : DevRef Cert.ReferenceIdeal.τ Cert.ReferenceIdeal.sig) = V (Cert.ReferenceIdeal.main_arg17 : DevRef Cert.ReferenceIdeal.τ Cert.ReferenceIdeal.sig) :=
  headR_kept V Cert.ReferenceIdeal.main_arg17 (by decide)
theorem headR_arg18 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg18 : DevRef Cert.ReferenceIdeal.τ Cert.ReferenceIdeal.sig) = V (Cert.ReferenceIdeal.main_arg18 : DevRef Cert.ReferenceIdeal.τ Cert.ReferenceIdeal.sig) :=
  headR_kept V Cert.ReferenceIdeal.main_arg18 (by decide)
theorem headR_arg19 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg19 : DevRef Cert.ReferenceIdeal.τ Cert.ReferenceIdeal.sig) = V (Cert.ReferenceIdeal.main_arg19 : DevRef Cert.ReferenceIdeal.τ Cert.ReferenceIdeal.sig) :=
  headR_kept V Cert.ReferenceIdeal.main_arg19 (by decide)
theorem headR_arg20 (V : Valuation Cert.ReferenceIdeal.τ Cert.ReferenceIdeal.sig (Elt F)) :
    StableHlo.after (headR : List (HloOp Cert.ReferenceIdeal.τ Cert.ReferenceIdeal.sig (Elt F))) V (Cert.ReferenceIdeal.main_arg20 : DevRef Cert.ReferenceIdeal.τ Cert.ReferenceIdeal.sig) = V (Cert.ReferenceIdeal.main_arg20 : DevRef Cert.ReferenceIdeal.τ Cert.ReferenceIdeal.sig) :=
  headR_kept V Cert.ReferenceIdeal.main_arg20 (by decide)
theorem tailK_arg0 (V : Valuation Cert.KernelIdeal.τ Cert.KernelIdeal.sig (Elt F)) :
    StableHlo.after (tailK : List (HloOp Cert.KernelIdeal.τ Cert.KernelIdeal.sig (Elt F))) V (Cert.KernelIdeal.main_arg0 : DevRef Cert.KernelIdeal.τ Cert.KernelIdeal.sig) = V (Cert.KernelIdeal.main_arg0 : DevRef Cert.KernelIdeal.τ Cert.KernelIdeal.sig) :=
  tailK_kept V Cert.KernelIdeal.main_arg0 (by decide)
theorem tailK_arg1 (V : Valuation Cert.KernelIdeal.τ Cert.KernelIdeal.sig (Elt F)) :
    StableHlo.after (tailK : List (HloOp Cert.KernelIdeal.τ Cert.KernelIdeal.sig (Elt F))) V (Cert.KernelIdeal.main_arg1 : DevRef Cert.KernelIdeal.τ Cert.KernelIdeal.sig) = V (Cert.KernelIdeal.main_arg1 : DevRef Cert.KernelIdeal.τ Cert.KernelIdeal.sig) :=
  tailK_kept V Cert.KernelIdeal.main_arg1 (by decide)
theorem tailK_arg2 (V : Valuation Cert.KernelIdeal.τ Cert.KernelIdeal.sig (Elt F)) :
    StableHlo.after (tailK : List (HloOp Cert.KernelIdeal.τ Cert.KernelIdeal.sig (Elt F))) V (Cert.KernelIdeal.main_arg2 : DevRef Cert.KernelIdeal.τ Cert.KernelIdeal.sig) = V (Cert.KernelIdeal.main_arg2 : DevRef Cert.KernelIdeal.τ Cert.KernelIdeal.sig) :=
  tailK_kept V Cert.KernelIdeal.main_arg2 (by decide)
theorem tailK_arg3 (V : Valuation Cert.KernelIdeal.τ Cert.KernelIdeal.sig (Elt F)) :
    StableHlo.after (tailK : List (HloOp Cert.KernelIdeal.τ Cert.KernelIdeal.sig (Elt F))) V (Cert.KernelIdeal.main_arg3 : DevRef Cert.KernelIdeal.τ Cert.KernelIdeal.sig) = V (Cert.KernelIdeal.main_arg3 : DevRef Cert.KernelIdeal.τ Cert.KernelIdeal.sig) :=
  tailK_kept V Cert.KernelIdeal.main_arg3 (by decide)
theorem tailK_arg4 (V : Valuation Cert.KernelIdeal.τ Cert.KernelIdeal.sig (Elt F)) :
    StableHlo.after (tailK : List (HloOp Cert.KernelIdeal.τ Cert.KernelIdeal.sig (Elt F))) V (Cert.KernelIdeal.main_arg4 : DevRef Cert.KernelIdeal.τ Cert.KernelIdeal.sig) = V (Cert.KernelIdeal.main_arg4 : DevRef Cert.KernelIdeal.τ Cert.KernelIdeal.sig) :=
  tailK_kept V Cert.KernelIdeal.main_arg4 (by decide)
theorem tailK_arg5 (V : Valuation Cert.KernelIdeal.τ Cert.KernelIdeal.sig (Elt F)) :
    StableHlo.after (tailK : List (HloOp Cert.KernelIdeal.τ Cert.KernelIdeal.sig (Elt F))) V (Cert.KernelIdeal.main_arg5 : DevRef Cert.KernelIdeal.τ Cert.KernelIdeal.sig) = V (Cert.KernelIdeal.main_arg5 : DevRef Cert.KernelIdeal.τ Cert.KernelIdeal.sig) :=
  tailK_kept V Cert.KernelIdeal.main_arg5 (by decide)
theorem tailK_arg6 (V : Valuation Cert.KernelIdeal.τ Cert.KernelIdeal.sig (Elt F)) :
    StableHlo.after (tailK : List (HloOp Cert.KernelIdeal.τ Cert.KernelIdeal.sig (Elt F))) V (Cert.KernelIdeal.main_arg6 : DevRef Cert.KernelIdeal.τ Cert.KernelIdeal.sig) = V (Cert.KernelIdeal.main_arg6 : DevRef Cert.KernelIdeal.τ Cert.KernelIdeal.sig) :=
  tailK_kept V Cert.KernelIdeal.main_arg6 (by decide)
theorem tailK_arg7 (V : Valuation Cert.KernelIdeal.τ Cert.KernelIdeal.sig (Elt F)) :
    StableHlo.after (tailK : List (HloOp Cert.KernelIdeal.τ Cert.KernelIdeal.sig (Elt F))) V (Cert.KernelIdeal.main_arg7 : DevRef Cert.KernelIdeal.τ Cert.KernelIdeal.sig) = V (Cert.KernelIdeal.main_arg7 : DevRef Cert.KernelIdeal.τ Cert.KernelIdeal.sig) :=
  tailK_kept V Cert.KernelIdeal.main_arg7 (by decide)
theorem tailK_arg8 (V : Valuation Cert.KernelIdeal.τ Cert.KernelIdeal.sig (Elt F)) :
    StableHlo.after (tailK : List (HloOp Cert.KernelIdeal.τ Cert.KernelIdeal.sig (Elt F))) V (Cert.KernelIdeal.main_arg8 : DevRef Cert.KernelIdeal.τ Cert.KernelIdeal.sig) = V (Cert.KernelIdeal.main_arg8 : DevRef Cert.KernelIdeal.τ Cert.KernelIdeal.sig) :=
  tailK_kept V Cert.KernelIdeal.main_arg8 (by decide)
theorem tailK_arg9 (V : Valuation Cert.KernelIdeal.τ Cert.KernelIdeal.sig (Elt F)) :
    StableHlo.after (tailK : List (HloOp Cert.KernelIdeal.τ Cert.KernelIdeal.sig (Elt F))) V (Cert.KernelIdeal.main_arg9 : DevRef Cert.KernelIdeal.τ Cert.KernelIdeal.sig) = V (Cert.KernelIdeal.main_arg9 : DevRef Cert.KernelIdeal.τ Cert.KernelIdeal.sig) :=
  tailK_kept V Cert.KernelIdeal.main_arg9 (by decide)
theorem tailK_arg10 (V : Valuation Cert.KernelIdeal.τ Cert.KernelIdeal.sig (Elt F)) :
    StableHlo.after (tailK : List (HloOp Cert.KernelIdeal.τ Cert.KernelIdeal.sig (Elt F))) V (Cert.KernelIdeal.main_arg10 : DevRef Cert.KernelIdeal.τ Cert.KernelIdeal.sig) = V (Cert.KernelIdeal.main_arg10 : DevRef Cert.KernelIdeal.τ Cert.KernelIdeal.sig) :=
  tailK_kept V Cert.KernelIdeal.main_arg10 (by decide)
theorem tailK_arg11 (V : Valuation Cert.KernelIdeal.τ Cert.KernelIdeal.sig (Elt F)) :
    StableHlo.after (tailK : List (HloOp Cert.KernelIdeal.τ Cert.KernelIdeal.sig (Elt F))) V (Cert.KernelIdeal.main_arg11 : DevRef Cert.KernelIdeal.τ Cert.KernelIdeal.sig) = V (Cert.KernelIdeal.main_arg11 : DevRef Cert.KernelIdeal.τ Cert.KernelIdeal.sig) :=
  tailK_kept V Cert.KernelIdeal.main_arg11 (by decide)
theorem tailK_arg12 (V : Valuation Cert.KernelIdeal.τ Cert.KernelIdeal.sig (Elt F)) :
    StableHlo.after (tailK : List (HloOp Cert.KernelIdeal.τ Cert.KernelIdeal.sig (Elt F))) V (Cert.KernelIdeal.main_arg12 : DevRef Cert.KernelIdeal.τ Cert.KernelIdeal.sig) = V (Cert.KernelIdeal.main_arg12 : DevRef Cert.KernelIdeal.τ Cert.KernelIdeal.sig) :=
  tailK_kept V Cert.KernelIdeal.main_arg12 (by decide)
theorem tailK_arg13 (V : Valuation Cert.KernelIdeal.τ Cert.KernelIdeal.sig (Elt F)) :
    StableHlo.after (tailK : List (HloOp Cert.KernelIdeal.τ Cert.KernelIdeal.sig (Elt F))) V (Cert.KernelIdeal.main_arg13 : DevRef Cert.KernelIdeal.τ Cert.KernelIdeal.sig) = V (Cert.KernelIdeal.main_arg13 : DevRef Cert.KernelIdeal.τ Cert.KernelIdeal.sig) :=
  tailK_kept V Cert.KernelIdeal.main_arg13 (by decide)
theorem tailK_arg14 (V : Valuation Cert.KernelIdeal.τ Cert.KernelIdeal.sig (Elt F)) :
    StableHlo.after (tailK : List (HloOp Cert.KernelIdeal.τ Cert.KernelIdeal.sig (Elt F))) V (Cert.KernelIdeal.main_arg14 : DevRef Cert.KernelIdeal.τ Cert.KernelIdeal.sig) = V (Cert.KernelIdeal.main_arg14 : DevRef Cert.KernelIdeal.τ Cert.KernelIdeal.sig) :=
  tailK_kept V Cert.KernelIdeal.main_arg14 (by decide)
theorem tailK_arg15 (V : Valuation Cert.KernelIdeal.τ Cert.KernelIdeal.sig (Elt F)) :
    StableHlo.after (tailK : List (HloOp Cert.KernelIdeal.τ Cert.KernelIdeal.sig (Elt F))) V (Cert.KernelIdeal.main_arg15 : DevRef Cert.KernelIdeal.τ Cert.KernelIdeal.sig) = V (Cert.KernelIdeal.main_arg15 : DevRef Cert.KernelIdeal.τ Cert.KernelIdeal.sig) :=
  tailK_kept V Cert.KernelIdeal.main_arg15 (by decide)
theorem tailK_arg16 (V : Valuation Cert.KernelIdeal.τ Cert.KernelIdeal.sig (Elt F)) :
    StableHlo.after (tailK : List (HloOp Cert.KernelIdeal.τ Cert.KernelIdeal.sig (Elt F))) V (Cert.KernelIdeal.main_arg16 : DevRef Cert.KernelIdeal.τ Cert.KernelIdeal.sig) = V (Cert.KernelIdeal.main_arg16 : DevRef Cert.KernelIdeal.τ Cert.KernelIdeal.sig) :=
  tailK_kept V Cert.KernelIdeal.main_arg16 (by decide)
theorem tailK_arg17 (V : Valuation Cert.KernelIdeal.τ Cert.KernelIdeal.sig (Elt F)) :
    StableHlo.after (tailK : List (HloOp Cert.KernelIdeal.τ Cert.KernelIdeal.sig (Elt F))) V (Cert.KernelIdeal.main_arg17 : DevRef Cert.KernelIdeal.τ Cert.KernelIdeal.sig) = V (Cert.KernelIdeal.main_arg17 : DevRef Cert.KernelIdeal.τ Cert.KernelIdeal.sig) :=
  tailK_kept V Cert.KernelIdeal.main_arg17 (by decide)
theorem tailK_arg18 (V : Valuation Cert.KernelIdeal.τ Cert.KernelIdeal.sig (Elt F)) :
    StableHlo.after (tailK : List (HloOp Cert.KernelIdeal.τ Cert.KernelIdeal.sig (Elt F))) V (Cert.KernelIdeal.main_arg18 : DevRef Cert.KernelIdeal.τ Cert.KernelIdeal.sig) = V (Cert.KernelIdeal.main_arg18 : DevRef Cert.KernelIdeal.τ Cert.KernelIdeal.sig) :=
  tailK_kept V Cert.KernelIdeal.main_arg18 (by decide)
theorem tailK_arg19 (V : Valuation Cert.KernelIdeal.τ Cert.KernelIdeal.sig (Elt F)) :
    StableHlo.after (tailK : List (HloOp Cert.KernelIdeal.τ Cert.KernelIdeal.sig (Elt F))) V (Cert.KernelIdeal.main_arg19 : DevRef Cert.KernelIdeal.τ Cert.KernelIdeal.sig) = V (Cert.KernelIdeal.main_arg19 : DevRef Cert.KernelIdeal.τ Cert.KernelIdeal.sig) :=
  tailK_kept V Cert.KernelIdeal.main_arg19 (by decide)
theorem tailK_arg20 (V : Valuation Cert.KernelIdeal.τ Cert.KernelIdeal.sig (Elt F)) :
    StableHlo.after (tailK : List (HloOp Cert.KernelIdeal.τ Cert.KernelIdeal.sig (Elt F))) V (Cert.KernelIdeal.main_arg20 : DevRef Cert.KernelIdeal.τ Cert.KernelIdeal.sig) = V (Cert.KernelIdeal.main_arg20 : DevRef Cert.KernelIdeal.τ Cert.KernelIdeal.sig) :=
  tailK_kept V Cert.KernelIdeal.main_arg20 (by decide)

/-- The region's second result is written by no operation of the kernel's host suffix. -/
theorem tail_keeps (WK : Valuation Cert.KernelIdeal.τ Cert.KernelIdeal.sig (Elt F)) :
    StableHlo.after (tailK : List (HloOp Cert.KernelIdeal.τ Cert.KernelIdeal.sig (Elt F))) WK (Cert.KernelIdeal.main_v72_1 : DevRef Cert.KernelIdeal.τ Cert.KernelIdeal.sig)
      = WK (Cert.KernelIdeal.main_v72_1 : DevRef Cert.KernelIdeal.τ Cert.KernelIdeal.sig) :=
  tailK_kept WK Cert.KernelIdeal.main_v72_1 (by decide)

/-! ## The kernel's window arrays as the host prefix leaves them -/

section K
open Cert.KernelIdeal Cert.KernelIdeal.Gen
theorem hostOps0_4_main_v64 (V : Valuation τ sig (Elt F)) :
    StableHlo.after (hostOps0_4 : List (HloOp τ sig (Elt F))) V (main_v64 : DevRef τ sig) = truncf .bf16 (V (main_arg11 : DevRef τ sig)) bitsLt_bf16_f32 := by
  after_results_simp
/-- The kernel's host prefix leaves the weight's conversion to bf16 in this window array. -/
theorem headK_main_v64 (WK : Valuation τ sig (Elt F)) :
    StableHlo.after (headK : List (HloOp τ sig (Elt F))) WK (main_v64 : DevRef τ sig) = truncf .bf16 (WK (main_arg11 : DevRef τ sig)) bitsLt_bf16_f32 := by
  rw [headK_split, after_append, hostOps0_4_main_v64, headK0_kept WK main_arg11 (by decide)]
theorem hostOps0_4_main_v65 (V : Valuation τ sig (Elt F)) :
    StableHlo.after (hostOps0_4 : List (HloOp τ sig (Elt F))) V (main_v65 : DevRef τ sig) = truncf .bf16 (V (main_arg13 : DevRef τ sig)) bitsLt_bf16_f32 := by
  after_results_simp
/-- The kernel's host prefix leaves the weight's conversion to bf16 in this window array. -/
theorem headK_main_v65 (WK : Valuation τ sig (Elt F)) :
    StableHlo.after (headK : List (HloOp τ sig (Elt F))) WK (main_v65 : DevRef τ sig) = truncf .bf16 (WK (main_arg13 : DevRef τ sig)) bitsLt_bf16_f32 := by
  rw [headK_split, after_append, hostOps0_4_main_v65, headK0_kept WK main_arg13 (by decide)]
theorem hostOps0_4_main_v66 (V : Valuation τ sig (Elt F)) :
    StableHlo.after (hostOps0_4 : List (HloOp τ sig (Elt F))) V (main_v66 : DevRef τ sig) = truncf .bf16 (V (main_arg15 : DevRef τ sig)) bitsLt_bf16_f32 := by
  after_results_simp
/-- The kernel's host prefix leaves the weight's conversion to bf16 in this window array. -/
theorem headK_main_v66 (WK : Valuation τ sig (Elt F)) :
    StableHlo.after (headK : List (HloOp τ sig (Elt F))) WK (main_v66 : DevRef τ sig) = truncf .bf16 (WK (main_arg15 : DevRef τ sig)) bitsLt_bf16_f32 := by
  rw [headK_split, after_append, hostOps0_4_main_v66, headK0_kept WK main_arg15 (by decide)]
theorem hostOps0_4_main_v67 (V : Valuation τ sig (Elt F)) :
    StableHlo.after (hostOps0_4 : List (HloOp τ sig (Elt F))) V (main_v67 : DevRef τ sig) = truncf .bf16 (V (main_arg17 : DevRef τ sig)) bitsLt_bf16_f32 := by
  after_results_simp
/-- The kernel's host prefix leaves the weight's conversion to bf16 in this window array. -/
theorem headK_main_v67 (WK : Valuation τ sig (Elt F)) :
    StableHlo.after (headK : List (HloOp τ sig (Elt F))) WK (main_v67 : DevRef τ sig) = truncf .bf16 (WK (main_arg17 : DevRef τ sig)) bitsLt_bf16_f32 := by
  rw [headK_split, after_append, hostOps0_4_main_v67, headK0_kept WK main_arg17 (by decide)]
theorem hostOps0_4_main_v68 (V : Valuation τ sig (Elt F)) :
    StableHlo.after (hostOps0_4 : List (HloOp τ sig (Elt F))) V (main_v68 : DevRef τ sig) = shapeCast S1x32 (V (main_arg12 : DevRef τ sig)) shapeCasts_S32_S1x32 := by
  after_results_simp
  rfl
/-- The kernel's host prefix leaves the bias, reshaped to one row, in this window array. -/
theorem headK_main_v68 (WK : Valuation τ sig (Elt F)) :
    StableHlo.after (headK : List (HloOp τ sig (Elt F))) WK (main_v68 : DevRef τ sig) = shapeCast S1x32 (WK (main_arg12 : DevRef τ sig)) shapeCasts_S32_S1x32 := by
  rw [headK_split, after_append, hostOps0_4_main_v68, headK0_kept WK main_arg12 (by decide)]
theorem hostOps0_4_main_v69 (V : Valuation τ sig (Elt F)) :
    StableHlo.after (hostOps0_4 : List (HloOp τ sig (Elt F))) V (main_v69 : DevRef τ sig) = shapeCast S1x32 (V (main_arg14 : DevRef τ sig)) shapeCasts_S32_S1x32 := by
  after_results_simp
  rfl
/-- The kernel's host prefix leaves the bias, reshaped to one row, in this window array. -/
theorem headK_main_v69 (WK : Valuation τ sig (Elt F)) :
    StableHlo.after (headK : List (HloOp τ sig (Elt F))) WK (main_v69 : DevRef τ sig) = shapeCast S1x32 (WK (main_arg14 : DevRef τ sig)) shapeCasts_S32_S1x32 := by
  rw [headK_split, after_append, hostOps0_4_main_v69, headK0_kept WK main_arg14 (by decide)]
theorem hostOps0_4_main_v70 (V : Valuation τ sig (Elt F)) :
    StableHlo.after (hostOps0_4 : List (HloOp τ sig (Elt F))) V (main_v70 : DevRef τ sig) = shapeCast S1x32 (V (main_arg16 : DevRef τ sig)) shapeCasts_S32_S1x32 := by
  after_results_simp
  rfl
/-- The kernel's host prefix leaves the bias, reshaped to one row, in this window array. -/
theorem headK_main_v70 (WK : Valuation τ sig (Elt F)) :
    StableHlo.after (headK : List (HloOp τ sig (Elt F))) WK (main_v70 : DevRef τ sig) = shapeCast S1x32 (WK (main_arg16 : DevRef τ sig)) shapeCasts_S32_S1x32 := by
  rw [headK_split, after_append, hostOps0_4_main_v70, headK0_kept WK main_arg16 (by decide)]
theorem hostOps0_4_main_v71 (V : Valuation τ sig (Elt F)) :
    StableHlo.after (hostOps0_4 : List (HloOp τ sig (Elt F))) V (main_v71 : DevRef τ sig) = shapeCast S1x8192 (V (main_arg18 : DevRef τ sig)) shapeCasts_S8192_S1x8192 := by
  after_results_simp
  rfl
/-- The kernel's host prefix leaves the bias, reshaped to one row, in this window array. -/
theorem headK_main_v71 (WK : Valuation τ sig (Elt F)) :
    StableHlo.after (headK : List (HloOp τ sig (Elt F))) WK (main_v71 : DevRef τ sig) = shapeCast S1x8192 (WK (main_arg18 : DevRef τ sig)) shapeCasts_S8192_S1x8192 := by
  rw [headK_split, after_append, hostOps0_4_main_v71, headK0_kept WK main_arg18 (by decide)]

end K

/-! ## The reference's dense layers -/

section R
open Cert.ReferenceIdeal Cert.ReferenceIdeal.Gen
theorem rB_v67 (V : Valuation τ sig (Elt F)) :
    StableHlo.after (Hand.rB : List (HloOp τ sig (Elt F))) V (main_v67 : DevRef τ sig)
      = addf (Host.dotGeneral dot_S8192x8192_S8192x32_S8192x32_1_0_0_1_n_n none (V (main_arg0 : DevRef τ sig)) (V (main_arg11 : DevRef τ sig)))
        (broadcastInDim S8192x32 ![0, 1] bcast_S1x32_S8192x32_0_1 (broadcastInDim S1x32 ![1] bcast_S32_S1x32_1 (V (main_arg12 : DevRef τ sig)))) := by
  after_results_simp
/-- The reference's first dense layer: the head leaves `arg0 · arg11 + arg12` (the bias broadcast along the rows) in main_v67. -/
theorem ref_b0 (WR : Valuation τ sig (Elt F)) :
    StableHlo.after (headR : List (HloOp τ sig (Elt F))) WR (main_v67 : DevRef τ sig)
      = addf (Host.dotGeneral dot_S8192x8192_S8192x32_S8192x32_1_0_0_1_n_n none (WR (main_arg0 : DevRef τ sig)) (WR (main_arg11 : DevRef τ sig)))
        (broadcastInDim S8192x32 ![0, 1] bcast_S1x32_S8192x32_0_1 (broadcastInDim S1x32 ![1] bcast_S32_S1x32_1 (WR (main_arg12 : DevRef τ sig)))) := by
  rw [headR_split, after_append, rB_v67, headR0_kept WR main_arg0 (by decide), headR0_kept WR main_arg11 (by decide),
    headR0_kept WR main_arg12 (by decide)]
theorem rD_v137 (V : Valuation τ sig (Elt F)) :
    StableHlo.after (Hand.rD : List (HloOp τ sig (Elt F))) V (main_v137 : DevRef τ sig)
      = addf (Host.dotGeneral dot_S8192x32_S32x8192_S8192x8192_1_0_0_1_n_n none (addf (Host.dotGeneral dot_S8192x32_S32x32_S8192x32_1_0_0_1_n_n none (addf (Host.dotGeneral dot_S8192x32_S32x32_S8192x32_1_0_0_1_n_n none (V (main_v67 : DevRef τ sig)) (V (main_arg13 : DevRef τ sig)))
        (broadcastInDim S8192x32 ![0, 1] bcast_S1x32_S8192x32_0_1 (broadcastInDim S1x32 ![1] bcast_S32_S1x32_1 (V (main_arg14 : DevRef τ sig))))) (V (main_arg15 : DevRef τ sig)))
        (broadcastInDim S8192x32 ![0, 1] bcast_S1x32_S8192x32_0_1 (broadcastInDim S1x32 ![1] bcast_S32_S1x32_1 (V (main_arg16 : DevRef τ sig))))) (V (main_arg17 : DevRef τ sig)))
        (broadcastInDim S8192x8192 ![0, 1] bcast_S1x8192_S8192x8192_0_1 (broadcastInDim S1x8192 ![1] bcast_S8192_S1x8192_1 (V (main_arg18 : DevRef τ sig)))) := by
  after_results_simp
/-- The reference's remaining three dense layers: the tail leaves them, composed over main_v67 and the six weight and bias
    arguments, in main_v137. -/
theorem ref_b3 (WR : Valuation τ sig (Elt F)) :
    StableHlo.after (tailR : List (HloOp τ sig (Elt F))) WR (main_v137 : DevRef τ sig)
      = addf (Host.dotGeneral dot_S8192x32_S32x8192_S8192x8192_1_0_0_1_n_n none (addf (Host.dotGeneral dot_S8192x32_S32x32_S8192x32_1_0_0_1_n_n none (addf (Host.dotGeneral dot_S8192x32_S32x32_S8192x32_1_0_0_1_n_n none (WR (main_v67 : DevRef τ sig)) (WR (main_arg13 : DevRef τ sig)))
        (broadcastInDim S8192x32 ![0, 1] bcast_S1x32_S8192x32_0_1 (broadcastInDim S1x32 ![1] bcast_S32_S1x32_1 (WR (main_arg14 : DevRef τ sig))))) (WR (main_arg15 : DevRef τ sig)))
        (broadcastInDim S8192x32 ![0, 1] bcast_S1x32_S8192x32_0_1 (broadcastInDim S1x32 ![1] bcast_S32_S1x32_1 (WR (main_arg16 : DevRef τ sig))))) (WR (main_arg17 : DevRef τ sig)))
        (broadcastInDim S8192x8192 ![0, 1] bcast_S1x8192_S8192x8192_0_1 (broadcastInDim S1x8192 ![1] bcast_S8192_S1x8192_1 (WR (main_arg18 : DevRef τ sig)))) := by
  rw [tailR_split, after_append, after_append, tailRE_kept _ main_v137 (by decide), rD_v137,
    tailR0_kept WR main_v67 (by decide), tailR0_kept WR main_arg13 (by decide), tailR0_kept WR main_arg14 (by decide),
    tailR0_kept WR main_arg15 (by decide), tailR0_kept WR main_arg16 (by decide), tailR0_kept WR main_arg17 (by decide),
    tailR0_kept WR main_arg18 (by decide)]

end R

end Cert.Bridge

end
-- ==== Proof.HostBridgeHead.lean ====
import proofs.«105389_j88072599372111_1_alg».proof.Proof.HostBridge

noncomputable section

namespace Cert.Bridge

open Idealize.ShloMosaic Idealize.ShloMosaic.TcCoe Idealize.SL.Sem

variable {F : FTy → Type} [FloatOps F]

set_option maxRecDepth 8192

/-! ## The first layer: the kernel's host prefix and the reference's head compute the same hidden state

Both lines are the same operations on corresponding buffers; read as one term over the arguments each side is the
same tree of the same functions, the two programs' shape names, dimension records and side-condition proofs being equal
by unfolding. -/

attribute [local irreducible] Host.scatterAdd Host.gather Host.reduceAdd concatenate Host.rsqrt Host.divf broadcastInDim extractStridedSlice shapeCast in
set_option maxHeartbeats 1000000 in
/-- The source indices of the edges with the self loops appended. -/
theorem head_v3 (WK : Valuation Cert.KernelIdeal.τ Cert.KernelIdeal.sig (Elt F)) (WR : Valuation Cert.ReferenceIdeal.τ Cert.ReferenceIdeal.sig (Elt F))
    (h1 : WK (Cert.KernelIdeal.main_arg1 : DevRef Cert.KernelIdeal.τ Cert.KernelIdeal.sig) = WR (Cert.ReferenceIdeal.main_arg1 : DevRef Cert.ReferenceIdeal.τ Cert.ReferenceIdeal.sig))
    (h2 : WK (Cert.KernelIdeal.main_arg2 : DevRef Cert.KernelIdeal.τ Cert.KernelIdeal.sig) = WR (Cert.ReferenceIdeal.main_arg2 : DevRef Cert.ReferenceIdeal.τ Cert.ReferenceIdeal.sig))
    (h3 : WK (Cert.KernelIdeal.main_arg3 : DevRef Cert.KernelIdeal.τ Cert.KernelIdeal.sig) = WR (Cert.ReferenceIdeal.main_arg3 : DevRef Cert.ReferenceIdeal.τ Cert.ReferenceIdeal.sig))
    (h4 : WK (Cert.KernelIdeal.main_arg4 : DevRef Cert.KernelIdeal.τ Cert.KernelIdeal.sig) = WR (Cert.ReferenceIdeal.main_arg4 : DevRef Cert.ReferenceIdeal.τ Cert.ReferenceIdeal.sig))
    (h7 : WK (Cert.KernelIdeal.main_arg7 : DevRef Cert.KernelIdeal.τ Cert.KernelIdeal.sig) = WR (Cert.ReferenceIdeal.main_arg7 : DevRef Cert.ReferenceIdeal.τ Cert.ReferenceIdeal.sig))
    (h8 : WK (Cert.KernelIdeal.main_arg8 : DevRef Cert.KernelIdeal.τ Cert.KernelIdeal.sig) = WR (Cert.ReferenceIdeal.main_arg8 : DevRef Cert.ReferenceIdeal.τ Cert.ReferenceIdeal.sig)) :
    StableHlo.after headK WK (Cert.KernelIdeal.main_v3 : DevRef Cert.KernelIdeal.τ Cert.KernelIdeal.sig)
      = StableHlo.after headR WR (Cert.ReferenceIdeal.main_v3 : DevRef Cert.ReferenceIdeal.τ Cert.ReferenceIdeal.sig) := by
  simp only [headK, headR, List.flatten_cons, List.flatten_nil, List.append_nil, List.cons_append, List.nil_append]
  results_simp [h2]
  rfl

attribute [local irreducible] Host.scatterAdd Host.gather Host.reduceAdd concatenate Host.rsqrt Host.divf broadcastInDim extractStridedSlice shapeCast in
set_option maxHeartbeats 1000000 in
/-- The target indices of the edges with the self loops appended. -/
theorem head_v6 (WK : Valuation Cert.KernelIdeal.τ Cert.KernelIdeal.sig (Elt F)) (WR : Valuation Cert.ReferenceIdeal.τ Cert.ReferenceIdeal.sig (Elt F))
    (h1 : WK (Cert.KernelIdeal.main_arg1 : DevRef Cert.KernelIdeal.τ Cert.KernelIdeal.sig) = WR (Cert.ReferenceIdeal.main_arg1 : DevRef Cert.ReferenceIdeal.τ Cert.ReferenceIdeal.sig))
    (h2 : WK (Cert.KernelIdeal.main_arg2 : DevRef Cert.KernelIdeal.τ Cert.KernelIdeal.sig) = WR (Cert.ReferenceIdeal.main_arg2 : DevRef Cert.ReferenceIdeal.τ Cert.ReferenceIdeal.sig))
    (h3 : WK (Cert.KernelIdeal.main_arg3 : DevRef Cert.KernelIdeal.τ Cert.KernelIdeal.sig) = WR (Cert.ReferenceIdeal.main_arg3 : DevRef Cert.ReferenceIdeal.τ Cert.ReferenceIdeal.sig))
    (h4 : WK (Cert.KernelIdeal.main_arg4 : DevRef Cert.KernelIdeal.τ Cert.KernelIdeal.sig) = WR (Cert.ReferenceIdeal.main_arg4 : DevRef Cert.ReferenceIdeal.τ Cert.ReferenceIdeal.sig))
    (h7 : WK (Cert.KernelIdeal.main_arg7 : DevRef Cert.KernelIdeal.τ Cert.KernelIdeal.sig) = WR (Cert.ReferenceIdeal.main_arg7 : DevRef Cert.ReferenceIdeal.τ Cert.ReferenceIdeal.sig))
    (h8 : WK (Cert.KernelIdeal.main_arg8 : DevRef Cert.KernelIdeal.τ Cert.KernelIdeal.sig) = WR (Cert.ReferenceIdeal.main_arg8 : DevRef Cert.ReferenceIdeal.τ Cert.ReferenceIdeal.sig)) :
    StableHlo.after headK WK (Cert.KernelIdeal.main_v6 : DevRef Cert.KernelIdeal.τ Cert.KernelIdeal.sig)
      = StableHlo.after headR WR (Cert.ReferenceIdeal.main_v6 : DevRef Cert.ReferenceIdeal.τ Cert.ReferenceIdeal.sig) := by
  simp only [headK, headR, List.flatten_cons, List.flatten_nil, List.append_nil, List.cons_append, List.nil_append]
  results_simp [h2]
  rfl

attribute [local irreducible] Host.scatterAdd Host.gather Host.reduceAdd concatenate Host.rsqrt Host.divf broadcastInDim extractStridedSlice shapeCast in
set_option maxHeartbeats 1000000 in
/-- The first layer's hidden state: graph convolution, batch normalisation, relu. -/
theorem head_v63 (WK : Valuation Cert.KernelIdeal.τ Cert.KernelIdeal.sig (Elt F)) (WR : Valuation Cert.ReferenceIdeal.τ Cert.ReferenceIdeal.sig (Elt F))
    (h1 : WK (Cert.KernelIdeal.main_arg1 : DevRef Cert.KernelIdeal.τ Cert.KernelIdeal.sig) = WR (Cert.ReferenceIdeal.main_arg1 : DevRef Cert.ReferenceIdeal.τ Cert.ReferenceIdeal.sig))
    (h2 : WK (Cert.KernelIdeal.main_arg2 : DevRef Cert.KernelIdeal.τ Cert.KernelIdeal.sig) = WR (Cert.ReferenceIdeal.main_arg2 : DevRef Cert.ReferenceIdeal.τ Cert.ReferenceIdeal.sig))
    (h3 : WK (Cert.KernelIdeal.main_arg3 : DevRef Cert.KernelIdeal.τ Cert.KernelIdeal.sig) = WR (Cert.ReferenceIdeal.main_arg3 : DevRef Cert.ReferenceIdeal.τ Cert.ReferenceIdeal.sig))
    (h4 : WK (Cert.KernelIdeal.main_arg4 : DevRef Cert.KernelIdeal.τ Cert.KernelIdeal.sig) = WR (Cert.ReferenceIdeal.main_arg4 : DevRef Cert.ReferenceIdeal.τ Cert.ReferenceIdeal.sig))
    (h7 : WK (Cert.KernelIdeal.main_arg7 : DevRef Cert.KernelIdeal.τ Cert.KernelIdeal.sig) = WR (Cert.ReferenceIdeal.main_arg7 : DevRef Cert.ReferenceIdeal.τ Cert.ReferenceIdeal.sig))
    (h8 : WK (Cert.KernelIdeal.main_arg8 : DevRef Cert.KernelIdeal.τ Cert.KernelIdeal.sig) = WR (Cert.ReferenceIdeal.main_arg8 : DevRef Cert.ReferenceIdeal.τ Cert.ReferenceIdeal.sig)) :
    StableHlo.after headK WK (Cert.KernelIdeal.main_v63 : DevRef Cert.KernelIdeal.τ Cert.KernelIdeal.sig)
      = StableHlo.after headR WR (Cert.ReferenceIdeal.main_v63 : DevRef Cert.ReferenceIdeal.τ Cert.ReferenceIdeal.sig) := by
  simp only [headK, headR, List.flatten_cons, List.flatten_nil, List.append_nil, List.cons_append, List.nil_append]
  results_simp [h1, h2, h3, h4, h7, h8]
  rfl

end Cert.Bridge

end
-- ==== Proof.HostBridgeTail.lean ====
import proofs.«105389_j88072599372111_1_alg».proof.Proof.HostBridge

noncomputable section

namespace Cert.Bridge

open Idealize.ShloMosaic Idealize.ShloMosaic.TcCoe Idealize.SL.Sem

variable {F : FTy → Type} [FloatOps F]

set_option maxRecDepth 8192

/-! ## The second layer and the classifier: the kernel's host suffix and the reference's tail compute the same output

The kernel's suffix reads the first dense layer's output from the region's first result, the reference's tail from its
own dense layer's result; given those equal (and the first layer's state, the edge indices and the arguments), the two
lines are the same operations on corresponding buffers. The reference's three further dense layers write buffers the
output does not read. -/

attribute [local irreducible] Host.scatterAdd Host.gather Host.reduceAdd concatenate Host.rsqrt Host.divf broadcastInDim extractStridedSlice shapeCast in
set_option maxHeartbeats 1000000 in
/-- The program's output: log-softmax of the classifier on the two hidden states joined. -/
theorem tail_out (WK : Valuation Cert.KernelIdeal.τ Cert.KernelIdeal.sig (Elt F)) (WR : Valuation Cert.ReferenceIdeal.τ Cert.ReferenceIdeal.sig (Elt F))
    (hv63 : WK (Cert.KernelIdeal.main_v63 : DevRef Cert.KernelIdeal.τ Cert.KernelIdeal.sig) = WR (Cert.ReferenceIdeal.main_v63 : DevRef Cert.ReferenceIdeal.τ Cert.ReferenceIdeal.sig))
    (hv72 : WK (Cert.KernelIdeal.main_v72_0 : DevRef Cert.KernelIdeal.τ Cert.KernelIdeal.sig) = WR (Cert.ReferenceIdeal.main_v67 : DevRef Cert.ReferenceIdeal.τ Cert.ReferenceIdeal.sig))
    (hv3 : WK (Cert.KernelIdeal.main_v3 : DevRef Cert.KernelIdeal.τ Cert.KernelIdeal.sig) = WR (Cert.ReferenceIdeal.main_v3 : DevRef Cert.ReferenceIdeal.τ Cert.ReferenceIdeal.sig))
    (hv6 : WK (Cert.KernelIdeal.main_v6 : DevRef Cert.KernelIdeal.τ Cert.KernelIdeal.sig) = WR (Cert.ReferenceIdeal.main_v6 : DevRef Cert.ReferenceIdeal.τ Cert.ReferenceIdeal.sig))
    (h5 : WK (Cert.KernelIdeal.main_arg5 : DevRef Cert.KernelIdeal.τ Cert.KernelIdeal.sig) = WR (Cert.ReferenceIdeal.main_arg5 : DevRef Cert.ReferenceIdeal.τ Cert.ReferenceIdeal.sig))
    (h6 : WK (Cert.KernelIdeal.main_arg6 : DevRef Cert.KernelIdeal.τ Cert.KernelIdeal.sig) = WR (Cert.ReferenceIdeal.main_arg6 : DevRef Cert.ReferenceIdeal.τ Cert.ReferenceIdeal.sig))
    (h9 : WK (Cert.KernelIdeal.main_arg9 : DevRef Cert.KernelIdeal.τ Cert.KernelIdeal.sig) = WR (Cert.ReferenceIdeal.main_arg9 : DevRef Cert.ReferenceIdeal.τ Cert.ReferenceIdeal.sig))
    (h10 : WK (Cert.KernelIdeal.main_arg10 : DevRef Cert.KernelIdeal.τ Cert.KernelIdeal.sig) = WR (Cert.ReferenceIdeal.main_arg10 : DevRef Cert.ReferenceIdeal.τ Cert.ReferenceIdeal.sig))
    (h19 : WK (Cert.KernelIdeal.main_arg19 : DevRef Cert.KernelIdeal.τ Cert.KernelIdeal.sig) = WR (Cert.ReferenceIdeal.main_arg19 : DevRef Cert.ReferenceIdeal.τ Cert.ReferenceIdeal.sig))
    (h20 : WK (Cert.KernelIdeal.main_arg20 : DevRef Cert.KernelIdeal.τ Cert.KernelIdeal.sig) = WR (Cert.ReferenceIdeal.main_arg20 : DevRef Cert.ReferenceIdeal.τ Cert.ReferenceIdeal.sig)) :
    StableHlo.after tailK WK (Cert.KernelIdeal.main_v136 : DevRef Cert.KernelIdeal.τ Cert.KernelIdeal.sig)
      = StableHlo.after tailR WR (Cert.ReferenceIdeal.main_v143 : DevRef Cert.ReferenceIdeal.τ Cert.ReferenceIdeal.sig) := by
  simp only [tailK, tailR, List.flatten_cons, List.flatten_nil, List.append_nil, List.cons_append, List.nil_append]
  results_simp [hv63, hv72, hv3, hv6, h5, h6, h9, h10, h19, h20]
  rfl

end Cert.Bridge

end
-- ==== Proof.Bridge.lean ====
/-
  The algebraic claim assembled.

  From launch memories that agree on the arguments: the kernel program's run leaves the classifier's log-softmax at
  what its later host operations compute from the region's exit contents, and the chain's last layer at the four
  dense layers on the whole matrix; the reference's run leaves each result at its operations' fold over the launch
  memory.  The two classifier results are equal because the host operations around the region and the reference's
  are the same operations on buffers holding equal contents — the first hidden state and the edge index vectors by
  the shared first layer, the first dense layer by the block-by-block reading of the region against the reference's
  one contraction with the bias broadcast to every row; no finiteness is used anywhere (sums are only re-read, never
  re-arranged).
-/
import proofs.«105389_j88072599372111_1_alg».proof.Defs
import proofs.«105389_j88072599372111_1_alg».proof.Proof.Gen.Pre_finite_inputs
import proofs.«105389_j88072599372111_1_alg».proof.Proof.KIValue
import proofs.«105389_j88072599372111_1_alg».proof.Proof.RefRun
import proofs.«105389_j88072599372111_1_alg».proof.Proof.HostBridge
import proofs.«105389_j88072599372111_1_alg».proof.Proof.HostBridgeKeep
import proofs.«105389_j88072599372111_1_alg».proof.Proof.HostBridgeHead
import proofs.«105389_j88072599372111_1_alg».proof.Proof.HostBridgeTail
import proofs.«105389_j88072599372111_1_alg».proof.Proof.DenseTile

set_option maxRecDepth 16384

noncomputable section

namespace Cert.Bridge

open Idealize.ShloMosaic Idealize.ShloMosaic.TcCoe Idealize.SL.Sem
open Cert.LibGraphConv Cert.DenseChain

/-- The agreement of the two launch memories on the arguments, as the claim states it. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

/-- A dense layer of equal operands is equal. -/
theorem denseOut_congr3 {E A N : ℕ} {h h' : FVec Ideal ⟨2, ![E, A]⟩ .f32} {w w' : FVec Ideal ⟨2, ![A, N]⟩ .f32}
    {b b' : FVec Ideal ⟨2, ![1, N]⟩ .f32} (e1 : h = h') (e2 : w = w') (e3 : b = b') : denseOut h w b = denseOut h' w' b' := by
  subst e1 e2 e3; rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The region finds an argument as launched, and so as the reference's memory has it. -/
theorem V_arg (hag : Agree m m') (c : Dev Cert.KernelIdeal.nD) :
    (Cert.KernelIdeal.Hand.V m c Cert.KernelIdeal.main_arg0 : FVec Ideal Cert.KernelIdeal.S8192x8192 .f32) = (m' ((c.tc : Thread Cert.ReferenceIdeal.nD Cert.ReferenceIdeal.τ).loc Cert.ReferenceIdeal.main_arg0)) :=
  (Cert.KernelIdeal.Hand.V_of m c Cert.KernelIdeal.main_arg0 (by decide)).trans (hag c).1.symm

/-- The weights and bias rows as the region finds them: the reference's arguments, the weights narrowed (the identity
    over the extended reals), the bias vectors as 1 × N rows. -/
theorem V_w0 (hag : Agree m m') (c : Dev Cert.KernelIdeal.nD) :
    (Cert.KernelIdeal.Hand.V m c Cert.KernelIdeal.main_v64 : FVec Ideal Cert.KernelIdeal.S8192x32 .f32) = (m' ((c.tc : Thread Cert.ReferenceIdeal.nD Cert.ReferenceIdeal.τ).loc Cert.ReferenceIdeal.main_arg11)) :=
  (headK_main_v64 (fun b => m (c, b))).trans (hag c).2.2.2.2.2.2.2.2.2.2.2.1.symm
theorem V_w1 (hag : Agree m m') (c : Dev Cert.KernelIdeal.nD) :
    (Cert.KernelIdeal.Hand.V m c Cert.KernelIdeal.main_v65 : FVec Ideal Cert.KernelIdeal.S32x32 .f32) = (m' ((c.tc : Thread Cert.ReferenceIdeal.nD Cert.ReferenceIdeal.τ).loc Cert.ReferenceIdeal.main_arg13)) :=
  (headK_main_v65 (fun b => m (c, b))).trans (hag c).2.2.2.2.2.2.2.2.2.2.2.2.2.1.symm
theorem V_w2 (hag : Agree m m') (c : Dev Cert.KernelIdeal.nD) :
    (Cert.KernelIdeal.Hand.V m c Cert.KernelIdeal.main_v66 : FVec Ideal Cert.KernelIdeal.S32x32 .f32) = (m' ((c.tc : Thread Cert.ReferenceIdeal.nD Cert.ReferenceIdeal.τ).loc Cert.ReferenceIdeal.main_arg15)) :=
  (headK_main_v66 (fun b => m (c, b))).trans (hag c).2.2.2.2.2.2.2.2.2.2.2.2.2.2.2.1.symm
theorem V_w3 (hag : Agree m m') (c : Dev Cert.KernelIdeal.nD) :
    (Cert.KernelIdeal.Hand.V m c Cert.KernelIdeal.main_v67 : FVec Ideal Cert.KernelIdeal.S32x8192 .f32) = (m' ((c.tc : Thread Cert.ReferenceIdeal.nD Cert.ReferenceIdeal.τ).loc Cert.ReferenceIdeal.main_arg17)) :=
  (headK_main_v67 (fun b => m (c, b))).trans (hag c).2.2.2.2.2.2.2.2.2.2.2.2.2.2.2.2.2.1.symm
theorem V_r0 (hag : Agree m m') (c : Dev Cert.KernelIdeal.nD) :
    (Cert.KernelIdeal.Hand.V m c Cert.KernelIdeal.main_v68 : FVec Ideal Cert.KernelIdeal.S1x32 .f32) = shapeCast Cert.KernelIdeal.S1x32 (m' ((c.tc : Thread Cert.ReferenceIdeal.nD Cert.ReferenceIdeal.τ).loc Cert.ReferenceIdeal.main_arg12)) Cert.KernelIdeal.Facts₀.shapeCasts_S32_S1x32 :=
  (headK_main_v68 (fun b => m (c, b))).trans (congrArg (fun z => shapeCast Cert.KernelIdeal.S1x32 z Cert.KernelIdeal.Facts₀.shapeCasts_S32_S1x32) (hag c).2.2.2.2.2.2.2.2.2.2.2.2.1.symm)
theorem V_r1 (hag : Agree m m') (c : Dev Cert.KernelIdeal.nD) :
    (Cert.KernelIdeal.Hand.V m c Cert.KernelIdeal.main_v69 : FVec Ideal Cert.KernelIdeal.S1x32 .f32) = shapeCast Cert.KernelIdeal.S1x32 (m' ((c.tc : Thread Cert.ReferenceIdeal.nD Cert.ReferenceIdeal.τ).loc Cert.ReferenceIdeal.main_arg14)) Cert.KernelIdeal.Facts₀.shapeCasts_S32_S1x32 :=
  (headK_main_v69 (fun b => m (c, b))).trans (congrArg (fun z => shapeCast Cert.KernelIdeal.S1x32 z Cert.KernelIdeal.Facts₀.shapeCasts_S32_S1x32) (hag c).2.2.2.2.2.2.2.2.2.2.2.2.2.2.1.symm)
theorem V_r2 (hag : Agree m m') (c : Dev Cert.KernelIdeal.nD) :
    (Cert.KernelIdeal.Hand.V m c Cert.KernelIdeal.main_v70 : FVec Ideal Cert.KernelIdeal.S1x32 .f32) = shapeCast Cert.KernelIdeal.S1x32 (m' ((c.tc : Thread Cert.ReferenceIdeal.nD Cert.ReferenceIdeal.τ).loc Cert.ReferenceIdeal.main_arg16)) Cert.KernelIdeal.Facts₀.shapeCasts_S32_S1x32 :=
  (headK_main_v70 (fun b => m (c, b))).trans (congrArg (fun z => shapeCast Cert.KernelIdeal.S1x32 z Cert.KernelIdeal.Facts₀.shapeCasts_S32_S1x32) (hag c).2.2.2.2.2.2.2.2.2.2.2.2.2.2.2.2.1.symm)
theorem V_r3 (hag : Agree m m') (c : Dev Cert.KernelIdeal.nD) :
    (Cert.KernelIdeal.Hand.V m c Cert.KernelIdeal.main_v71 : FVec Ideal Cert.KernelIdeal.S1x8192 .f32) = shapeCast Cert.KernelIdeal.S1x8192 (m' ((c.tc : Thread Cert.ReferenceIdeal.nD Cert.ReferenceIdeal.τ).loc Cert.ReferenceIdeal.main_arg18)) Cert.KernelIdeal.Facts₀.shapeCasts_S8192_S1x8192 :=
  (headK_main_v71 (fun b => m (c, b))).trans (congrArg (fun z => shapeCast Cert.KernelIdeal.S1x8192 z Cert.KernelIdeal.Facts₀.shapeCasts_S8192_S1x8192) (hag c).2.2.2.2.2.2.2.2.2.2.2.2.2.2.2.2.2.2.1.symm)

/-- The first dense layer: what the region leaves is what the reference's contraction and bias broadcast compute. -/
theorem b0_eq (hag : Agree m m') (c : Dev Cert.KernelIdeal.nD) :
    Cert.KernelIdeal.HandValue.G9 m c = StableHlo.after headR (StableHlo.launchContents m' c) (Cert.ReferenceIdeal.main_v67 : DevRef Cert.ReferenceIdeal.τ Cert.ReferenceIdeal.sig) := by
  refine Eq.trans ?_ (ref_b0 (StableHlo.launchContents m' c)).symm
  refine Eq.trans ?_ (dense_host_eq (E := 8192) (A := 8192) (N := 32) Cert.ReferenceIdeal.dot_S8192x8192_S8192x32_S8192x32_1_0_0_1_n_n rfl
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) _ _ Cert.KernelIdeal.Facts₀.shapeCasts_S32_S1x32).symm
  exact denseOut_congr3 (V_arg m m' hag c) (V_w0 m m' hag c) (V_r0 m m' hag c)

/-- Three dense layers in the whole-array spelling, one after the other, are the three layers with the biases as rows. -/
theorem host_chain {E H N : ℕ}
    (D1 : DotDims ⟨2, ![E, H]⟩ ⟨2, ![H, H]⟩ ⟨2, ![E, H]⟩) (hD1 : D1 = DotDims.plain E H H)
    (D3 : DotDims ⟨2, ![E, H]⟩ ⟨2, ![H, N]⟩ ⟨2, ![E, N]⟩) (hD3 : D3 = DotDims.plain E H N)
    (x : FVec Ideal ⟨2, ![E, H]⟩ .f32) (W1 W2 : FVec Ideal ⟨2, ![H, H]⟩ .f32) (W3 : FVec Ideal ⟨2, ![H, N]⟩ .f32)
    (b1 b2 : FVec Ideal ⟨1, ![H]⟩ .f32) (b3 : FVec Ideal ⟨1, ![N]⟩ .f32)
    (h1H : (⟨1, ![H]⟩ : Shape).BroadcastsInDim ⟨2, ![1, H]⟩ ![1]) (h2H : (⟨2, ![1, H]⟩ : Shape).BroadcastsInDim ⟨2, ![E, H]⟩ ![0, 1])
    (hsH : (⟨1, ![H]⟩ : Shape).ShapeCasts ⟨2, ![1, H]⟩)
    (h1N : (⟨1, ![N]⟩ : Shape).BroadcastsInDim ⟨2, ![1, N]⟩ ![1]) (h2N : (⟨2, ![1, N]⟩ : Shape).BroadcastsInDim ⟨2, ![E, N]⟩ ![0, 1])
    (hsN : (⟨1, ![N]⟩ : Shape).ShapeCasts ⟨2, ![1, N]⟩) :
    addf (Host.dotGeneral (F := Ideal) D3 none
          (addf (Host.dotGeneral (F := Ideal) D1 none
            (addf (Host.dotGeneral (F := Ideal) D1 none x W1)
              (broadcastInDim ⟨2, ![E, H]⟩ ![0, 1] h2H (broadcastInDim ⟨2, ![1, H]⟩ ![1] h1H b1)))
            W2)
            (broadcastInDim ⟨2, ![E, H]⟩ ![0, 1] h2H (broadcastInDim ⟨2, ![1, H]⟩ ![1] h1H b2)))
          W3)
          (broadcastInDim ⟨2, ![E, N]⟩ ![0, 1] h2N (broadcastInDim ⟨2, ![1, N]⟩ ![1] h1N b3))
      = denseOut (denseOut (denseOut x W1 (shapeCast ⟨2, ![1, H]⟩ b1 hsH)) W2 (shapeCast ⟨2, ![1, H]⟩ b2 hsH)) W3
          (shapeCast ⟨2, ![1, N]⟩ b3 hsN) := by
  rw [dense_host_eq D1 hD1 x W1 b1 h1H h2H hsH, dense_host_eq D1 hD1 _ W2 b2 h1H h2H hsH, dense_host_eq D3 hD3 _ W3 b3 h1N h2N hsN]

/-- The chain's last layer: what the region leaves is what the reference's four contractions compute. -/
theorem b3_eq (hag : Agree m m') (c : Dev Cert.KernelIdeal.nD) :
    Cert.KernelIdeal.HandValue.G10 m c = StableHlo.after Cert.ReferenceIdeal.Hand.ops (StableHlo.launchContents m' c) (Cert.ReferenceIdeal.main_v137 : DevRef Cert.ReferenceIdeal.τ Cert.ReferenceIdeal.sig) := by
  rw [ops_split, after_append]
  refine Eq.trans ?_ (ref_b3 _).symm
  rw [headR_kept _ Cert.ReferenceIdeal.main_arg13 (by decide), headR_kept _ Cert.ReferenceIdeal.main_arg14 (by decide), headR_kept _ Cert.ReferenceIdeal.main_arg15 (by decide),
    headR_kept _ Cert.ReferenceIdeal.main_arg16 (by decide), headR_kept _ Cert.ReferenceIdeal.main_arg17 (by decide), headR_kept _ Cert.ReferenceIdeal.main_arg18 (by decide),
    ← b0_eq m m' hag c]
  refine Eq.trans ?_ (host_chain (E := 8192) (H := 32) (N := 8192) Cert.ReferenceIdeal.dot_S8192x32_S32x32_S8192x32_1_0_0_1_n_n rfl
    Cert.ReferenceIdeal.dot_S8192x32_S32x8192_S8192x8192_1_0_0_1_n_n rfl (Cert.KernelIdeal.HandValue.G9 m c)
    (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg18))
    _ _ Cert.KernelIdeal.Facts₀.shapeCasts_S32_S1x32 _ _ Cert.KernelIdeal.Facts₀.shapeCasts_S8192_S1x8192).symm
  exact denseOut_congr3 (denseOut_congr3 (denseOut_congr3 rfl (V_w1 m m' hag c) (V_r1 m m' hag c)) (V_w2 m m' hag c) (V_r2 m m' hag c))
    (V_w3 m m' hag c) (V_r3 m m' hag c)

/-- The classifier's result: the host operations after the region, from the region's exit contents, compute what the
    reference's operations compute from its launch memory. -/
theorem out_eq (hag : Agree m m') (c : Dev Cert.KernelIdeal.nD) :
    Pipeline.afterTail₀ Cert.KernelIdeal.cfgs (Cert.KernelIdeal.Hand.dats m) 0 (Cert.KernelIdeal.Hand.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5] c Cert.KernelIdeal.main_v136
      = StableHlo.after Cert.ReferenceIdeal.Hand.ops (StableHlo.launchContents m' c) (Cert.ReferenceIdeal.main_v143 : DevRef Cert.ReferenceIdeal.τ Cert.ReferenceIdeal.sig) := by
  unfold Pipeline.afterTail₀
  rw [ops_split, after_append]
  refine tail_out _ _ ?h63 ?h72 ?hv3 ?hv6 ?h5 ?h6 ?h9 ?h10 ?h19 ?h20
  case h63 =>
    rw [Pipeline.withArrays_of_ne _ c _ _ Cert.KernelIdeal.main_v63 (by decide)]
    exact head_v63 _ _ (hag c).2.1.symm (hag c).2.2.1.symm (hag c).2.2.2.1.symm (hag c).2.2.2.2.1.symm (hag c).2.2.2.2.2.2.2.1.symm (hag c).2.2.2.2.2.2.2.2.1.symm
  case hv3 =>
    rw [Pipeline.withArrays_of_ne _ c _ _ Cert.KernelIdeal.main_v3 (by decide)]
    exact head_v3 _ _ (hag c).2.1.symm (hag c).2.2.1.symm (hag c).2.2.2.1.symm (hag c).2.2.2.2.1.symm (hag c).2.2.2.2.2.2.2.1.symm (hag c).2.2.2.2.2.2.2.2.1.symm
  case hv6 =>
    rw [Pipeline.withArrays_of_ne _ c _ _ Cert.KernelIdeal.main_v6 (by decide)]
    exact head_v6 _ _ (hag c).2.1.symm (hag c).2.2.1.symm (hag c).2.2.2.1.symm (hag c).2.2.2.2.1.symm (hag c).2.2.2.2.2.2.2.1.symm (hag c).2.2.2.2.2.2.2.2.1.symm
  case h72 =>
    refine (Pipeline.withArrays_arr _ Cert.KernelIdeal.Gen.launch0.win.arr_inj c _ _ 9).trans ?_
    exact (Cert.KernelIdeal.HandValue.final9 m c).trans (b0_eq m m' hag c)
  case h5 =>
    rw [Pipeline.withArrays_of_ne _ c _ _ Cert.KernelIdeal.main_arg5 (by decide), headR_kept _ Cert.ReferenceIdeal.main_arg5 (by decide)]
    exact (Cert.KernelIdeal.Hand.V_of m c Cert.KernelIdeal.main_arg5 (by decide)).trans (hag c).2.2.2.2.2.1.symm
  case h6 =>
    rw [Pipeline.withArrays_of_ne _ c _ _ Cert.KernelIdeal.main_arg6 (by decide), headR_kept _ Cert.ReferenceIdeal.main_arg6 (by decide)]
    exact (Cert.KernelIdeal.Hand.V_of m c Cert.KernelIdeal.main_arg6 (by decide)).trans (hag c).2.2.2.2.2.2.1.symm
  case h9 =>
    rw [Pipeline.withArrays_of_ne _ c _ _ Cert.KernelIdeal.main_arg9 (by decide), headR_kept _ Cert.ReferenceIdeal.main_arg9 (by decide)]
    exact (Cert.KernelIdeal.Hand.V_of m c Cert.KernelIdeal.main_arg9 (by decide)).trans (hag c).2.2.2.2.2.2.2.2.2.1.symm
  case h10 =>
    rw [Pipeline.withArrays_of_ne _ c _ _ Cert.KernelIdeal.main_arg10 (by decide), headR_kept _ Cert.ReferenceIdeal.main_arg10 (by decide)]
    exact (Cert.KernelIdeal.Hand.V_of m c Cert.KernelIdeal.main_arg10 (by decide)).trans (hag c).2.2.2.2.2.2.2.2.2.2.1.symm
  case h19 =>
    rw [Pipeline.withArrays_of_ne _ c _ _ Cert.KernelIdeal.main_arg19 (by decide), headR_kept _ Cert.ReferenceIdeal.main_arg19 (by decide)]
    exact (Cert.KernelIdeal.Hand.V_of m c Cert.KernelIdeal.main_arg19 (by decide)).trans (hag c).2.2.2.2.2.2.2.2.2.2.2.2.2.2.2.2.2.2.2.1.symm
  case h20 =>
    rw [Pipeline.withArrays_of_ne _ c _ _ Cert.KernelIdeal.main_arg20 (by decide), headR_kept _ Cert.ReferenceIdeal.main_arg20 (by decide)]
    exact (Cert.KernelIdeal.Hand.V_of m c Cert.KernelIdeal.main_arg20 (by decide)).trans (hag c).2.2.2.2.2.2.2.2.2.2.2.2.2.2.2.2.2.2.2.2.symm

/-- The algebraic claim: from memories agreeing on the arguments both programs run to the end with equal results — the
    classifier's log-softmax by the shared host operations on equal inputs, the chain's last layer by the dense layers
    read block by block on one side and as whole-array contractions on the other — and unchanged arguments. -/
theorem algebraic : Cert.algebraic_KernelIdeal_ReferenceIdeal := by
  intro m ρ m' ρ' _ hag
  refine ⟨fun c => Pipeline.afterTail₀ Cert.KernelIdeal.cfgs (Cert.KernelIdeal.Hand.dats m) 0 (Cert.KernelIdeal.Hand.V0 m) [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5] c Cert.KernelIdeal.main_v136,
    fun c => Cert.KernelIdeal.HandValue.G10 m c, ?_, ?_⟩
  · exact (θ_run Cert.KernelIdeal.defs _ _).mono (fun r h c => ⟨(Cert.KernelIdeal.HandValue.values_of_post m r h c).1, (Cert.KernelIdeal.HandValue.values_of_post m r h c).2,
      Cert.KernelIdeal.Hand.args_of_post m r h c⟩) (Cert.KernelIdeal.Hand.run_main m ρ)
  · exact (θ_run Cert.ReferenceIdeal.defs _ _).mono (fun r h c => ⟨(h c Cert.ReferenceIdeal.main_v143).trans (out_eq m m' hag c).symm,
      (h c Cert.ReferenceIdeal.main_v137).trans (b3_eq m m' hag c).symm,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _),
      (h c Cert.ReferenceIdeal.main_arg15).trans (Cert.ReferenceIdeal.Hand.kept_arg15 _),
      (h c Cert.ReferenceIdeal.main_arg16).trans (Cert.ReferenceIdeal.Hand.kept_arg16 _),
      (h c Cert.ReferenceIdeal.main_arg17).trans (Cert.ReferenceIdeal.Hand.kept_arg17 _),
      (h c Cert.ReferenceIdeal.main_arg18).trans (Cert.ReferenceIdeal.Hand.kept_arg18 _),
      (h c Cert.ReferenceIdeal.main_arg19).trans (Cert.ReferenceIdeal.Hand.kept_arg19 _),
      (h c Cert.ReferenceIdeal.main_arg20).trans (Cert.ReferenceIdeal.Hand.kept_arg20 _)⟩) (Cert.ReferenceIdeal.Hand.run m' ρ')

end Cert.Bridge

end
-- ==== Proof.lean ====
/-
  The certificate's claim: the three frames, the (empty) ledger of the idealisation, and the equality of results over
  the extended reals.

  The program computes two graph-convolution layers with batch normalisation and relu, a classifier with log-softmax,
  and beside them a chain of four dense layers on an 8192 × 8192 matrix; the kernel program takes the chain through
  one kernel region over 64 blocks of 128 rows, the reference through four whole-array contractions.  A dense
  layer's row reads only the same row of its input, so the blocks' results are the rows of the whole-array results;
  everything else is the same host operations on both sides.
-/
import proofs.«105389_j88072599372111_1_alg».proof.Defs
import proofs.«105389_j88072599372111_1_alg».proof.Proof.Gen.Kernel
import proofs.«105389_j88072599372111_1_alg».proof.Proof.Gen.KernelIdeal
import proofs.«105389_j88072599372111_1_alg».proof.Proof.Gen.ReferenceIdeal
import proofs.«105389_j88072599372111_1_alg».proof.Proof.Gen.Pre_finite_inputs
import proofs.«105389_j88072599372111_1_alg».proof.Proof.KFrame
import proofs.«105389_j88072599372111_1_alg».proof.Proof.KIFrame
import proofs.«105389_j88072599372111_1_alg».proof.Proof.RefRun
import proofs.«105389_j88072599372111_1_alg».proof.Proof.Bridge

noncomputable section

namespace Cert.Proof

open Idealize.ShloMosaic Idealize.SL.Sem

/-- The word-level kernel program runs to the end and leaves its arguments as launched. -/
theorem frame_k : Cert.frame_Kernel := fun m ρ _ => Cert.Kernel.Hand.frame m ρ
/-- So does its idealisation. -/
theorem frame_ki : Cert.frame_KernelIdeal := fun m ρ _ => Cert.KernelIdeal.Hand.frame m ρ
/-- And the reference: its operations' fold leaves every argument buffer untouched. -/
theorem frame_ri : Cert.frame_ReferenceIdeal := fun m ρ _ => Cert.ReferenceIdeal.Hand.frame m ρ
/-- The ideal pass rewrote nothing. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
